-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x10000x128 : Shape := ⟨3, ![4, 10000, 128]⟩
abbrev S10000x10000 : Shape := ⟨2, ![10000, 10000]⟩
abbrev S4x128x16 : Shape := ⟨3, ![4, 128, 16]⟩
abbrev S4x16 : Shape := ⟨2, ![4, 16]⟩
abbrev S64x40 : Shape := ⟨2, ![64, 40]⟩
abbrev S40 : Shape := ⟨1, ![40]⟩
abbrev S_ : Shape := ⟨0, ![]⟩

class Facts : Prop where
  bcast_S_S4x10000x128 : S_.BroadcastsInDim S4x10000x128 (![] : Fin 0 → Fin S4x10000x128.rank)
  reducesTo_S4x10000x128_S_d0_1_2 : S4x10000x128.ReducesTo [0, 1, 2] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S4x128x16 : S_.BroadcastsInDim S4x128x16 (![] : Fin 0 → Fin S4x128x16.rank)
  reducesTo_S4x128x16_S_d0_1_2 : S4x128x16.ReducesTo [0, 1, 2] S_
  bcast_S_S4x16 : S_.BroadcastsInDim S4x16 (![] : Fin 0 → Fin S4x16.rank)
  reducesTo_S4x16_S_d0_1 : S4x16.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S64x40 .f32) (main_arg5 : FVec F S40 .f32) (main_v13 : IVec S_ 1) (main_v16 : IVec S4x16 1) : IVec S_ 1 :=
  let main_c_5 : IVec S_ 1 := constantI S_ 1 1#1
  let main_v17 : IVec S_ 1 := (fun x v => Host.reduce IntOp.andi x v reducesTo_S4x16_S_d0_1 h_S_) main_v16 main_c_5
  let main_v18 : IVec S_ 1 := andi main_v13 main_v17
  let main_v19 : FVec F S64x40 .f32 := Host.absf main_arg4
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S4x10000x128 .f32) (main_arg1 : FVec F S10000x10000 .f32) (main_arg2 : FVec F S4x128x16 .f32) (main_arg3 : FVec F S4x16 .f32) (main_arg4 : FVec F S64x40 .f32) (main_arg5 : FVec F S40 .f32) : IVec S_ 1 :=
  let main_v0 : FVec F S4x10000x128 .f32 := Host.absf main_arg0
  let main_cst : FVec F S_ .f32 := constant S_ .f32 0x7F800000#32
  let main_v1 : FVec F S4x10000x128 .f32 := broadcastInDim S4x10000x128 ![] bcast_S_S4x10000x128 main_cst
  let main_v2 : IVec S4x10000x128 1 := cmpf .olt main_v0 main_v1
  let main_c : IVec S_ 1 := constantI S_ 1 1#1
  let main_v3 : IVec S_ 1 := (fun x v => Host.reduce IntOp.andi x v reducesTo_S4x10000x128_S_d0_1_2 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S4x128x16 .f32 := Host.absf main_arg2
  let main_cst_2 : FVec F S_ .f32 := constant S_ .f32 0x7F800000#32
  let main_v10 : FVec F S4x128x16 .f32 := broadcastInDim S4x128x16 ![] bcast_S_S4x128x16 main_cst_2
  let main_v11 : IVec S4x128x16 1 := cmpf .olt main_v9 main_v10
  let main_c_3 : IVec S_ 1 := constantI S_ 1 1#1
  let main_v12 : IVec S_ 1 := (fun x v => Host.reduce IntOp.andi x v reducesTo_S4x128x16_S_d0_1_2 h_S_) main_v11 main_c_3
  let main_v13 : IVec S_ 1 := andi main_v8 main_v12
  let main_v14 : FVec F S4x16 .f32 := Host.absf main_arg3
  let main_cst_4 : FVec F S_ .f32 := constant S_ .f32 0x7F800000#32
  let main_v15 : FVec F S4x16 .f32 := broadcastInDim S4x16 ![] bcast_S_S4x16 main_cst_4
  let main_v16 : IVec S4x16 1 := cmpf .olt main_v14 main_v15
  fn_part1 (F := F) main_arg4 main_arg5 main_v13 main_v16
-- ==== Kernel.lean ====
abbrev S4x10000x128 : Shape := ⟨3, ![4, 10000, 128]⟩
abbrev S10000x10000 : Shape := ⟨2, ![10000, 10000]⟩
abbrev S4x128x16 : Shape := ⟨3, ![4, 128, 16]⟩
abbrev S4x16 : Shape := ⟨2, ![4, 16]⟩
abbrev S64x40 : Shape := ⟨2, ![64, 40]⟩
abbrev S40 : Shape := ⟨1, ![40]⟩
abbrev S1x40 : Shape := ⟨2, ![1, 40]⟩
abbrev S10000x40 : Shape := ⟨2, ![10000, 40]⟩
abbrev S4x400x128 : Shape := ⟨3, ![4, 400, 128]⟩
abbrev S400x10000 : Shape := ⟨2, ![400, 10000]⟩
abbrev S400x40 : Shape := ⟨2, ![400, 40]⟩
abbrev S10000x64 : Shape := ⟨2, ![10000, 64]⟩
abbrev S1x400x128 : Shape := ⟨3, ![1, 400, 128]⟩
abbrev S400x128 : Shape := ⟨2, ![400, 128]⟩
abbrev S1x128x16 : Shape := ⟨3, ![1, 128, 16]⟩
abbrev S128x16 : Shape := ⟨2, ![128, 16]⟩
abbrev S400x16 : Shape := ⟨2, ![400, 16]⟩
abbrev S1x16 : Shape := ⟨2, ![1, 16]⟩
abbrev S400x64 : Shape := ⟨2, ![400, 64]⟩

abbrev nBuf : Space → Nat
  | .hbm => 8
  | .vmem => 12
  | .smem => 0
  | _ => 0

abbrev bufTy : (tb : Table) → Fin (tcTables nBuf tb) → BufTy
  | .hbm, ⟨0, _⟩ => ⟨S4x10000x128, .f32⟩
  | .hbm, ⟨1, _⟩ => ⟨S10000x10000, .f32⟩
  | .hbm, ⟨2, _⟩ => ⟨S4x128x16, .f32⟩
  | .hbm, ⟨3, _⟩ => ⟨S4x16, .f32⟩
  | .hbm, ⟨4, _⟩ => ⟨S64x40, .f32⟩
  | .hbm, ⟨5, _⟩ => ⟨S40, .f32⟩
  | .hbm, ⟨6, _⟩ => ⟨S1x40, .f32⟩
  | .hbm, ⟨7, _⟩ => ⟨S10000x40, .f32⟩
  | .local _ .vmem, ⟨0, _⟩ => ⟨S4x400x128, .f32⟩
  | .local _ .vmem, ⟨1, _⟩ => ⟨S4x400x128, .f32⟩
  | .local _ .vmem, ⟨2, _⟩ => ⟨S400x10000, .f32⟩
  | .local _ .vmem, ⟨3, _⟩ => ⟨S400x10000, .f32⟩
  | .local _ .vmem, ⟨4, _⟩ => ⟨S4x128x16, .f32⟩
  | .local _ .vmem, ⟨5, _⟩ => ⟨S4x16, .f32⟩
  | .local _ .vmem, ⟨6, _⟩ => ⟨S64x40, .f32⟩
  | .local _ .vmem, ⟨7, _⟩ => ⟨S1x40, .f32⟩
  | .local _ .vmem, ⟨8, _⟩ => ⟨S400x40, .f32⟩
  | .local _ .vmem, ⟨9, _⟩ => ⟨S400x40, .f32⟩
  | .local _ .vmem, ⟨10, _⟩ => ⟨S10000x64, .f32⟩
  | .local _ .vmem, ⟨11, _⟩ => ⟨S10000x40, .f32⟩
  | _, _ => ⟨S4x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![3, 25], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c400_i32 : BitVec 32 := 400#32
  let v17 : BitVec 32 := Scalar.muli arg1 c400_i32
  let v18 : Index := Scalar.indexCast v17
  let c0_10 : Index := 0#32
  ![v18.toNat, 0]
def k0_off2 (i : grid0.Coords) : Fin 2 → Nat :=
  let arg1 : BitVec 32 := BitVec.ofNat 32 (i 1).val
  let c400_i32_19 : BitVec 32 := 400#32
  let v30 : BitVec 32 := Scalar.muli arg1 c400_i32_19
  let v31 : Index := Scalar.indexCast v30
  let c16 : Index := 16#32
  ![v31.toNat, 16]
def k0_off3 (i : grid0.Coords) : Fin 2 → Nat :=
  let arg1 : BitVec 32 := BitVec.ofNat 32 (i 1).val
  let c400_i32_28 : BitVec 32 := 400#32
  let v43 : BitVec 32 := Scalar.muli arg1 c400_i32_28
  let v44 : Index := Scalar.indexCast v43
  let c32 : Index := 32#32
  ![v44.toNat, 32]
def k0_off4 (i : grid0.Coords) : Fin 2 → Nat :=
  let arg1 : BitVec 32 := BitVec.ofNat 32 (i 1).val
  let c400_i32_37 : BitVec 32 := 400#32
  let v56 : BitVec 32 := Scalar.muli arg1 c400_i32_37
  let v57 : Index := Scalar.indexCast v56
  let c48 : Index := 48#32
  ![v57.toNat, 48]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off5 (i : grid0.Coords) : Fin 2 → Nat :=
  let arg1 : BitVec 32 := BitVec.ofNat 32 (i 1).val
  let c400_i32 : BitVec 32 := 400#32
  let v20 : BitVec 32 := Scalar.muli arg1 c400_i32
  let v21 : Index := Scalar.indexCast v20
  let c0_12 : Index := 0#32
  ![v21.toNat, 0]
def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S4x400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x40 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S40_S1x40 : S40.ShapeCasts S1x40
  inb_S4x400x128_S1x400x128_0_0_0 : ∀ a, (![0, 0, 0] : Fin 3 → Nat) a + S1x400x128.size a ≤ S4x400x128.size a
  h_S1x400x128 : 0 < S1x400x128.numel
  shapeCasts_S1x400x128_S400x128 : S1x400x128.ShapeCasts S400x128
  inb_S4x128x16_S1x128x16_0_0_0 : ∀ a, (![0, 0, 0] : Fin 3 → Nat) a + S1x128x16.size a ≤ S4x128x16.size a
  h_S1x128x16 : 0 < S1x128x16.numel
  shapeCasts_S1x128x16_S128x16 : S1x128x16.ShapeCasts S128x16
  inb_S4x16_S1x16_0_0 : ∀ a, (![0, 0] : Fin 2 → Nat) a + S1x16.size a ≤ S4x16.size a
  h_S1x16 : 0 < S1x16.numel
  broadcasts_S1x16_S400x16 : S1x16.Broadcasts S400x16
  h_S400x16 : 0 < S400x16.numel
  shapeCasts_S400x16_S400x16 : S400x16.ShapeCasts S400x16
  inb_S4x400x128_S1x400x128_1_0_0 : ∀ a, (![1, 0, 0] : Fin 3 → Nat) a + S1x400x128.size a ≤ S4x400x128.size a
  inb_S4x128x16_S1x128x16_1_0_0 : ∀ a, (![1, 0, 0] : Fin 3 → Nat) a + S1x128x16.size a ≤ S4x128x16.size a
  inb_S4x16_S1x16_1_0 : ∀ a, (![1, 0] : Fin 2 → Nat) a + S1x16.size a ≤ S4x16.size a
  inb_S4x400x128_S1x400x128_2_0_0 : ∀ a, (![2, 0, 0] : Fin 3 → Nat) a + S1x400x128.size a ≤ S4x400x128.size a
  inb_S4x128x16_S1x128x16_2_0_0 : ∀ a, (![2, 0, 0] : Fin 3 → Nat) a + S1x128x16.size a ≤ S4x128x16.size a
  inb_S4x16_S1x16_2_0 : ∀ a, (![2, 0] : Fin 2 → Nat) a + S1x16.size a ≤ S4x16.size a
  inb_S4x400x128_S1x400x128_3_0_0 : ∀ a, (![3, 0, 0] : Fin 3 → Nat) a + S1x400x128.size a ≤ S4x400x128.size a
  inb_S4x128x16_S1x128x16_3_0_0 : ∀ a, (![3, 0, 0] : Fin 3 → Nat) a + S1x128x16.size a ≤ S4x128x16.size a
  inb_S4x16_S1x16_3_0 : ∀ a, (![3, 0] : Fin 2 → Nat) a + S1x16.size a ≤ S4x16.size a
  inb_S400x10000_S400x10000_0_0 : ∀ a, (![0, 0] : Fin 2 → Nat) a + S400x10000.size a ≤ S400x10000.size a
  h_S400x10000 : 0 < S400x10000.numel
  inb_S10000x64_S10000x64_0_0 : ∀ a, (![0, 0] : Fin 2 → Nat) a + S10000x64.size a ≤ S10000x64.size a
  h_S10000x64 : 0 < S10000x64.numel
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S400x40 : S1x40.Broadcasts S400x40
  h_S400x40 : 0 < S400x40.numel
  shapeCasts_S400x40_S400x40 : S400x40.ShapeCasts S400x40
  inb_S10000x40_S10000x40_0_0 : ∀ a, (![0, 0] : Fin 2 → Nat) a + S10000x40.size a ≤ S10000x40.size a
  h_S10000x40 : 0 < S10000x40.numel
  inb_S400x40_S400x40_0_0 : ∀ a, (![0, 0] : Fin 2 → Nat) a + S400x40.size a ≤ S400x40.size a
  dot_S400x128_S128x16_S400x16_1_0_0_1_n_n_wf : DotDims.WF S400x128 S128x16 S400x16 [1] [0] [0] [1] [] []
  dot_S400x10000_S10000x64_S400x64_1_0_0_1_n_n_wf : DotDims.WF S400x10000 S10000x64 S400x64 [1] [0] [0] [1] [] []
  dot_S400x64_S64x40_S400x40_1_0_0_1_n_n_wf : DotDims.WF S400x64 S64x40 S400x40 [1] [0] [0] [1] [] []
  dot_S400x10000_S10000x40_S400x40_1_0_0_1_n_n_wf : DotDims.WF S400x10000 S10000x40 S400x40 [1] [0] [0] [1] [] []
  hrank0 : 0 < grid0.rank
  k0_off1_inb : ∀ i : grid0.Coords, ∀ (k0_h1 : k0_cond1 i = 1#1), ∀ a, (k0_off1 i) a + S400x16.size a ≤ S10000x64.size a
  k0_off2_inb : ∀ i : grid0.Coords, ∀ (k0_h1 : k0_cond1 i = 1#1), ∀ a, (k0_off2 i) a + S400x16.size a ≤ S10000x64.size a
  k0_off3_inb : ∀ i : grid0.Coords, ∀ (k0_h1 : k0_cond1 i = 1#1), ∀ a, (k0_off3 i) a + S400x16.size a ≤ S10000x64.size a
  k0_off4_inb : ∀ i : grid0.Coords, ∀ (k0_h1 : k0_cond1 i = 1#1), ∀ a, (k0_off4 i) a + S400x16.size a ≤ S10000x64.size a
  k0_off5_inb : ∀ i : grid0.Coords, ∀ (k0_h2 : k0_cond2 i = 1#1), ∀ a, (k0_off5 i) a + S400x40.size a ≤ S10000x40.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x400x128.size a ≤ S4x10000x128.size a
  hwx0_0 : ∀ i : grid0.Coords, EltTy.bits .f32 = 32 ∨ (Rect.block (s := S4x10000x128) S4x400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128x16.size a ≤ S4x128x16.size a
  hwx0_2 : ∀ i : grid0.Coords, EltTy.bits .f32 = 32 ∨ (Rect.block (s := S4x128x16) S4x128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x16.size a ≤ S4x16.size a
  hwx0_3 : ∀ i : grid0.Coords, EltTy.bits .f32 = 32 ∨ (Rect.block (s := S4x16) S4x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x40.size a ≤ S64x40.size a
  hwx0_4 : ∀ i : grid0.Coords, EltTy.bits .f32 = 32 ∨ (Rect.block (s := S64x40) S64x40.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x40.size a ≤ S1x40.size a
  hwx0_5 : ∀ i : grid0.Coords, EltTy.bits .f32 = 32 ∨ (Rect.block (s := S1x40) S1x40.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x40.size a ≤ S10000x40.size a
  hwx0_6 : ∀ i : grid0.Coords, EltTy.bits .f32 = 32 ∨ (Rect.block (s := S10000x40) S400x40.size (cc0_transform_6 i) (hinb0_6 i)).WholeWords (EltTy.packing .f32)

variable [Facts₀]

def dot_S400x128_S128x16_S400x16_1_0_0_1_n_n : DotDims S400x128 S128x16 S400x16 where
  lhsContracting := [1]
  rhsContracting := [0]
  lhsNonContracting := [0]
  rhsNonContracting := [1]
  lhsBatch := []
  rhsBatch := []
  wf := dot_S400x128_S128x16_S400x16_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x40_S400x40_1_0_0_1_n_n : DotDims S400x64 S64x40 S400x40 where
  lhsContracting := [1]
  rhsContracting := [0]
  lhsNonContracting := [0]
  rhsNonContracting := [1]
  lhsBatch := []
  rhsBatch := []
  wf := dot_S400x64_S64x40_S400x40_1_0_0_1_n_n_wf
def dot_S400x10000_S10000x40_S400x40_1_0_0_1_n_n : DotDims S400x10000 S10000x40 S400x40 where
  lhsContracting := [1]
  rhsContracting := [0]
  lhsNonContracting := [0]
  rhsNonContracting := [1]
  lhsBatch := []
  rhsBatch := []
  wf := dot_S400x10000_S10000x40_S400x40_1_0_0_1_n_n_wf

abbrev win0_0 : Pipeline.Window sig grid0 :=
  Pipeline.Window.ofSpec (Memref.whole main_arg0) S4x400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x40.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x40.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S400x40.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S4x10000x128 : Shape := ⟨3, ![4, 10000, 128]⟩
abbrev S10000x10000 : Shape := ⟨2, ![10000, 10000]⟩
abbrev S4x128x16 : Shape := ⟨3, ![4, 128, 16]⟩
abbrev S4x16 : Shape := ⟨2, ![4, 16]⟩
abbrev S64x40 : Shape := ⟨2, ![64, 40]⟩
abbrev S40 : Shape := ⟨1, ![40]⟩
abbrev S1x10000x128 : Shape := ⟨3, ![1, 10000, 128]⟩
abbrev S10000x128 : Shape := ⟨2, ![10000, 128]⟩
abbrev S1x128x16 : Shape := ⟨3, ![1, 128, 16]⟩
abbrev S128x16 : Shape := ⟨2, ![128, 16]⟩
abbrev S1x16 : Shape := ⟨2, ![1, 16]⟩
abbrev S16 : Shape := ⟨1, ![16]⟩
abbrev S10000x16 : Shape := ⟨2, ![10000, 16]⟩
abbrev S_ : Shape := ⟨0, ![]⟩
abbrev S10000x64 : Shape := ⟨2, ![10000, 64]⟩
abbrev S10000x40 : Shape := ⟨2, ![10000, 40]⟩
abbrev S1x40 : Shape := ⟨2, ![1, 40]⟩

abbrev nBuf : Space → Nat
  | .hbm => 68
  | .vmem => 0
  | .smem => 0
  | _ => 0

abbrev bufTy : (tb : Table) → Fin (tcTables nBuf tb) → BufTy
  | .hbm, ⟨0, _⟩ => ⟨S4x10000x128, .f32⟩
  | .hbm, ⟨1, _⟩ => ⟨S10000x10000, .f32⟩
  | .hbm, ⟨2, _⟩ => ⟨S4x128x16, .f32⟩
  | .hbm, ⟨3, _⟩ => ⟨S4x16, .f32⟩
  | .hbm, ⟨4, _⟩ => ⟨S64x40, .f32⟩
  | .hbm, ⟨5, _⟩ => ⟨S40, .f32⟩
  | .hbm, ⟨6, _⟩ => ⟨S1x10000x128, .f32⟩
  | .hbm, ⟨7, _⟩ => ⟨S10000x128, .f32⟩
  | .hbm, ⟨8, _⟩ => ⟨S1x128x16, .f32⟩
  | .hbm, ⟨9, _⟩ => ⟨S128x16, .f32⟩
  | .hbm, ⟨10, _⟩ => ⟨S1x16, .f32⟩
  | .hbm, ⟨11, _⟩ => ⟨S16, .f32⟩
  | .hbm, ⟨12, _⟩ => ⟨S10000x16, .f32⟩
  | .hbm, ⟨13, _⟩ => ⟨S1x16, .f32⟩
  | .hbm, ⟨14, _⟩ => ⟨S10000x16, .f32⟩
  | .hbm, ⟨15, _⟩ => ⟨S10000x16, .f32⟩
  | .hbm, ⟨16, _⟩ => ⟨S10000x16, .f32⟩
  | .hbm, ⟨17, _⟩ => ⟨S_, .f32⟩
  | .hbm, ⟨18, _⟩ => ⟨S10000x16, .f32⟩
  | .hbm, ⟨19, _⟩ => ⟨S10000x16, .f32⟩
  | .hbm, ⟨20, _⟩ => ⟨S1x10000x128, .f32⟩
  | .hbm, ⟨21, _⟩ => ⟨S10000x128, .f32⟩
  | .hbm, ⟨22, _⟩ => ⟨S1x128x16, .f32⟩
  | .hbm, ⟨23, _⟩ => ⟨S128x16, .f32⟩
  | .hbm, ⟨24, _⟩ => ⟨S1x16, .f32⟩
  | .hbm, ⟨25, _⟩ => ⟨S16, .f32⟩
  | .hbm, ⟨26, _⟩ => ⟨S10000x16, .f32⟩
  | .hbm, ⟨27, _⟩ => ⟨S1x16, .f32⟩
  | .hbm, ⟨28, _⟩ => ⟨S10000x16, .f32⟩
  | .hbm, ⟨29, _⟩ => ⟨S10000x16, .f32⟩
  | .hbm, ⟨30, _⟩ => ⟨S10000x16, .f32⟩
  | .hbm, ⟨31, _⟩ => ⟨S_, .f32⟩
  | .hbm, ⟨32, _⟩ => ⟨S10000x16, .f32⟩
  | .hbm, ⟨33, _⟩ => ⟨S10000x16, .f32⟩
  | .hbm, ⟨34, _⟩ => ⟨S1x10000x128, .f32⟩
  | .hbm, ⟨35, _⟩ => ⟨S10000x128, .f32⟩
  | .hbm, ⟨36, _⟩ => ⟨S1x128x16, .f32⟩
  | .hbm, ⟨37, _⟩ => ⟨S128x16, .f32⟩
  | .hbm, ⟨38, _⟩ => ⟨S1x16, .f32⟩
  | .hbm, ⟨39, _⟩ => ⟨S16, .f32⟩
  | .hbm, ⟨40, _⟩ => ⟨S10000x16, .f32⟩
  | .hbm, ⟨41, _⟩ => ⟨S1x16, .f32⟩
  | .hbm, ⟨42, _⟩ => ⟨S10000x16, .f32⟩
  | .hbm, ⟨43, _⟩ => ⟨S10000x16, .f32⟩
  | .hbm, ⟨44, _⟩ => ⟨S10000x16, .f32⟩
  | .hbm, ⟨45, _⟩ => ⟨S_, .f32⟩
  | .hbm, ⟨46, _⟩ => ⟨S10000x16, .f32⟩
  | .hbm, ⟨47, _⟩ => ⟨S10000x16, .f32⟩
  | .hbm, ⟨48, _⟩ => ⟨S1x10000x128, .f32⟩
  | .hbm, ⟨49, _⟩ => ⟨S10000x128, .f32⟩
  | .hbm, ⟨50, _⟩ => ⟨S1x128x16, .f32⟩
  | .hbm, ⟨51, _⟩ => ⟨S128x16, .f32⟩
  | .hbm, ⟨52, _⟩ => ⟨S1x16, .f32⟩
  | .hbm, ⟨53, _⟩ => ⟨S16, .f32⟩
  | .hbm, ⟨54, _⟩ => ⟨S10000x16, .f32⟩
  | .hbm, ⟨55, _⟩ => ⟨S1x16, .f32⟩
  | .hbm, ⟨56, _⟩ => ⟨S10000x16, .f32⟩
  | .hbm, ⟨57, _⟩ => ⟨S10000x16, .f32⟩
  | .hbm, ⟨58, _⟩ => ⟨S10000x16, .f32⟩
  | .hbm, ⟨59, _⟩ => ⟨S_, .f32⟩
  | .hbm, ⟨60, _⟩ => ⟨S10000x16, .f32⟩
  | .hbm, ⟨61, _⟩ => ⟨S10000x16, .f32⟩
  | .hbm, ⟨62, _⟩ => ⟨S10000x64, .f32⟩
  | .hbm, ⟨63, _⟩ => ⟨S10000x40, .f32⟩
  | .hbm, ⟨64, _⟩ => ⟨S1x40, .f32⟩
  | .hbm, ⟨65, _⟩ => ⟨S10000x40, .f32⟩
  | .hbm, ⟨66, _⟩ => ⟨S10000x40, .f32⟩
  | .hbm, ⟨67, _⟩ => ⟨S10000x40, .f32⟩
  | _, _ => ⟨S4x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_cst : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call1_cst : Ref sig .tc := ⟨.hbm, 31, rfl⟩
abbrev main_call1_v0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_call2_cst : Ref sig .tc := ⟨.hbm, 45, rfl⟩
abbrev main_call2_v0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_call3_cst : Ref sig .tc := ⟨.hbm, 59, rfl⟩
abbrev main_call3_v0 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]

class Facts₀ : Prop where
  slices_S4x10000x128_S1x10000x128_0_0_0 : S4x10000x128.Slices ![0, 0, 0] S1x10000x128
  shapeCasts_S1x10000x128_S10000x128 : S1x10000x128.ShapeCasts S10000x128
  slices_S4x128x16_S1x128x16_0_0_0 : S4x128x16.Slices ![0, 0, 0] S1x128x16
  shapeCasts_S1x128x16_S128x16 : S1x128x16.ShapeCasts S128x16
  slices_S4x16_S1x16_0_0 : S4x16.Slices ![0, 0] S1x16
  shapeCasts_S1x16_S16 : S1x16.ShapeCasts S16
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  slices_S4x10000x128_S1x10000x128_1_0_0 : S4x10000x128.Slices ![1, 0, 0] S1x10000x128
  slices_S4x128x16_S1x128x16_1_0_0 : S4x128x16.Slices ![1, 0, 0] S1x128x16
  slices_S4x16_S1x16_1_0 : S4x16.Slices ![1, 0] S1x16
  slices_S4x10000x128_S1x10000x128_2_0_0 : S4x10000x128.Slices ![2, 0, 0] S1x10000x128
  slices_S4x128x16_S1x128x16_2_0_0 : S4x128x16.Slices ![2, 0, 0] S1x128x16
  slices_S4x16_S1x16_2_0 : S4x16.Slices ![2, 0] S1x16
  slices_S4x10000x128_S1x10000x128_3_0_0 : S4x10000x128.Slices ![3, 0, 0] S1x10000x128
  slices_S4x128x16_S1x128x16_3_0_0 : S4x128x16.Slices ![3, 0, 0] S1x128x16
  slices_S4x16_S1x16_3_0 : S4x16.Slices ![3, 0] S1x16
  concatenates_S10000x16_S10000x16_S10000x16_S10000x16_S10000x64_d1 : Shape.Concatenates [S10000x16, S10000x16, S10000x16, S10000x16] S10000x64 1
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x64_S64x40_S10000x40_1_0_0_1_n_n_wf : DotDims.WF S10000x64 S64x40 S10000x40 [1] [0] [0] [1] [] []
  dot_S10000x10000_S10000x40_S10000x40_1_0_0_1_n_n_wf : DotDims.WF S10000x10000 S10000x40 S10000x40 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def dot_S10000x10000_S10000x40_S10000x40_1_0_0_1_n_n : DotDims S10000x10000 S10000x40 S10000x40 where
  lhsContracting := [1]
  rhsContracting := [0]
  lhsNonContracting := [0]
  rhsNonContracting := [1]
  lhsBatch := []
  rhsBatch := []
  wf := dot_S10000x10000_S10000x40_S10000x40_1_0_0_1_n_n_wf

class Facts : Prop extends Facts₀ where

variable [Facts]
-- ==== Proof.BitsSched.lean ====
/-
  The schedule of the three-phase kernel on its 3 × 25 grid, point t = 25·p + i.
  Phase p = 0 (t < 25) fills rows [400·i, 400·i + 400) of the first scratch, phase p = 1 (25 ≤ t < 50) fills the
  same rows of the second scratch from the whole first one, phase p = 2 (50 ≤ t) stores the output block from the
  whole second scratch.  Here: each phase condition in closed form over the point, decided over the 75 points;
  the output window idle and not written back before phase 2 and live in it; the row offsets of the scratch
  stores as 400·(t mod 25); and the region invariant opened at the two scratch buffers.
-/
import proofs.«150119_g28870770163985_cont_9to1_1761_2_alg».proof.Proof.Gen.Kernel.Frame
import proofs.«150119_g28870770163985_cont_9to1_1761_2_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## The phase conditions -/

/-- The point is in phase 0. -/
abbrev condY (i : grid0.Coords) : Prop := k0_cond1 i = 1#1
/-- The point is in phase 1. -/
abbrev condZ (i : grid0.Coords) : Prop := k0_cond2 i = 1#1
/-- The point is in phase 2. -/
abbrev condO (i : grid0.Coords) : Prop := k0_cond3 i = 1#1

theorem hcondY : ∀ t : Fin cfg0.N, condY (grid0.coords t) ↔ t.val < 25 :=
  (by decide +kernel : ∀ t : Fin grid0.N, condY (grid0.coords t) ↔ t.val < 25)
theorem hcondZ : ∀ t : Fin cfg0.N, condZ (grid0.coords t) ↔ (25 ≤ t.val ∧ t.val < 50) :=
  (by decide +kernel : ∀ t : Fin grid0.N, condZ (grid0.coords t) ↔ (25 ≤ t.val ∧ t.val < 50))
theorem hcondO : ∀ t : Fin cfg0.N, condO (grid0.coords t) ↔ 50 ≤ t.val :=
  (by decide +kernel : ∀ t : Fin grid0.N, condO (grid0.coords t) ↔ 50 ≤ t.val)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
/-- Before phase 2 the body stores nothing into the output window, -/
theorem idleAt6 : ∀ t : Fin cfg0.N, ¬condO (grid0.coords t) → cfg0.idle 6 (grid0.coords t) = true := by decide +kernel
/-- and the pipeline does not write its block back (the block index stays 0 up to the first point of phase 2). -/
theorem noFlush6 : ∀ t : Fin cfg0.N, ¬condO (grid0.coords t) → (cfg0.win 6).flush t = false := by decide +kernel
/-- In phase 2 it is live, -/
theorem liveAt6 : ∀ t : Fin cfg0.N, condO (grid0.coords t) → cfg0.idle 6 (grid0.coords t) = false := by decide +kernel
/-- and written back after every point (the block index moves with i, and the last point ends the grid). -/
theorem flush6 : ∀ t : Fin cfg0.N, condO (grid0.coords t) → (cfg0.win 6).flush t = true := by decide +kernel

/-! ## The scratch stores' offsets -/

theorem off1_eq : ∀ t : Fin cfg0.N, k0_off1 (grid0.coords t) = ![400 * (t.val % 25), 0] :=
  (by decide +kernel : ∀ t : Fin grid0.N, k0_off1 (grid0.coords t) = ![400 * (t.val % 25), 0])
theorem off2_eq : ∀ t : Fin cfg0.N, k0_off2 (grid0.coords t) = ![400 * (t.val % 25), 16] :=
  (by decide +kernel : ∀ t : Fin grid0.N, k0_off2 (grid0.coords t) = ![400 * (t.val % 25), 16])
theorem off3_eq : ∀ t : Fin cfg0.N, k0_off3 (grid0.coords t) = ![400 * (t.val % 25), 32] :=
  (by decide +kernel : ∀ t : Fin grid0.N, k0_off3 (grid0.coords t) = ![400 * (t.val % 25), 32])
theorem off4_eq : ∀ t : Fin cfg0.N, k0_off4 (grid0.coords t) = ![400 * (t.val % 25), 48] :=
  (by decide +kernel : ∀ t : Fin grid0.N, k0_off4 (grid0.coords t) = ![400 * (t.val % 25), 48])
theorem off5_eq : ∀ t : Fin cfg0.N, k0_off5 (grid0.coords t) = ![400 * (t.val % 25), 0] :=
  (by decide +kernel : ∀ t : Fin grid0.N, k0_off5 (grid0.coords t) = ![400 * (t.val % 25), 0])

/-! ## The memrefs the body is called with -/

abbrev ms0 (t : Fin cfg0.N) : Memref sig .tc .vmem S4x400x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x128x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x40 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x40 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x40 .f32 := win0_6.stage (cfg0.slots t 6)
abbrev hs6 (t : Fin cfg0.N) : (ms6 t).IsWhole := hstage0_6 ((cfg0.slots t 6).cast nbuf0_6)
/-- The two scratch operands: whole scoped buffers of the kernel's own. -/
abbrev scY : Memref sig .tc .vmem S10000x64 .f32 := Memref.whole cc0_scratch0
abbrev scZ : Memref sig .tc .vmem S10000x40 .f32 := Memref.whole cc0_scratch1

/-- The class invariant with the two scratch operands as memrefs owned at some contents. -/
theorem PhiA_eq (c : Dev nD) :
    (Pipeline.ΦA spec0 c : sProp 𝕄)
      = iprop(iprop((∃ d, owns (c : Thread nD τ) scY fullShare d) ∗ (∃ d, owns (c : Thread nD τ) scZ fullShare d)) ∗ (∃ r, prngReg c r)) := by
  unfold Pipeline.ΦA; rw [scopedRest0_eq]; simp only [scY, scZ, owns_whole]; try rfl

end Cert.Kernel.Body

end
-- ==== Proof.BitsRunY.lean ====
/-
  The body at a point of phase 0: on the x block, the weights and the biases it stores four 400 × 16 pieces into
  the first scratch — branch k's product plus bias at columns [16k, 16k + 16) of the point's 400 rows — over what
  the scratch held, and touches nothing else.  The pieces are found by running the body.
-/
import proofs.«150119_g28870770163985_cont_9to1_1761_2_alg».proof.Proof.BitsSched

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- The pieces phase 0 stores into the first scratch (newest first), with the body's triple: from the three inputs it
    reads and the scratch at contents `y`, to the same inputs and the scratch at `y` under the pieces. -/
noncomputable def runY (c : Dev nD) (i : grid0.Coords) (arg2 : Memref sig .tc .vmem S4x400x128 .f32) (harg2 : arg2.IsWhole) (arg3 : Memref sig .tc .vmem S400x10000 .f32) (harg3 : arg3.IsWhole) (arg4 : Memref sig .tc .vmem S4x128x16 .f32) (harg4 : arg4.IsWhole) (arg5 : Memref sig .tc .vmem S4x16 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S400x40 .f32) (harg8 : arg8.IsWhole) (arg9 : Memref sig .tc .vmem S10000x64 .f32) (harg9 : arg9.IsWhole) (arg10 : Memref sig .tc .vmem S10000x40 .f32) (harg10 : arg10.IsWhole) (hcY : condY i) (hcZ : ¬condZ i) (hcO : ¬condO i)
    (x0 : Vec F S4x400x128 .f32) (x2 : Vec F S4x128x16 .f32) (x3 : Vec F S4x16 .f32) (y : Vec F S10000x64 .f32) :
    { LY : List (View.Piece (Elt F) S10000x64 .f32) //
      ∀ (E : Set ℕ) (K : PUnit → sProp 𝕄),
        iprop(owns (c : Thread nD τ) arg2 fullShare x0 ∗ owns (c : Thread nD τ) arg4 fullShare x2 ∗ owns (c : Thread nD τ) arg5 fullShare x3 ∗ owns (c : Thread nD τ) arg9 fullShare y
            ∗ (iprop(owns (c : Thread nD τ) arg2 fullShare x0 ∗ owns (c : Thread nD τ) arg4 fullShare x2 ∗ owns (c : Thread nD τ) arg5 fullShare x3 ∗ (arg9.view.loc (c : Thread nD τ) ↦[arg9.view.set]{fullShare} arg9.view.writes (Elt F) (harg9.unread y) LY)) -∗ K ⟨⟩))
          ⊢ wp frame (wpE (defs₀ (F := F)) Variants.none c none) E (cc0__lahgcn_kernel i arg2 harg2 arg3 harg3 arg4 harg4 arg5 harg5 arg6 harg6 arg7 harg7 arg8 harg8 arg9 harg9 arg10 harg10) K } := by
  refine ⟨?_, fun E K => ?run⟩
  case run =>
    simp only [cc0__lahgcn_kernel_eq_skeleton]; unfold cc0__lahgcn_kernel_skel
    simp only [k0_part1_eq_skeleton]
    unfold owns
    iintro ⟨⟨%f0, %hf0, H0⟩, ⟨%f2, %hf2, H2⟩, ⟨%f3, %hf3, H3⟩, ⟨%fy, %hfy, HY⟩, Hk⟩
    obtain rfl := harg2.eq_unread hf0; obtain rfl := harg4.eq_unread hf2; obtain rfl := harg5.eq_unread hf3; obtain rfl := harg9.eq_unread hfy
    sl_exec (disch := first | exact hcY | exact hcZ | exact hcO)
    sl_step
    iapply Hk
    isplitl [H0]
    · iexists _; isplitr; · ipureintro; exact harg2.read_unread _
      iexact H0
    isplitl [H2]
    · iexists _; isplitr; · ipureintro; exact harg4.read_unread _
      iexact H2
    isplitl [H3]
    · iexists _; isplitr; · ipureintro; exact harg5.read_unread _
      iexact H3
    iexact HY

end Cert.Kernel.Body

end
-- ==== Proof.BitsRunZ.lean ====
/-
  The body at a point of phase 1: from the hg row strip, the WHOLE first scratch, the second weights and bias it
  stores one 400 × 40 piece into the second scratch at the point's 400 rows, over what that scratch held.
-/
import proofs.«150119_g28870770163985_cont_9to1_1761_2_alg».proof.Proof.BitsSched

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- The piece phase 1 stores into the second scratch, with the body's triple. -/
noncomputable def runZ (c : Dev nD) (i : grid0.Coords) (arg2 : Memref sig .tc .vmem S4x400x128 .f32) (harg2 : arg2.IsWhole) (arg3 : Memref sig .tc .vmem S400x10000 .f32) (harg3 : arg3.IsWhole) (arg4 : Memref sig .tc .vmem S4x128x16 .f32) (harg4 : arg4.IsWhole) (arg5 : Memref sig .tc .vmem S4x16 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S400x40 .f32) (harg8 : arg8.IsWhole) (arg9 : Memref sig .tc .vmem S10000x64 .f32) (harg9 : arg9.IsWhole) (arg10 : Memref sig .tc .vmem S10000x40 .f32) (harg10 : arg10.IsWhole) (hcY : ¬condY i) (hcZ : condZ i) (hcO : ¬condO i)
    (x1 : Vec F S400x10000 .f32) (x4 : Vec F S64x40 .f32) (x5 : Vec F S1x40 .f32) (y : Vec F S10000x64 .f32) (z : Vec F S10000x40 .f32) :
    { LZ : List (View.Piece (Elt F) S10000x40 .f32) //
      ∀ (E : Set ℕ) (K : PUnit → sProp 𝕄),
        iprop(owns (c : Thread nD τ) arg3 fullShare x1 ∗ owns (c : Thread nD τ) arg6 fullShare x4 ∗ owns (c : Thread nD τ) arg7 fullShare x5 ∗ owns (c : Thread nD τ) arg9 fullShare y ∗ owns (c : Thread nD τ) arg10 fullShare z
            ∗ (iprop(owns (c : Thread nD τ) arg3 fullShare x1 ∗ owns (c : Thread nD τ) arg6 fullShare x4 ∗ owns (c : Thread nD τ) arg7 fullShare x5 ∗ owns (c : Thread nD τ) arg9 fullShare y ∗ (arg10.view.loc (c : Thread nD τ) ↦[arg10.view.set]{fullShare} arg10.view.writes (Elt F) (harg10.unread z) LZ)) -∗ K ⟨⟩))
          ⊢ wp frame (wpE (defs₀ (F := F)) Variants.none c none) E (cc0__lahgcn_kernel i arg2 harg2 arg3 harg3 arg4 harg4 arg5 harg5 arg6 harg6 arg7 harg7 arg8 harg8 arg9 harg9 arg10 harg10) K } := by
  refine ⟨?_, fun E K => ?run⟩
  case run =>
    simp only [cc0__lahgcn_kernel_eq_skeleton]; unfold cc0__lahgcn_kernel_skel
    unfold owns
    iintro ⟨⟨%f1, %hf1, H1⟩, ⟨%f4, %hf4, H4⟩, ⟨%f5, %hf5, H5⟩, ⟨%fy, %hfy, HY⟩, ⟨%fz, %hfz, HZ⟩, Hk⟩
    obtain rfl := harg3.eq_unread hf1; obtain rfl := harg6.eq_unread hf4; obtain rfl := harg7.eq_unread hf5; obtain rfl := harg9.eq_unread hfy; obtain rfl := harg10.eq_unread hfz
    sl_exec (disch := first | exact hcY | exact hcZ | exact hcO)
    sl_step
    iapply Hk
    isplitl [H1]
    · iexists _; isplitr; · ipureintro; exact harg3.read_unread _
      iexact H1
    isplitl [H4]
    · iexists _; isplitr; · ipureintro; exact harg6.read_unread _
      iexact H4
    isplitl [H5]
    · iexists _; isplitr; · ipureintro; exact harg7.read_unread _
      iexact H5
    isplitl [HY]
    · iexists _; isplitr; · ipureintro; exact harg9.read_unread _
      iexact HY
    iexact HZ

end Cert.Kernel.Body

end
-- ==== Proof.BitsRunO.lean ====
/-
  The body at a point of phase 2: from the hg row strip and the WHOLE second scratch it stores the output block
  whole, whatever the block's staging buffer held.
-/
import proofs.«150119_g28870770163985_cont_9to1_1761_2_alg».proof.Proof.BitsSched

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- The piece phase 2 stores into the output block's staging buffer, with the body's triple. -/
noncomputable def runO (c : Dev nD) (i : grid0.Coords) (arg2 : Memref sig .tc .vmem S4x400x128 .f32) (harg2 : arg2.IsWhole) (arg3 : Memref sig .tc .vmem S400x10000 .f32) (harg3 : arg3.IsWhole) (arg4 : Memref sig .tc .vmem S4x128x16 .f32) (harg4 : arg4.IsWhole) (arg5 : Memref sig .tc .vmem S4x16 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S400x40 .f32) (harg8 : arg8.IsWhole) (arg9 : Memref sig .tc .vmem S10000x64 .f32) (harg9 : arg9.IsWhole) (arg10 : Memref sig .tc .vmem S10000x40 .f32) (harg10 : arg10.IsWhole) (hcY : ¬condY i) (hcZ : ¬condZ i) (hcO : condO i)
    (x1 : Vec F S400x10000 .f32) (z : Vec F S10000x40 .f32) :
    { LO : List (View.Piece (Elt F) S400x40 .f32) //
      ∀ (E : Set ℕ) (K : PUnit → sProp 𝕄),
        iprop(owns (c : Thread nD τ) arg3 fullShare x1 ∗ owns (c : Thread nD τ) arg10 fullShare z ∗ (∃ d, owns (c : Thread nD τ) arg8 fullShare d)
            ∗ (iprop(owns (c : Thread nD τ) arg3 fullShare x1 ∗ owns (c : Thread nD τ) arg10 fullShare z ∗ (∃ f, arg8.view.loc (c : Thread nD τ) ↦[arg8.view.set]{fullShare} arg8.view.writes (Elt F) f LO)) -∗ K ⟨⟩))
          ⊢ wp frame (wpE (defs₀ (F := F)) Variants.none c none) E (cc0__lahgcn_kernel i arg2 harg2 arg3 harg3 arg4 harg4 arg5 harg5 arg6 harg6 arg7 harg7 arg8 harg8 arg9 harg9 arg10 harg10) K } := by
  refine ⟨?_, fun E K => ?run⟩
  case run =>
    simp only [cc0__lahgcn_kernel_eq_skeleton]; unfold cc0__lahgcn_kernel_skel
    unfold owns
    iintro ⟨⟨%f1, %hf1, H1⟩, ⟨%fz, %hfz, HZ⟩, ⟨%d6, %f6, -, H6⟩, Hk⟩
    obtain rfl := harg3.eq_unread hf1; obtain rfl := harg10.eq_unread hfz
    sl_exec (disch := first | exact hcY | exact hcZ | exact hcO)
    sl_step
    iapply Hk
    isplitl [H1]
    · iexists _; isplitr; · ipureintro; exact harg3.read_unread _
      iexact H1
    isplitl [HZ]
    · iexists _; isplitr; · ipureintro; exact harg10.read_unread _
      iexact HZ
    iexists _; iexact H6

end Cert.Kernel.Body

end
-- ==== Proof.BitsPieces.lean ====
/-
  What the body's stores hold, on the contents of the blocks it loads.
  Phase 0: for branch k the 400 × 16 product of the x block's slab k with the weight slab k, plus the bias row k
  broadcast down the rows (`payY k`), stored at columns [16k, 16k + 16) of the point's 400 rows of the first
  scratch.  Phase 1: `payZ`, the 400 × 40 value computed from the hg strip, the WHOLE first scratch, the second
  weights and bias, stored at the point's 400 rows of the second scratch.  Phase 2: `payO`, the hg strip times the
  WHOLE second scratch, stored as the output block.  The pieces the runs found are these lists.
-/
import proofs.«150119_g28870770163985_cont_9to1_1761_2_alg».proof.Proof.BitsRunY
import proofs.«150119_g28870770163985_cont_9to1_1761_2_alg».proof.Proof.BitsRunZ
import proofs.«150119_g28870770163985_cont_9to1_1761_2_alg».proof.Proof.BitsRunO
import Idealize.ShloMosaic.Lib.WritesUnit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## The payloads -/

def payY0 (x0 : Vec F S4x400x128 .f32) (x2 : Vec F S4x128x16 .f32) (x3 : Vec F S4x16 .f32) : FVec F S400x16 .f32 :=
  k0_pay5 (View.ld x0 (Rect.unit (s := S4x400x128) ![0, 0, 0] S1x400x128.size inb_S4x400x128_S1x400x128_0_0_0)) (View.ld x2 (Rect.unit (s := S4x128x16) ![0, 0, 0] S1x128x16.size inb_S4x128x16_S1x128x16_0_0_0)) (View.ld x3 (Rect.unit (s := S4x16) ![0, 0] S1x16.size inb_S4x16_S1x16_0_0))
def payY1 (x0 : Vec F S4x400x128 .f32) (x2 : Vec F S4x128x16 .f32) (x3 : Vec F S4x16 .f32) : FVec F S400x16 .f32 :=
  k0_pay6 (View.ld x0 (Rect.unit (s := S4x400x128) ![1, 0, 0] S1x400x128.size inb_S4x400x128_S1x400x128_1_0_0)) (View.ld x2 (Rect.unit (s := S4x128x16) ![1, 0, 0] S1x128x16.size inb_S4x128x16_S1x128x16_1_0_0)) (View.ld x3 (Rect.unit (s := S4x16) ![1, 0] S1x16.size inb_S4x16_S1x16_1_0))
def payY2 (x0 : Vec F S4x400x128 .f32) (x2 : Vec F S4x128x16 .f32) (x3 : Vec F S4x16 .f32) : FVec F S400x16 .f32 :=
  k0_pay1 (k0_pay7 (View.ld x0 (Rect.unit (s := S4x400x128) ![2, 0, 0] S1x400x128.size inb_S4x400x128_S1x400x128_2_0_0))) (k0_pay8 (View.ld x2 (Rect.unit (s := S4x128x16) ![2, 0, 0] S1x128x16.size inb_S4x128x16_S1x128x16_2_0_0))) (View.ld x3 (Rect.unit (s := S4x16) ![2, 0] S1x16.size inb_S4x16_S1x16_2_0))
def payY3 (x0 : Vec F S4x400x128 .f32) (x2 : Vec F S4x128x16 .f32) (x3 : Vec F S4x16 .f32) : FVec F S400x16 .f32 :=
  k0_pay2 (View.ld x0 (Rect.unit (s := S4x400x128) ![3, 0, 0] S1x400x128.size inb_S4x400x128_S1x400x128_3_0_0)) (View.ld x2 (Rect.unit (s := S4x128x16) ![3, 0, 0] S1x128x16.size inb_S4x128x16_S1x128x16_3_0_0)) (View.ld x3 (Rect.unit (s := S4x16) ![3, 0] S1x16.size inb_S4x16_S1x16_3_0))

def payZ (x1 : Vec F S400x10000 .f32) (y : Vec F S10000x64 .f32) (x4 : Vec F S64x40 .f32) (x5 : Vec F S1x40 .f32) : FVec F S400x40 .f32 :=
  k0_pay3 (View.ld x1 (Rect.unit (s := S400x10000) ![0, 0] S400x10000.size inb_S400x10000_S400x10000_0_0))
    (View.ld y (Rect.unit (s := S10000x64) ![0, 0] S10000x64.size inb_S10000x64_S10000x64_0_0))
    (View.ld x4 (Rect.unit (s := S64x40) ![0, 0] S64x40.size inb_S64x40_S64x40_0_0))
    (View.ld x5 (Rect.unit (s := S1x40) ![0, 0] S1x40.size inb_S1x40_S1x40_0_0))

def payO (x1 : Vec F S400x10000 .f32) (z : Vec F S10000x40 .f32) : FVec F S400x40 .f32 :=
  k0_pay4 (View.ld x1 (Rect.unit (s := S400x10000) ![0, 0] S400x10000.size inb_S400x10000_S400x10000_0_0))
    (View.ld z (Rect.unit (s := S10000x40) ![0, 0] S10000x40.size inb_S10000x40_S10000x40_0_0))

/-! ## The pieces -/

/-- Phase 0's four stores, newest first. -/
def piecesY (i : grid0.Coords) (hY : condY i) (x0 : Vec F S4x400x128 .f32) (x2 : Vec F S4x128x16 .f32) (x3 : Vec F S4x16 .f32) :
    List (View.Piece (Elt F) S10000x64 .f32) :=
  [⟨Rect.unit (s := S10000x64) (k0_off4 i) S400x16.size (k0_off4_inb i hY), payY3 x0 x2 x3⟩,
   ⟨Rect.unit (s := S10000x64) (k0_off3 i) S400x16.size (k0_off3_inb i hY), payY2 x0 x2 x3⟩,
   ⟨Rect.unit (s := S10000x64) (k0_off2 i) S400x16.size (k0_off2_inb i hY), payY1 x0 x2 x3⟩,
   ⟨Rect.unit (s := S10000x64) (k0_off1 i) S400x16.size (k0_off1_inb i hY), payY0 x0 x2 x3⟩]

/-- Phase 1's store. -/
def piecesZ (i : grid0.Coords) (hZ : condZ i) (x1 : Vec F S400x10000 .f32) (y : Vec F S10000x64 .f32) (x4 : Vec F S64x40 .f32) (x5 : Vec F S1x40 .f32) :
    List (View.Piece (Elt F) S10000x40 .f32) :=
  [⟨Rect.unit (s := S10000x40) (k0_off5 i) S400x40.size (k0_off5_inb i hZ), payZ x1 y x4 x5⟩]

/-- Phase 2's store: the whole output block. -/
def piecesO (x1 : Vec F S400x10000 .f32) (z : Vec F S10000x40 .f32) : List (View.Piece (Elt F) S400x40 .f32) :=
  [⟨Rect.unit (s := S400x40) ![0, 0] S400x40.size inb_S400x40_S400x40_0_0, payO x1 z⟩]

theorem runY_pieces (c : Dev nD) (i : grid0.Coords) (arg2 : Memref sig .tc .vmem S4x400x128 .f32) (harg2 : arg2.IsWhole) (arg3 : Memref sig .tc .vmem S400x10000 .f32) (harg3 : arg3.IsWhole) (arg4 : Memref sig .tc .vmem S4x128x16 .f32) (harg4 : arg4.IsWhole) (arg5 : Memref sig .tc .vmem S4x16 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S400x40 .f32) (harg8 : arg8.IsWhole) (arg9 : Memref sig .tc .vmem S10000x64 .f32) (harg9 : arg9.IsWhole) (arg10 : Memref sig .tc .vmem S10000x40 .f32) (harg10 : arg10.IsWhole) (hcY : condY i) (hcZ : ¬condZ i) (hcO : ¬condO i)
    (x0 : Vec F S4x400x128 .f32) (x2 : Vec F S4x128x16 .f32) (x3 : Vec F S4x16 .f32) (y : Vec F S10000x64 .f32) :
    (runY c i arg2 harg2 arg3 harg3 arg4 harg4 arg5 harg5 arg6 harg6 arg7 harg7 arg8 harg8 arg9 harg9 arg10 harg10 hcY hcZ hcO x0 x2 x3 y).1 = piecesY i hcY x0 x2 x3 := by
  unfold runY piecesY payY0 payY1 payY2 payY3; dsimp only
  unfold runY.sl.r runY.sl.r_1
  simp only [View.readAt_eq_ld, Memref.IsWhole.read_unread]

theorem runZ_pieces (c : Dev nD) (i : grid0.Coords) (arg2 : Memref sig .tc .vmem S4x400x128 .f32) (harg2 : arg2.IsWhole) (arg3 : Memref sig .tc .vmem S400x10000 .f32) (harg3 : arg3.IsWhole) (arg4 : Memref sig .tc .vmem S4x128x16 .f32) (harg4 : arg4.IsWhole) (arg5 : Memref sig .tc .vmem S4x16 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S400x40 .f32) (harg8 : arg8.IsWhole) (arg9 : Memref sig .tc .vmem S10000x64 .f32) (harg9 : arg9.IsWhole) (arg10 : Memref sig .tc .vmem S10000x40 .f32) (harg10 : arg10.IsWhole) (hcY : ¬condY i) (hcZ : condZ i) (hcO : ¬condO i)
    (x1 : Vec F S400x10000 .f32) (x4 : Vec F S64x40 .f32) (x5 : Vec F S1x40 .f32) (y : Vec F S10000x64 .f32) (z : Vec F S10000x40 .f32) :
    (runZ c i arg2 harg2 arg3 harg3 arg4 harg4 arg5 harg5 arg6 harg6 arg7 harg7 arg8 harg8 arg9 harg9 arg10 harg10 hcY hcZ hcO x1 x4 x5 y z).1 = piecesZ i hcZ x1 y x4 x5 := by
  unfold runZ piecesZ payZ; dsimp only
  simp only [View.readAt_eq_ld, Memref.IsWhole.read_unread]

theorem runO_pieces (c : Dev nD) (i : grid0.Coords) (arg2 : Memref sig .tc .vmem S4x400x128 .f32) (harg2 : arg2.IsWhole) (arg3 : Memref sig .tc .vmem S400x10000 .f32) (harg3 : arg3.IsWhole) (arg4 : Memref sig .tc .vmem S4x128x16 .f32) (harg4 : arg4.IsWhole) (arg5 : Memref sig .tc .vmem S4x16 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S400x40 .f32) (harg8 : arg8.IsWhole) (arg9 : Memref sig .tc .vmem S10000x64 .f32) (harg9 : arg9.IsWhole) (arg10 : Memref sig .tc .vmem S10000x40 .f32) (harg10 : arg10.IsWhole) (hcY : ¬condY i) (hcZ : ¬condZ i) (hcO : condO i)
    (x1 : Vec F S400x10000 .f32) (z : Vec F S10000x40 .f32) :
    (runO c i arg2 harg2 arg3 harg3 arg4 harg4 arg5 harg5 arg6 harg6 arg7 harg7 arg8 harg8 arg9 harg9 arg10 harg10 hcY hcZ hcO x1 z).1 = piecesO x1 z := by
  unfold runO piecesO payO; dsimp only
  simp only [View.readAt_eq_ld, Memref.IsWhole.read_unread]

end Cert.Kernel.Body

end
-- ==== Proof.BitsSteps.lean ====
/-
  One point's effect on a scratch, read index by index.
  The newest store through an overlapping rectangle wins; the point's stores go to rows
  [400·(t mod 25), 400·(t mod 25) + 400) only.  So off those rows a scratch reads what it held, and on them the
  first scratch reads branch ⌊col / 16⌋'s payload at (row − 400·(t mod 25), col mod 16), the second the phase-1
  payload at (row − 400·(t mod 25), col), whatever the scratch held before.
-/
import proofs.«150119_g28870770163985_cont_9to1_1761_2_alg».proof.Proof.BitsPieces
import Idealize.ShloMosaic.Lib.ValueIdx

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- Row `r` of the rows point `s` stores to, as a row of a 10000-row scratch. -/
abbrev rowOf (s : Fin cfg0.N) (r : Fin 400) : Fin 10000 :=
  ⟨400 * (s.val % 25) + r.val, by have := r.isLt; have : s.val % 25 < 25 := Nat.mod_lt _ (by decide); omega⟩

/-- The first scratch after a phase-0 point: its four stores over what it held. -/
def stepY (i : grid0.Coords) (hY : condY i) (x0 : Vec F S4x400x128 .f32) (x2 : Vec F S4x128x16 .f32) (x3 : Vec F S4x16 .f32)
    (y : Vec F S10000x64 .f32) : Vec F S10000x64 .f32 :=
  scY.view.read (Elt F) (scY.view.writes (Elt F) ((Memref.isWhole_whole cc0_scratch0).unread y) (piecesY i hY x0 x2 x3))

/-- The second scratch after a phase-1 point: its store over what it held. -/
def stepZ (i : grid0.Coords) (hZ : condZ i) (x1 : Vec F S400x10000 .f32) (y : Vec F S10000x64 .f32) (x4 : Vec F S64x40 .f32) (x5 : Vec F S1x40 .f32)
    (z : Vec F S10000x40 .f32) : Vec F S10000x40 .f32 :=
  scZ.view.read (Elt F) (scZ.view.writes (Elt F) ((Memref.isWhole_whole cc0_scratch1).unread z) (piecesZ i hZ x1 y x4 x5))

section Y

variable (t : Fin cfg0.N) (hY : condY (grid0.coords t)) (x0 : Vec F S4x400x128 .f32) (x2 : Vec F S4x128x16 .f32) (x3 : Vec F S4x16 .f32)
  (y : Vec F S10000x64 .f32)

/-- Off the point's rows the first scratch keeps what it held. -/
theorem stepY_keep (j : S10000x64.Idx)
    (h : (j 0).val < 400 * (t.val % 25) ∨ 400 * (t.val % 25) + 400 ≤ (j 0).val) :
    stepY (grid0.coords t) hY x0 x2 x3 y j = y j := by
  unfold stepY piecesY
  rw [View.read_writes_cons_unit_of_not_mem (s := S10000x64) (size := S400x16.size) _ _ _ _ _ j (off4_eq t) 0 h,
    View.read_writes_cons_unit_of_not_mem (s := S10000x64) (size := S400x16.size) _ _ _ _ _ j (off3_eq t) 0 h,
    View.read_writes_cons_unit_of_not_mem (s := S10000x64) (size := S400x16.size) _ _ _ _ _ j (off2_eq t) 0 h,
    View.read_writes_cons_unit_of_not_mem (s := S10000x64) (size := S400x16.size) _ _ _ _ _ j (off1_eq t) 0 h,
    View.writes_nil]
  exact congrFun ((Memref.isWhole_whole cc0_scratch0).read_unread y) j

/-- On the point's rows, columns [48, 64): branch 3's payload. -/
theorem stepY_at3 (r : Fin 400) (jj : Fin 16) :
    stepY (grid0.coords t) hY x0 x2 x3 y (ValueIdx.ix2 (rowOf t r) (⟨48 + jj.val, by have := jj.isLt; omega⟩ : Fin 64))
      = payY3 x0 x2 x3 (ValueIdx.ix2 r jj) := by
  unfold stepY piecesY
  exact View.read_writes_cons_unit_of_mem (s := S10000x64) (size := S400x16.size) _ _ _ _ _ _ (ValueIdx.ix2 r jj) (off4_eq t)
    (Fin.forall_fin_two.mpr ⟨rfl, rfl⟩)

/-- Columns [32, 48): branch 2's payload. -/
theorem stepY_at2 (r : Fin 400) (jj : Fin 16) :
    stepY (grid0.coords t) hY x0 x2 x3 y (ValueIdx.ix2 (rowOf t r) (⟨32 + jj.val, by have := jj.isLt; omega⟩ : Fin 64))
      = payY2 x0 x2 x3 (ValueIdx.ix2 r jj) := by
  unfold stepY piecesY
  rw [View.read_writes_cons_unit_of_not_mem (s := S10000x64) (size := S400x16.size) _ _ _ _ _ _ (off4_eq t) 1
    (Or.inl (by show 32 + jj.val < 48; have := jj.isLt; omega))]
  exact View.read_writes_cons_unit_of_mem (s := S10000x64) (size := S400x16.size) _ _ _ _ _ _ (ValueIdx.ix2 r jj) (off3_eq t)
    (Fin.forall_fin_two.mpr ⟨rfl, rfl⟩)

/-- Columns [16, 32): branch 1's payload. -/
theorem stepY_at1 (r : Fin 400) (jj : Fin 16) :
    stepY (grid0.coords t) hY x0 x2 x3 y (ValueIdx.ix2 (rowOf t r) (⟨16 + jj.val, by have := jj.isLt; omega⟩ : Fin 64))
      = payY1 x0 x2 x3 (ValueIdx.ix2 r jj) := by
  unfold stepY piecesY
  rw [View.read_writes_cons_unit_of_not_mem (s := S10000x64) (size := S400x16.size) _ _ _ _ _ _ (off4_eq t) 1
      (Or.inl (by show 16 + jj.val < 48; have := jj.isLt; omega)),
    View.read_writes_cons_unit_of_not_mem (s := S10000x64) (size := S400x16.size) _ _ _ _ _ _ (off3_eq t) 1
      (Or.inl (by show 16 + jj.val < 32; have := jj.isLt; omega))]
  exact View.read_writes_cons_unit_of_mem (s := S10000x64) (size := S400x16.size) _ _ _ _ _ _ (ValueIdx.ix2 r jj) (off2_eq t)
    (Fin.forall_fin_two.mpr ⟨rfl, rfl⟩)

/-- Columns [0, 16): branch 0's payload. -/
theorem stepY_at0 (r : Fin 400) (jj : Fin 16) :
    stepY (grid0.coords t) hY x0 x2 x3 y (ValueIdx.ix2 (rowOf t r) (⟨jj.val, by have := jj.isLt; omega⟩ : Fin 64))
      = payY0 x0 x2 x3 (ValueIdx.ix2 r jj) := by
  unfold stepY piecesY
  rw [View.read_writes_cons_unit_of_not_mem (s := S10000x64) (size := S400x16.size) _ _ _ _ _ _ (off4_eq t) 1
      (Or.inl (by show jj.val < 48; have := jj.isLt; omega)),
    View.read_writes_cons_unit_of_not_mem (s := S10000x64) (size := S400x16.size) _ _ _ _ _ _ (off3_eq t) 1
      (Or.inl (by show jj.val < 32; have := jj.isLt; omega)),
    View.read_writes_cons_unit_of_not_mem (s := S10000x64) (size := S400x16.size) _ _ _ _ _ _ (off2_eq t) 1
      (Or.inl (by show jj.val < 16; exact jj.isLt))]
  exact View.read_writes_cons_unit_of_mem (s := S10000x64) (size := S400x16.size) _ _ _ _ _ _ (ValueIdx.ix2 r jj) (off1_eq t)
    (Fin.forall_fin_two.mpr ⟨rfl, (Nat.zero_add _).symm⟩)

end Y

section Z

variable (t : Fin cfg0.N) (hZ : condZ (grid0.coords t)) (x1 : Vec F S400x10000 .f32) (y : Vec F S10000x64 .f32) (x4 : Vec F S64x40 .f32)
  (x5 : Vec F S1x40 .f32) (z : Vec F S10000x40 .f32)

/-- Off the point's rows the second scratch keeps what it held. -/
theorem stepZ_keep (j : S10000x40.Idx)
    (h : (j 0).val < 400 * (t.val % 25) ∨ 400 * (t.val % 25) + 400 ≤ (j 0).val) :
    stepZ (grid0.coords t) hZ x1 y x4 x5 z j = z j := by
  unfold stepZ piecesZ
  rw [View.read_writes_cons_unit_of_not_mem (s := S10000x40) (size := S400x40.size) _ _ _ _ _ j (off5_eq t) 0 h, View.writes_nil]
  exact congrFun ((Memref.isWhole_whole cc0_scratch1).read_unread z) j

/-- On the point's rows: the phase-1 payload. -/
theorem stepZ_at (r : Fin 400) (o : Fin 40) :
    stepZ (grid0.coords t) hZ x1 y x4 x5 z (ValueIdx.ix2 (rowOf t r) o) = payZ x1 y x4 x5 (ValueIdx.ix2 r o) := by
  unfold stepZ piecesZ
  exact View.read_writes_cons_unit_of_mem (s := S10000x40) (size := S400x40.size) _ _ _ _ _ _ (ValueIdx.ix2 r o) (off5_eq t)
    (Fin.forall_fin_two.mpr ⟨rfl, (Nat.zero_add _).symm⟩)

end Z

/-- The output block's staging buffer after phase 2's one store through the whole block: the payload, whatever the
    buffer held (every index is its own position in a rectangle at zero offsets). -/
theorem outO_read (v : View sig .tc .vmem S400x40 .f32) (f : v.ty.Contents (Elt F)) (x1 : Vec F S400x10000 .f32) (z : Vec F S10000x40 .f32) :
    v.read (Elt F) (v.writes (Elt F) f (piecesO x1 z)) = payO x1 z := by
  funext y
  unfold piecesO
  exact View.read_writes_cons_unit_of_mem (s := S400x40) (size := S400x40.size) v f inb_S400x40_S400x40_0_0 (payO x1 z) [] y y rfl
    (Fin.forall_fin_two.mpr ⟨(Nat.zero_add _).symm, (Nat.zero_add _).symm⟩)

end Cert.Kernel.Body

end
-- ==== Proof.BitsTrack.lean ====
/-
  What the two scratch buffers hold, point by point.
  Phase-0 point s (s < 25) stores, at rows [400·s, 400·s + 400) of the first scratch, column q, branch ⌊q/16⌋'s
  payload of the point's x block, weights and biases (`Yat`); when phase 0 is over every row is stored, and the first
  scratch is ONE function of the argument arrays (`Ytgt`), whatever it held at entry.  Phase-1 point s (25 ≤ s < 50)
  stores at rows [400·(s − 25), …) of the second scratch the phase-1 payload of the hg strip and that function
  (`Zat`); after phase 1 the second scratch is `Ztgt`.  Phase 2 writes the output block from the hg strip and `Ztgt`.
  The invariant before point k: the rows of the points below k hold these values.  Each phase keeps it: a point's
  stores miss every other point's rows.
-/
import proofs.«150119_g28870770163985_cont_9to1_1761_2_alg».proof.Proof.BitsSteps

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (c : Dev nD)

/-- What phase-0 point `s` stores at its row `r`, column `q`. -/
def Yat (s : Fin cfg0.N) (r : Fin 400) (q : Fin 64) : Elt F EltTy.f32 :=
  if h3 : 48 ≤ q.val then payY3 (iblk m c 0 s) (iblk m c 2 s) (iblk m c 3 s) (ValueIdx.ix2 r (⟨q.val - 48, by have := q.isLt; omega⟩ : Fin 16))
  else if h2 : 32 ≤ q.val then payY2 (iblk m c 0 s) (iblk m c 2 s) (iblk m c 3 s) (ValueIdx.ix2 r (⟨q.val - 32, by omega⟩ : Fin 16))
  else if h1 : 16 ≤ q.val then payY1 (iblk m c 0 s) (iblk m c 2 s) (iblk m c 3 s) (ValueIdx.ix2 r (⟨q.val - 16, by omega⟩ : Fin 16))
  else payY0 (iblk m c 0 s) (iblk m c 2 s) (iblk m c 3 s) (ValueIdx.ix2 r (⟨q.val, by omega⟩ : Fin 16))

/-- The phase-0 point that stores row `j 0`. -/
abbrev ptY (j : S10000x64.Idx) : Fin cfg0.N :=
  ⟨(j 0).val / 400, lt_of_lt_of_eq (by have := ValueIdx.idx2_lt0 j; omega : (j 0).val / 400 < 75) N_0.symm⟩
/-- The row within its point's 400. -/
abbrev rowIn {n1 : Nat} (j : (⟨2, ![10000, n1]⟩ : Shape).Idx) : Fin 400 := ⟨(j 0).val % 400, Nat.mod_lt _ (by decide)⟩

/-- The first scratch once phase 0 is over. -/
def Ytgt : Vec F S10000x64 .f32 := fun j => Yat m c (ptY j) (rowIn j) (j 1)

/-- What phase-1 point `s` stores at its row `r`, column `o`. -/
def Zat (s : Fin cfg0.N) (r : Fin 400) (o : Fin 40) : Elt F EltTy.f32 :=
  payZ (iblk m c 1 s) (Ytgt m c) (iblk m c 4 s) (iblk m c 5 s) (ValueIdx.ix2 r o)

/-- The phase-1 point that stores row `j 0`. -/
abbrev ptZ (j : S10000x40.Idx) : Fin cfg0.N :=
  ⟨25 + (j 0).val / 400, lt_of_lt_of_eq (by have := ValueIdx.idx2_lt0 j; omega : 25 + (j 0).val / 400 < 75) N_0.symm⟩

/-- The second scratch once phase 1 is over. -/
def Ztgt : Vec F S10000x40 .f32 := fun j => Zat m c (ptZ j) (rowIn j) (j 1)

/-- The output block phase-2 point `t` stores. -/
def outBlk (t : Fin cfg0.N) : Vec F S400x40 .f32 := payO (iblk m c 1 t) (Ztgt m c)

/-- Before point `k`: the rows of the phase-0 points below `k` hold `Yat`, those of the phase-1 points below `k` hold `Zat`. -/
def Inv (k : ℕ) (Y : Vec F S10000x64 .f32) (Z : Vec F S10000x40 .f32) : Prop :=
  (∀ s : Fin cfg0.N, s.val < k → s.val < 25 → ∀ (r : Fin 400) (q : Fin 64), Y (ValueIdx.ix2 (rowOf s r) q) = Yat m c s r q)
  ∧ (∀ s : Fin cfg0.N, s.val < k → 25 ≤ s.val → s.val < 50 → ∀ (r : Fin 400) (o : Fin 40), Z (ValueIdx.ix2 (rowOf s r) o) = Zat m c s r o)

variable {m c}

theorem inv_zero (Y : Vec F S10000x64 .f32) (Z : Vec F S10000x40 .f32) : Inv m c 0 Y Z :=
  ⟨fun s hs => absurd hs (Nat.not_lt_zero _), fun s hs => absurd hs (Nat.not_lt_zero _)⟩

/-- Once phase 0 is over the first scratch is `Ytgt`: every row is some phase-0 point's. -/
theorem Y_eq {k : ℕ} {Y : Vec F S10000x64 .f32} {Z : Vec F S10000x40 .f32} (h : Inv m c k Y Z) (hk : 25 ≤ k) : Y = Ytgt m c := by
  funext j
  have hlt := ValueIdx.idx2_lt0 j
  have hj : j = ValueIdx.ix2 (rowOf (ptY j) (rowIn j)) (j 1) := funext fun a => by
    match a with
    | ⟨0, _⟩ => exact Fin.ext (by show (j 0).val = 400 * ((j 0).val / 400 % 25) + (j 0).val % 400; omega)
    | ⟨1, _⟩ => rfl
  exact (congrArg Y hj).trans (h.1 (ptY j) (by show (j 0).val / 400 < k; omega) (by show (j 0).val / 400 < 25; omega) (rowIn j) (j 1))

/-- Once phase 1 is over the second scratch is `Ztgt`. -/
theorem Z_eq {k : ℕ} {Y : Vec F S10000x64 .f32} {Z : Vec F S10000x40 .f32} (h : Inv m c k Y Z) (hk : 50 ≤ k) : Z = Ztgt m c := by
  funext j
  have hlt := ValueIdx.idx2_lt0 j
  have hj : j = ValueIdx.ix2 (rowOf (ptZ j) (rowIn j)) (j 1) := funext fun a => by
    match a with
    | ⟨0, _⟩ => exact Fin.ext (by show (j 0).val = 400 * ((25 + (j 0).val / 400) % 25) + (j 0).val % 400; omega)
    | ⟨1, _⟩ => rfl
  exact (congrArg Z hj).trans (h.2 (ptZ j) (by show 25 + (j 0).val / 400 < k; omega) (by show 25 ≤ 25 + (j 0).val / 400; omega)
    (by show 25 + (j 0).val / 400 < 50; omega) (rowIn j) (j 1))

/-- A phase-0 point keeps the invariant. -/
theorem inv_stepY (t : Fin cfg0.N) (ht : t.val < 25) (hY : condY (grid0.coords t)) {Y : Vec F S10000x64 .f32} {Z : Vec F S10000x40 .f32}
    (h : Inv m c t.val Y Z) :
    Inv m c (t.val + 1) (stepY (grid0.coords t) hY (iblk m c 0 t) (iblk m c 2 t) (iblk m c 3 t) Y) Z := by
  refine ⟨fun s hs hs25 r q => ?_, fun s hs h25 _ => by omega⟩
  by_cases hst : s = t
  · subst hst
    unfold Yat
    have hq := q.isLt
    by_cases h3 : 48 ≤ q.val
    · rw [dif_pos h3]
      exact (congrArg _ (show ValueIdx.ix2 (rowOf s r) q = ValueIdx.ix2 (rowOf s r) (⟨48 + (q.val - 48), by omega⟩ : Fin 64) from
        congrArg _ (Fin.ext (by show q.val = 48 + (q.val - 48); omega)))).trans (stepY_at3 s hY _ _ _ Y r ⟨q.val - 48, by omega⟩)
    · rw [dif_neg h3]
      by_cases h2 : 32 ≤ q.val
      · rw [dif_pos h2]
        exact (congrArg _ (show ValueIdx.ix2 (rowOf s r) q = ValueIdx.ix2 (rowOf s r) (⟨32 + (q.val - 32), by omega⟩ : Fin 64) from
          congrArg _ (Fin.ext (by show q.val = 32 + (q.val - 32); omega)))).trans (stepY_at2 s hY _ _ _ Y r ⟨q.val - 32, by omega⟩)
      · rw [dif_neg h2]
        by_cases h1 : 16 ≤ q.val
        · rw [dif_pos h1]
          exact (congrArg _ (show ValueIdx.ix2 (rowOf s r) q = ValueIdx.ix2 (rowOf s r) (⟨16 + (q.val - 16), by omega⟩ : Fin 64) from
            congrArg _ (Fin.ext (by show q.val = 16 + (q.val - 16); omega)))).trans (stepY_at1 s hY _ _ _ Y r ⟨q.val - 16, by omega⟩)
        · rw [dif_neg h1]
          exact stepY_at0 s hY _ _ _ Y r ⟨q.val, by omega⟩
  · have hne : s.val ≠ t.val := fun e => hst (Fin.ext e)
    have hr := r.isLt
    rw [stepY_keep t hY _ _ _ Y _ (by show 400 * (s.val % 25) + r.val < 400 * (t.val % 25) ∨ 400 * (t.val % 25) + 400 ≤ 400 * (s.val % 25) + r.val; omega)]
    exact h.1 s (by omega) hs25 r q

/-- A phase-1 point keeps the invariant; what it stores is computed from `Ytgt`, the first scratch being complete. -/
theorem inv_stepZ (t : Fin cfg0.N) (ht1 : 25 ≤ t.val) (ht2 : t.val < 50) (hZ : condZ (grid0.coords t)) {Y : Vec F S10000x64 .f32}
    {Z : Vec F S10000x40 .f32} (h : Inv m c t.val Y Z) :
    Inv m c (t.val + 1) Y (stepZ (grid0.coords t) hZ (iblk m c 1 t) Y (iblk m c 4 t) (iblk m c 5 t) Z) := by
  refine ⟨fun s hs hs25 r q => h.1 s (by omega) hs25 r q, fun s hs h25 h50 r o => ?_⟩
  by_cases hst : s = t
  · subst hst
    rw [stepZ_at s hZ _ _ _ _ Z r o]
    unfold Zat
    rw [Y_eq h ht1]
  · have hne : s.val ≠ t.val := fun e => hst (Fin.ext e)
    have hr := r.isLt
    rw [stepZ_keep t hZ _ _ _ _ Z _ (by show 400 * (s.val % 25) + r.val < 400 * (t.val % 25) ∨ 400 * (t.val % 25) + 400 ≤ 400 * (s.val % 25) + r.val; omega)]
    exact h.2 s (by omega) h25 h50 r o

/-- A phase-2 point touches neither scratch. -/
theorem inv_stepO (t : Fin cfg0.N) (ht : 50 ≤ t.val) {Y : Vec F S10000x64 .f32} {Z : Vec F S10000x40 .f32} (h : Inv m c t.val Y Z) :
    Inv m c (t.val + 1) Y Z :=
  ⟨fun s _ hs25 r q => h.1 s (by omega) hs25 r q, fun s _ h25 h50 r o => h.2 s (by omega) h25 h50 r o⟩

end Cert.Kernel.Body

end
-- ==== Proof.BitsBody.lean ====
/-
  The frame of the three-phase kernel.
  Proof data: every input window's buffer is left at its block; the output window's at the phase-2 block (before
  phase 2 it is idle and not written back, so its buffer is handed back as found); between points the region keeps
  both scratch buffers at SOME contents satisfying the row invariant, and the generator register.  The body
  obligation is by phase: the phase's run of the body, the invariant advanced by the phase's step.  The class
  invariant yields the invariant before point 0 (no row is claimed) and is given back after the last point (the
  contents forgotten).
-/
import proofs.«150119_g28870770163985_cont_9to1_1761_2_alg».proof.Proof.BitsTrack
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before point `n`: both scratch buffers owned at contents satisfying the row invariant. -/
def PhiT (c : Dev nD) (n : ℕ) : sProp 𝕄 :=
  iprop(∃ Y Z, ⌜Inv m c n Y Z⌝ ∗ owns (c : Thread nD τ) scY fullShare Y ∗ owns (c : Thread nD τ) scZ fullShare Z ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := PhiT m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outBlk m c t := by dsimp only [dats]

/-- Each input's current staging buffer holds its block at every point, fetched there or not. -/
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 4800000 in
/-- The body at any point, by phase. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiT m c (t.val + 1) from rfl,
    show (dats m 0 c).Φ t.castSucc = PhiT m c t.val from by dsimp only [dats]; simp only [Fin.coe_castSucc]]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  have hN : t.val < 75 := lt_of_lt_of_eq t.isLt (show cfg0.N = 75 from N_0)
  unfold PhiT
  by_cases hY : t.val < 25
  · have cY : condY (grid0.coords t) := (hcondY t).mpr hY
    have cZ : ¬condZ (grid0.coords t) := fun h => by have := (hcondZ t).mp h; omega
    have cO : ¬condO (grid0.coords t) := fun h => by have := (hcondO t).mp h; omega
    rw [Dat.leavesExact_idle (dats m 0 c) 6 t (idleAt6 t cO) (noFlush6 t cO)]
    iintro ⟨⟨%Y, %Z, %hInv, HY, HZ, Hg⟩, Ho, ⟨%d0, H0⟩, ⟨%d1, H1⟩, ⟨%d2, H2⟩, ⟨%d3, H3⟩, ⟨%d4, H4⟩, ⟨%d5, H5⟩, ⟨%d6, H6⟩⟩
    iapply ((runY c (grid0.coords t) _ _ _ _ _ _ _ _ _ _ _ _ _ _ _ _ _ _ cY cZ cO (iblk m c 0 t) (iblk m c 2 t) (iblk m c 3 t) Y).2 Set.univ _)
    isplitl [H0]; · iexact H0
    isplitl [H2]; · iexact H2
    isplitl [H3]; · iexact H3
    isplitl [HY]; · iexact HY
    iintro ⟨H0, H2, H3, HY⟩
    isplitl [HY HZ Hg]
    · iexists (stepY (grid0.coords t) cY (iblk m c 0 t) (iblk m c 2 t) (iblk m c 3 t) Y), Z
      isplitr; · ipureintro; exact inv_stepY t hY cY hInv
      isplitl [HY]
      · unfold owns; iexists _; isplitr
        swap; · iexact HY
        ipureintro; rw [runY_pieces]; rfl
      isplitl [HZ]; · iexact HZ
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases hZ : t.val < 50
    · have cY : ¬condY (grid0.coords t) := fun h => hY ((hcondY t).mp h)
      have cZ : condZ (grid0.coords t) := (hcondZ t).mpr ⟨by omega, hZ⟩
      have cO : ¬condO (grid0.coords t) := fun h => by have := (hcondO t).mp h; omega
      rw [Dat.leavesExact_idle (dats m 0 c) 6 t (idleAt6 t cO) (noFlush6 t cO)]
      iintro ⟨⟨%Y, %Z, %hInv, HY, HZ, Hg⟩, Ho, ⟨%d0, H0⟩, ⟨%d1, H1⟩, ⟨%d2, H2⟩, ⟨%d3, H3⟩, ⟨%d4, H4⟩, ⟨%d5, H5⟩, ⟨%d6, H6⟩⟩
      iapply ((runZ c (grid0.coords t) _ _ _ _ _ _ _ _ _ _ _ _ _ _ _ _ _ _ cY cZ cO (iblk m c 1 t) (iblk m c 4 t) (iblk m c 5 t) Y Z).2 Set.univ _)
      isplitl [H1]; · iexact H1
      isplitl [H4]; · iexact H4
      isplitl [H5]; · iexact H5
      isplitl [HY]; · iexact HY
      isplitl [HZ]; · iexact HZ
      iintro ⟨H1, H4, H5, HY, HZ⟩
      isplitl [HY HZ Hg]
      · iexists Y, (stepZ (grid0.coords t) cZ (iblk m c 1 t) Y (iblk m c 4 t) (iblk m c 5 t) Z)
        isplitr; · ipureintro; exact inv_stepZ t (by omega) hZ cZ hInv
        isplitl [HY]; · iexact HY
        isplitl [HZ]
        · unfold owns; iexists _; isplitr
          swap; · iexact HZ
          ipureintro; rw [runZ_pieces]; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · have cY : ¬condY (grid0.coords t) := fun h => hY ((hcondY t).mp h)
      have cZ : ¬condZ (grid0.coords t) := fun h => hZ ((hcondZ t).mp h).2
      have cO : condO (grid0.coords t) := (hcondO t).mpr (by omega)
      rw [show (dats m 0 c).leavesExact 6 t = owns (c : Thread nD τ) (ms6 t) fullShare ((dats m 0 c).after 6 t) from by
        unfold Dat.leavesExact; rw [liveAt6 t cO], after6]
      iintro ⟨⟨%Y, %Z, %hInv, HY, HZ, Hg⟩, Ho, ⟨%d0, H0⟩, ⟨%d1, H1⟩, ⟨%d2, H2⟩, ⟨%d3, H3⟩, ⟨%d4, H4⟩, ⟨%d5, H5⟩, ⟨%d6, H6⟩⟩
      iapply ((runO c (grid0.coords t) _ _ _ _ _ _ _ _ _ _ _ _ _ _ _ _ _ _ cY cZ cO (iblk m c 1 t) Z).2 Set.univ _)
      isplitl [H1]; · iexact H1
      isplitl [HZ]; · iexact HZ
      isplitl [H6]; · iexists _; iexact H6
      iintro ⟨H1, HZ, ⟨%f6, H6⟩⟩
      isplitl [HY HZ Hg]
      · iexists Y, Z
        isplitr; · ipureintro; exact inv_stepO t (by omega) hInv
        isplitl [HY]; · iexact HY
        isplitl [HZ]; · iexact HZ
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      rw [runO_pieces, Z_eq hInv (by omega : 50 ≤ t.val)]
      unfold outBlk
      exact outO_read _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no row is claimed yet. -/
theorem hin (c : Dev nD) : Pipeline.ΦA spec0 c ⊢ (dats m 0 c).Φ 0 := by
  rw [show (dats m 0 c).Φ 0 = PhiT m c 0 from rfl, PhiA_eq]; unfold PhiT
  iintro ⟨⟨⟨%y, HY⟩, ⟨%z, HZ⟩⟩, Hg⟩
  iexists y, z
  isplitr; · ipureintro; exact inv_zero y z
  isplitl [HY]; · iexact HY
  isplitl [HZ]; · iexact HZ
  iexact Hg

/-- After the last point the invariant gives the class invariant back: the scratch contents are forgotten. -/
theorem hout (c : Dev nD) : (dats m 0 c).Φ (Fin.last cfg0.N) ⊢ Pipeline.ΦA spec0 c := by
  rw [show (dats m 0 c).Φ (Fin.last cfg0.N) = PhiT m c (Fin.last cfg0.N).val from rfl, PhiA_eq]; unfold PhiT
  iintro ⟨%Y, %Z, -, HY, HZ, Hg⟩
  isplitl [HY HZ]
  · isplitl [HY]
    · iexists _; iexact HY
    iexists _; iexact HZ
  iexact Hg

/-! ## The run and the frame -/

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.Sched.lean ====
/-
  The schedule of the three-phase kernel on its 3 × 25 grid, point t = 25·p + i.
  Phase p = 0 (t < 25) fills rows [400·i, 400·i + 400) of the first scratch, phase p = 1 (25 ≤ t < 50) fills the
  same rows of the second scratch from the whole first one, phase p = 2 (50 ≤ t) stores the output block from the
  whole second scratch.  Here: each phase condition in closed form over the point, decided over the 75 points;
  the output window idle and not written back before phase 2 and live in it; the row offsets of the scratch
  stores as 400·(t mod 25); and the region invariant opened at the two scratch buffers.
-/
import proofs.«150119_g28870770163985_cont_9to1_1761_2_alg».proof.Proof.Gen.KernelIdeal.Frame
import proofs.«150119_g28870770163985_cont_9to1_1761_2_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## The phase conditions -/

/-- The point is in phase 0. -/
abbrev condY (i : grid0.Coords) : Prop := k0_cond1 i = 1#1
/-- The point is in phase 1. -/
abbrev condZ (i : grid0.Coords) : Prop := k0_cond2 i = 1#1
/-- The point is in phase 2. -/
abbrev condO (i : grid0.Coords) : Prop := k0_cond3 i = 1#1

theorem hcondY : ∀ t : Fin cfg0.N, condY (grid0.coords t) ↔ t.val < 25 :=
  (by decide +kernel : ∀ t : Fin grid0.N, condY (grid0.coords t) ↔ t.val < 25)
theorem hcondZ : ∀ t : Fin cfg0.N, condZ (grid0.coords t) ↔ (25 ≤ t.val ∧ t.val < 50) :=
  (by decide +kernel : ∀ t : Fin grid0.N, condZ (grid0.coords t) ↔ (25 ≤ t.val ∧ t.val < 50))
theorem hcondO : ∀ t : Fin cfg0.N, condO (grid0.coords t) ↔ 50 ≤ t.val :=
  (by decide +kernel : ∀ t : Fin grid0.N, condO (grid0.coords t) ↔ 50 ≤ t.val)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
/-- Before phase 2 the body stores nothing into the output window, -/
theorem idleAt6 : ∀ t : Fin cfg0.N, ¬condO (grid0.coords t) → cfg0.idle 6 (grid0.coords t) = true := by decide +kernel
/-- and the pipeline does not write its block back (the block index stays 0 up to the first point of phase 2). -/
theorem noFlush6 : ∀ t : Fin cfg0.N, ¬condO (grid0.coords t) → (cfg0.win 6).flush t = false := by decide +kernel
/-- In phase 2 it is live, -/
theorem liveAt6 : ∀ t : Fin cfg0.N, condO (grid0.coords t) → cfg0.idle 6 (grid0.coords t) = false := by decide +kernel
/-- and written back after every point (the block index moves with i, and the last point ends the grid). -/
theorem flush6 : ∀ t : Fin cfg0.N, condO (grid0.coords t) → (cfg0.win 6).flush t = true := by decide +kernel

/-! ## The scratch stores' offsets -/

theorem off1_eq : ∀ t : Fin cfg0.N, k0_off1 (grid0.coords t) = ![400 * (t.val % 25), 0] :=
  (by decide +kernel : ∀ t : Fin grid0.N, k0_off1 (grid0.coords t) = ![400 * (t.val % 25), 0])
theorem off2_eq : ∀ t : Fin cfg0.N, k0_off2 (grid0.coords t) = ![400 * (t.val % 25), 16] :=
  (by decide +kernel : ∀ t : Fin grid0.N, k0_off2 (grid0.coords t) = ![400 * (t.val % 25), 16])
theorem off3_eq : ∀ t : Fin cfg0.N, k0_off3 (grid0.coords t) = ![400 * (t.val % 25), 32] :=
  (by decide +kernel : ∀ t : Fin grid0.N, k0_off3 (grid0.coords t) = ![400 * (t.val % 25), 32])
theorem off4_eq : ∀ t : Fin cfg0.N, k0_off4 (grid0.coords t) = ![400 * (t.val % 25), 48] :=
  (by decide +kernel : ∀ t : Fin grid0.N, k0_off4 (grid0.coords t) = ![400 * (t.val % 25), 48])
theorem off5_eq : ∀ t : Fin cfg0.N, k0_off5 (grid0.coords t) = ![400 * (t.val % 25), 0] :=
  (by decide +kernel : ∀ t : Fin grid0.N, k0_off5 (grid0.coords t) = ![400 * (t.val % 25), 0])

/-! ## The memrefs the body is called with -/

abbrev ms0 (t : Fin cfg0.N) : Memref sig .tc .vmem S4x400x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x128x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x40 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x40 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x40 .f32 := win0_6.stage (cfg0.slots t 6)
abbrev hs6 (t : Fin cfg0.N) : (ms6 t).IsWhole := hstage0_6 ((cfg0.slots t 6).cast nbuf0_6)
/-- The two scratch operands: whole scoped buffers of the kernel's own. -/
abbrev scY : Memref sig .tc .vmem S10000x64 .f32 := Memref.whole cc0_scratch0
abbrev scZ : Memref sig .tc .vmem S10000x40 .f32 := Memref.whole cc0_scratch1

/-- The class invariant with the two scratch operands as memrefs owned at some contents. -/
theorem PhiA_eq (c : Dev nD) :
    (Pipeline.ΦA spec0 c : sProp 𝕄)
      = iprop(iprop((∃ d, owns (c : Thread nD τ) scY fullShare d) ∗ (∃ d, owns (c : Thread nD τ) scZ fullShare d)) ∗ (∃ r, prngReg c r)) := by
  unfold Pipeline.ΦA; rw [scopedRest0_eq]; simp only [scY, scZ, owns_whole]; try rfl

end Cert.KernelIdeal.Body

end
-- ==== Proof.RunY.lean ====
/-
  The body at a point of phase 0: on the x block, the weights and the biases it stores four 400 × 16 pieces into
  the first scratch — branch k's product plus bias at columns [16k, 16k + 16) of the point's 400 rows — over what
  the scratch held, and touches nothing else.  The pieces are found by running the body.
-/
import proofs.«150119_g28870770163985_cont_9to1_1761_2_alg».proof.Proof.Sched

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
/-- The pieces phase 0 stores into the first scratch (newest first), with the body's triple: from the three inputs it
    reads and the scratch at contents `y`, to the same inputs and the scratch at `y` under the pieces. -/
noncomputable def runY (c : Dev nD) (i : grid0.Coords) (arg2 : Memref sig .tc .vmem S4x400x128 .f32) (harg2 : arg2.IsWhole) (arg3 : Memref sig .tc .vmem S400x10000 .f32) (harg3 : arg3.IsWhole) (arg4 : Memref sig .tc .vmem S4x128x16 .f32) (harg4 : arg4.IsWhole) (arg5 : Memref sig .tc .vmem S4x16 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S400x40 .f32) (harg8 : arg8.IsWhole) (arg9 : Memref sig .tc .vmem S10000x64 .f32) (harg9 : arg9.IsWhole) (arg10 : Memref sig .tc .vmem S10000x40 .f32) (harg10 : arg10.IsWhole) (hcY : condY i) (hcZ : ¬condZ i) (hcO : ¬condO i)
    (x0 : Vec F S4x400x128 .f32) (x2 : Vec F S4x128x16 .f32) (x3 : Vec F S4x16 .f32) (y : Vec F S10000x64 .f32) :
    { LY : List (View.Piece (Elt F) S10000x64 .f32) //
      ∀ (E : Set ℕ) (K : PUnit → sProp 𝕄),
        iprop(owns (c : Thread nD τ) arg2 fullShare x0 ∗ owns (c : Thread nD τ) arg4 fullShare x2 ∗ owns (c : Thread nD τ) arg5 fullShare x3 ∗ owns (c : Thread nD τ) arg9 fullShare y
            ∗ (iprop(owns (c : Thread nD τ) arg2 fullShare x0 ∗ owns (c : Thread nD τ) arg4 fullShare x2 ∗ owns (c : Thread nD τ) arg5 fullShare x3 ∗ (arg9.view.loc (c : Thread nD τ) ↦[arg9.view.set]{fullShare} arg9.view.writes (Elt F) (harg9.unread y) LY)) -∗ K ⟨⟩))
          ⊢ wp frame (wpE (defs₀ (F := F)) Variants.none c none) E (cc0__lahgcn_kernel i arg2 harg2 arg3 harg3 arg4 harg4 arg5 harg5 arg6 harg6 arg7 harg7 arg8 harg8 arg9 harg9 arg10 harg10) K } := by
  refine ⟨?_, fun E K => ?run⟩
  case run =>
    simp only [cc0__lahgcn_kernel_eq_skeleton]; unfold cc0__lahgcn_kernel_skel
    simp only [k0_part1_eq_skeleton]
    unfold owns
    iintro ⟨⟨%f0, %hf0, H0⟩, ⟨%f2, %hf2, H2⟩, ⟨%f3, %hf3, H3⟩, ⟨%fy, %hfy, HY⟩, Hk⟩
    obtain rfl := harg2.eq_unread hf0; obtain rfl := harg4.eq_unread hf2; obtain rfl := harg5.eq_unread hf3; obtain rfl := harg9.eq_unread hfy
    sl_exec (disch := first | exact hcY | exact hcZ | exact hcO)
    sl_step
    iapply Hk
    isplitl [H0]
    · iexists _; isplitr; · ipureintro; exact harg2.read_unread _
      iexact H0
    isplitl [H2]
    · iexists _; isplitr; · ipureintro; exact harg4.read_unread _
      iexact H2
    isplitl [H3]
    · iexists _; isplitr; · ipureintro; exact harg5.read_unread _
      iexact H3
    iexact HY

end Cert.KernelIdeal.Body

end
-- ==== Proof.RunZ.lean ====
/-
  The body at a point of phase 1: from the hg row strip, the WHOLE first scratch, the second weights and bias it
  stores one 400 × 40 piece into the second scratch at the point's 400 rows, over what that scratch held.
-/
import proofs.«150119_g28870770163985_cont_9to1_1761_2_alg».proof.Proof.Sched

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
/-- The piece phase 1 stores into the second scratch, with the body's triple. -/
noncomputable def runZ (c : Dev nD) (i : grid0.Coords) (arg2 : Memref sig .tc .vmem S4x400x128 .f32) (harg2 : arg2.IsWhole) (arg3 : Memref sig .tc .vmem S400x10000 .f32) (harg3 : arg3.IsWhole) (arg4 : Memref sig .tc .vmem S4x128x16 .f32) (harg4 : arg4.IsWhole) (arg5 : Memref sig .tc .vmem S4x16 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S400x40 .f32) (harg8 : arg8.IsWhole) (arg9 : Memref sig .tc .vmem S10000x64 .f32) (harg9 : arg9.IsWhole) (arg10 : Memref sig .tc .vmem S10000x40 .f32) (harg10 : arg10.IsWhole) (hcY : ¬condY i) (hcZ : condZ i) (hcO : ¬condO i)
    (x1 : Vec F S400x10000 .f32) (x4 : Vec F S64x40 .f32) (x5 : Vec F S1x40 .f32) (y : Vec F S10000x64 .f32) (z : Vec F S10000x40 .f32) :
    { LZ : List (View.Piece (Elt F) S10000x40 .f32) //
      ∀ (E : Set ℕ) (K : PUnit → sProp 𝕄),
        iprop(owns (c : Thread nD τ) arg3 fullShare x1 ∗ owns (c : Thread nD τ) arg6 fullShare x4 ∗ owns (c : Thread nD τ) arg7 fullShare x5 ∗ owns (c : Thread nD τ) arg9 fullShare y ∗ owns (c : Thread nD τ) arg10 fullShare z
            ∗ (iprop(owns (c : Thread nD τ) arg3 fullShare x1 ∗ owns (c : Thread nD τ) arg6 fullShare x4 ∗ owns (c : Thread nD τ) arg7 fullShare x5 ∗ owns (c : Thread nD τ) arg9 fullShare y ∗ (arg10.view.loc (c : Thread nD τ) ↦[arg10.view.set]{fullShare} arg10.view.writes (Elt F) (harg10.unread z) LZ)) -∗ K ⟨⟩))
          ⊢ wp frame (wpE (defs₀ (F := F)) Variants.none c none) E (cc0__lahgcn_kernel i arg2 harg2 arg3 harg3 arg4 harg4 arg5 harg5 arg6 harg6 arg7 harg7 arg8 harg8 arg9 harg9 arg10 harg10) K } := by
  refine ⟨?_, fun E K => ?run⟩
  case run =>
    simp only [cc0__lahgcn_kernel_eq_skeleton]; unfold cc0__lahgcn_kernel_skel
    unfold owns
    iintro ⟨⟨%f1, %hf1, H1⟩, ⟨%f4, %hf4, H4⟩, ⟨%f5, %hf5, H5⟩, ⟨%fy, %hfy, HY⟩, ⟨%fz, %hfz, HZ⟩, Hk⟩
    obtain rfl := harg3.eq_unread hf1; obtain rfl := harg6.eq_unread hf4; obtain rfl := harg7.eq_unread hf5; obtain rfl := harg9.eq_unread hfy; obtain rfl := harg10.eq_unread hfz
    sl_exec (disch := first | exact hcY | exact hcZ | exact hcO)
    sl_step
    iapply Hk
    isplitl [H1]
    · iexists _; isplitr; · ipureintro; exact harg3.read_unread _
      iexact H1
    isplitl [H4]
    · iexists _; isplitr; · ipureintro; exact harg6.read_unread _
      iexact H4
    isplitl [H5]
    · iexists _; isplitr; · ipureintro; exact harg7.read_unread _
      iexact H5
    isplitl [HY]
    · iexists _; isplitr; · ipureintro; exact harg9.read_unread _
      iexact HY
    iexact HZ

end Cert.KernelIdeal.Body

end
-- ==== Proof.RunO.lean ====
/-
  The body at a point of phase 2: from the hg row strip and the WHOLE second scratch it stores the output block
  whole, whatever the block's staging buffer held.
-/
import proofs.«150119_g28870770163985_cont_9to1_1761_2_alg».proof.Proof.Sched

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
/-- The piece phase 2 stores into the output block's staging buffer, with the body's triple. -/
noncomputable def runO (c : Dev nD) (i : grid0.Coords) (arg2 : Memref sig .tc .vmem S4x400x128 .f32) (harg2 : arg2.IsWhole) (arg3 : Memref sig .tc .vmem S400x10000 .f32) (harg3 : arg3.IsWhole) (arg4 : Memref sig .tc .vmem S4x128x16 .f32) (harg4 : arg4.IsWhole) (arg5 : Memref sig .tc .vmem S4x16 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S400x40 .f32) (harg8 : arg8.IsWhole) (arg9 : Memref sig .tc .vmem S10000x64 .f32) (harg9 : arg9.IsWhole) (arg10 : Memref sig .tc .vmem S10000x40 .f32) (harg10 : arg10.IsWhole) (hcY : ¬condY i) (hcZ : ¬condZ i) (hcO : condO i)
    (x1 : Vec F S400x10000 .f32) (z : Vec F S10000x40 .f32) :
    { LO : List (View.Piece (Elt F) S400x40 .f32) //
      ∀ (E : Set ℕ) (K : PUnit → sProp 𝕄),
        iprop(owns (c : Thread nD τ) arg3 fullShare x1 ∗ owns (c : Thread nD τ) arg10 fullShare z ∗ (∃ d, owns (c : Thread nD τ) arg8 fullShare d)
            ∗ (iprop(owns (c : Thread nD τ) arg3 fullShare x1 ∗ owns (c : Thread nD τ) arg10 fullShare z ∗ (∃ f, arg8.view.loc (c : Thread nD τ) ↦[arg8.view.set]{fullShare} arg8.view.writes (Elt F) f LO)) -∗ K ⟨⟩))
          ⊢ wp frame (wpE (defs₀ (F := F)) Variants.none c none) E (cc0__lahgcn_kernel i arg2 harg2 arg3 harg3 arg4 harg4 arg5 harg5 arg6 harg6 arg7 harg7 arg8 harg8 arg9 harg9 arg10 harg10) K } := by
  refine ⟨?_, fun E K => ?run⟩
  case run =>
    simp only [cc0__lahgcn_kernel_eq_skeleton]; unfold cc0__lahgcn_kernel_skel
    unfold owns
    iintro ⟨⟨%f1, %hf1, H1⟩, ⟨%fz, %hfz, HZ⟩, ⟨%d6, %f6, -, H6⟩, Hk⟩
    obtain rfl := harg3.eq_unread hf1; obtain rfl := harg10.eq_unread hfz
    sl_exec (disch := first | exact hcY | exact hcZ | exact hcO)
    sl_step
    iapply Hk
    isplitl [H1]
    · iexists _; isplitr; · ipureintro; exact harg3.read_unread _
      iexact H1
    isplitl [HZ]
    · iexists _; isplitr; · ipureintro; exact harg10.read_unread _
      iexact HZ
    iexists _; iexact H6

end Cert.KernelIdeal.Body

end
-- ==== Proof.Pieces.lean ====
/-
  What the body's stores hold, on the contents of the blocks it loads.
  Phase 0: for branch k the 400 × 16 product of the x block's slab k with the weight slab k, plus the bias row k
  broadcast down the rows (`payY k`), stored at columns [16k, 16k + 16) of the point's 400 rows of the first
  scratch.  Phase 1: `payZ`, the 400 × 40 value computed from the hg strip, the WHOLE first scratch, the second
  weights and bias, stored at the point's 400 rows of the second scratch.  Phase 2: `payO`, the hg strip times the
  WHOLE second scratch, stored as the output block.  The pieces the runs found are these lists.
-/
import proofs.«150119_g28870770163985_cont_9to1_1761_2_alg».proof.Proof.RunY
import proofs.«150119_g28870770163985_cont_9to1_1761_2_alg».proof.Proof.RunZ
import proofs.«150119_g28870770163985_cont_9to1_1761_2_alg».proof.Proof.RunO
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## The payloads -/

def payY0 (x0 : Vec F S4x400x128 .f32) (x2 : Vec F S4x128x16 .f32) (x3 : Vec F S4x16 .f32) : FVec F S400x16 .f32 :=
  k0_pay5 (View.ld x0 (Rect.unit (s := S4x400x128) ![0, 0, 0] S1x400x128.size inb_S4x400x128_S1x400x128_0_0_0)) (View.ld x2 (Rect.unit (s := S4x128x16) ![0, 0, 0] S1x128x16.size inb_S4x128x16_S1x128x16_0_0_0)) (View.ld x3 (Rect.unit (s := S4x16) ![0, 0] S1x16.size inb_S4x16_S1x16_0_0))
def payY1 (x0 : Vec F S4x400x128 .f32) (x2 : Vec F S4x128x16 .f32) (x3 : Vec F S4x16 .f32) : FVec F S400x16 .f32 :=
  k0_pay6 (View.ld x0 (Rect.unit (s := S4x400x128) ![1, 0, 0] S1x400x128.size inb_S4x400x128_S1x400x128_1_0_0)) (View.ld x2 (Rect.unit (s := S4x128x16) ![1, 0, 0] S1x128x16.size inb_S4x128x16_S1x128x16_1_0_0)) (View.ld x3 (Rect.unit (s := S4x16) ![1, 0] S1x16.size inb_S4x16_S1x16_1_0))
def payY2 (x0 : Vec F S4x400x128 .f32) (x2 : Vec F S4x128x16 .f32) (x3 : Vec F S4x16 .f32) : FVec F S400x16 .f32 :=
  k0_pay1 (k0_pay7 (View.ld x0 (Rect.unit (s := S4x400x128) ![2, 0, 0] S1x400x128.size inb_S4x400x128_S1x400x128_2_0_0))) (k0_pay8 (View.ld x2 (Rect.unit (s := S4x128x16) ![2, 0, 0] S1x128x16.size inb_S4x128x16_S1x128x16_2_0_0))) (View.ld x3 (Rect.unit (s := S4x16) ![2, 0] S1x16.size inb_S4x16_S1x16_2_0))
def payY3 (x0 : Vec F S4x400x128 .f32) (x2 : Vec F S4x128x16 .f32) (x3 : Vec F S4x16 .f32) : FVec F S400x16 .f32 :=
  k0_pay2 (View.ld x0 (Rect.unit (s := S4x400x128) ![3, 0, 0] S1x400x128.size inb_S4x400x128_S1x400x128_3_0_0)) (View.ld x2 (Rect.unit (s := S4x128x16) ![3, 0, 0] S1x128x16.size inb_S4x128x16_S1x128x16_3_0_0)) (View.ld x3 (Rect.unit (s := S4x16) ![3, 0] S1x16.size inb_S4x16_S1x16_3_0))

def payZ (x1 : Vec F S400x10000 .f32) (y : Vec F S10000x64 .f32) (x4 : Vec F S64x40 .f32) (x5 : Vec F S1x40 .f32) : FVec F S400x40 .f32 :=
  k0_pay3 (View.ld x1 (Rect.unit (s := S400x10000) ![0, 0] S400x10000.size inb_S400x10000_S400x10000_0_0))
    (View.ld y (Rect.unit (s := S10000x64) ![0, 0] S10000x64.size inb_S10000x64_S10000x64_0_0))
    (View.ld x4 (Rect.unit (s := S64x40) ![0, 0] S64x40.size inb_S64x40_S64x40_0_0))
    (View.ld x5 (Rect.unit (s := S1x40) ![0, 0] S1x40.size inb_S1x40_S1x40_0_0))

def payO (x1 : Vec F S400x10000 .f32) (z : Vec F S10000x40 .f32) : FVec F S400x40 .f32 :=
  k0_pay4 (View.ld x1 (Rect.unit (s := S400x10000) ![0, 0] S400x10000.size inb_S400x10000_S400x10000_0_0))
    (View.ld z (Rect.unit (s := S10000x40) ![0, 0] S10000x40.size inb_S10000x40_S10000x40_0_0))

/-! ## The pieces -/

/-- Phase 0's four stores, newest first. -/
def piecesY (i : grid0.Coords) (hY : condY i) (x0 : Vec F S4x400x128 .f32) (x2 : Vec F S4x128x16 .f32) (x3 : Vec F S4x16 .f32) :
    List (View.Piece (Elt F) S10000x64 .f32) :=
  [⟨Rect.unit (s := S10000x64) (k0_off4 i) S400x16.size (k0_off4_inb i hY), payY3 x0 x2 x3⟩,
   ⟨Rect.unit (s := S10000x64) (k0_off3 i) S400x16.size (k0_off3_inb i hY), payY2 x0 x2 x3⟩,
   ⟨Rect.unit (s := S10000x64) (k0_off2 i) S400x16.size (k0_off2_inb i hY), payY1 x0 x2 x3⟩,
   ⟨Rect.unit (s := S10000x64) (k0_off1 i) S400x16.size (k0_off1_inb i hY), payY0 x0 x2 x3⟩]

/-- Phase 1's store. -/
def piecesZ (i : grid0.Coords) (hZ : condZ i) (x1 : Vec F S400x10000 .f32) (y : Vec F S10000x64 .f32) (x4 : Vec F S64x40 .f32) (x5 : Vec F S1x40 .f32) :
    List (View.Piece (Elt F) S10000x40 .f32) :=
  [⟨Rect.unit (s := S10000x40) (k0_off5 i) S400x40.size (k0_off5_inb i hZ), payZ x1 y x4 x5⟩]

/-- Phase 2's store: the whole output block. -/
def piecesO (x1 : Vec F S400x10000 .f32) (z : Vec F S10000x40 .f32) : List (View.Piece (Elt F) S400x40 .f32) :=
  [⟨Rect.unit (s := S400x40) ![0, 0] S400x40.size inb_S400x40_S400x40_0_0, payO x1 z⟩]

theorem runY_pieces (c : Dev nD) (i : grid0.Coords) (arg2 : Memref sig .tc .vmem S4x400x128 .f32) (harg2 : arg2.IsWhole) (arg3 : Memref sig .tc .vmem S400x10000 .f32) (harg3 : arg3.IsWhole) (arg4 : Memref sig .tc .vmem S4x128x16 .f32) (harg4 : arg4.IsWhole) (arg5 : Memref sig .tc .vmem S4x16 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S400x40 .f32) (harg8 : arg8.IsWhole) (arg9 : Memref sig .tc .vmem S10000x64 .f32) (harg9 : arg9.IsWhole) (arg10 : Memref sig .tc .vmem S10000x40 .f32) (harg10 : arg10.IsWhole) (hcY : condY i) (hcZ : ¬condZ i) (hcO : ¬condO i)
    (x0 : Vec F S4x400x128 .f32) (x2 : Vec F S4x128x16 .f32) (x3 : Vec F S4x16 .f32) (y : Vec F S10000x64 .f32) :
    (runY c i arg2 harg2 arg3 harg3 arg4 harg4 arg5 harg5 arg6 harg6 arg7 harg7 arg8 harg8 arg9 harg9 arg10 harg10 hcY hcZ hcO x0 x2 x3 y).1 = piecesY i hcY x0 x2 x3 := by
  unfold runY piecesY payY0 payY1 payY2 payY3; dsimp only
  unfold runY.sl.r runY.sl.r_1
  simp only [View.readAt_eq_ld, Memref.IsWhole.read_unread]

theorem runZ_pieces (c : Dev nD) (i : grid0.Coords) (arg2 : Memref sig .tc .vmem S4x400x128 .f32) (harg2 : arg2.IsWhole) (arg3 : Memref sig .tc .vmem S400x10000 .f32) (harg3 : arg3.IsWhole) (arg4 : Memref sig .tc .vmem S4x128x16 .f32) (harg4 : arg4.IsWhole) (arg5 : Memref sig .tc .vmem S4x16 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S400x40 .f32) (harg8 : arg8.IsWhole) (arg9 : Memref sig .tc .vmem S10000x64 .f32) (harg9 : arg9.IsWhole) (arg10 : Memref sig .tc .vmem S10000x40 .f32) (harg10 : arg10.IsWhole) (hcY : ¬condY i) (hcZ : condZ i) (hcO : ¬condO i)
    (x1 : Vec F S400x10000 .f32) (x4 : Vec F S64x40 .f32) (x5 : Vec F S1x40 .f32) (y : Vec F S10000x64 .f32) (z : Vec F S10000x40 .f32) :
    (runZ c i arg2 harg2 arg3 harg3 arg4 harg4 arg5 harg5 arg6 harg6 arg7 harg7 arg8 harg8 arg9 harg9 arg10 harg10 hcY hcZ hcO x1 x4 x5 y z).1 = piecesZ i hcZ x1 y x4 x5 := by
  unfold runZ piecesZ payZ; dsimp only
  simp only [View.readAt_eq_ld, Memref.IsWhole.read_unread]

theorem runO_pieces (c : Dev nD) (i : grid0.Coords) (arg2 : Memref sig .tc .vmem S4x400x128 .f32) (harg2 : arg2.IsWhole) (arg3 : Memref sig .tc .vmem S400x10000 .f32) (harg3 : arg3.IsWhole) (arg4 : Memref sig .tc .vmem S4x128x16 .f32) (harg4 : arg4.IsWhole) (arg5 : Memref sig .tc .vmem S4x16 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S400x40 .f32) (harg8 : arg8.IsWhole) (arg9 : Memref sig .tc .vmem S10000x64 .f32) (harg9 : arg9.IsWhole) (arg10 : Memref sig .tc .vmem S10000x40 .f32) (harg10 : arg10.IsWhole) (hcY : ¬condY i) (hcZ : ¬condZ i) (hcO : condO i)
    (x1 : Vec F S400x10000 .f32) (z : Vec F S10000x40 .f32) :
    (runO c i arg2 harg2 arg3 harg3 arg4 harg4 arg5 harg5 arg6 harg6 arg7 harg7 arg8 harg8 arg9 harg9 arg10 harg10 hcY hcZ hcO x1 z).1 = piecesO x1 z := by
  unfold runO piecesO payO; dsimp only
  simp only [View.readAt_eq_ld, Memref.IsWhole.read_unread]

end Cert.KernelIdeal.Body

end
-- ==== Proof.Steps.lean ====
/-
  One point's effect on a scratch, read index by index.
  The newest store through an overlapping rectangle wins; the point's stores go to rows
  [400·(t mod 25), 400·(t mod 25) + 400) only.  So off those rows a scratch reads what it held, and on them the
  first scratch reads branch ⌊col / 16⌋'s payload at (row − 400·(t mod 25), col mod 16), the second the phase-1
  payload at (row − 400·(t mod 25), col), whatever the scratch held before.
-/
import proofs.«150119_g28870770163985_cont_9to1_1761_2_alg».proof.Proof.Pieces
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- Row `r` of the rows point `s` stores to, as a row of a 10000-row scratch. -/
abbrev rowOf (s : Fin cfg0.N) (r : Fin 400) : Fin 10000 :=
  ⟨400 * (s.val % 25) + r.val, by have := r.isLt; have : s.val % 25 < 25 := Nat.mod_lt _ (by decide); omega⟩

/-- The first scratch after a phase-0 point: its four stores over what it held. -/
def stepY (i : grid0.Coords) (hY : condY i) (x0 : Vec F S4x400x128 .f32) (x2 : Vec F S4x128x16 .f32) (x3 : Vec F S4x16 .f32)
    (y : Vec F S10000x64 .f32) : Vec F S10000x64 .f32 :=
  scY.view.read (Elt F) (scY.view.writes (Elt F) ((Memref.isWhole_whole cc0_scratch0).unread y) (piecesY i hY x0 x2 x3))

/-- The second scratch after a phase-1 point: its store over what it held. -/
def stepZ (i : grid0.Coords) (hZ : condZ i) (x1 : Vec F S400x10000 .f32) (y : Vec F S10000x64 .f32) (x4 : Vec F S64x40 .f32) (x5 : Vec F S1x40 .f32)
    (z : Vec F S10000x40 .f32) : Vec F S10000x40 .f32 :=
  scZ.view.read (Elt F) (scZ.view.writes (Elt F) ((Memref.isWhole_whole cc0_scratch1).unread z) (piecesZ i hZ x1 y x4 x5))

section Y

variable (t : Fin cfg0.N) (hY : condY (grid0.coords t)) (x0 : Vec F S4x400x128 .f32) (x2 : Vec F S4x128x16 .f32) (x3 : Vec F S4x16 .f32)
  (y : Vec F S10000x64 .f32)

/-- Off the point's rows the first scratch keeps what it held. -/
theorem stepY_keep (j : S10000x64.Idx)
    (h : (j 0).val < 400 * (t.val % 25) ∨ 400 * (t.val % 25) + 400 ≤ (j 0).val) :
    stepY (grid0.coords t) hY x0 x2 x3 y j = y j := by
  unfold stepY piecesY
  rw [View.read_writes_cons_unit_of_not_mem (s := S10000x64) (size := S400x16.size) _ _ _ _ _ j (off4_eq t) 0 h,
    View.read_writes_cons_unit_of_not_mem (s := S10000x64) (size := S400x16.size) _ _ _ _ _ j (off3_eq t) 0 h,
    View.read_writes_cons_unit_of_not_mem (s := S10000x64) (size := S400x16.size) _ _ _ _ _ j (off2_eq t) 0 h,
    View.read_writes_cons_unit_of_not_mem (s := S10000x64) (size := S400x16.size) _ _ _ _ _ j (off1_eq t) 0 h,
    View.writes_nil]
  exact congrFun ((Memref.isWhole_whole cc0_scratch0).read_unread y) j

/-- On the point's rows, columns [48, 64): branch 3's payload. -/
theorem stepY_at3 (r : Fin 400) (jj : Fin 16) :
    stepY (grid0.coords t) hY x0 x2 x3 y (ValueIdx.ix2 (rowOf t r) (⟨48 + jj.val, by have := jj.isLt; omega⟩ : Fin 64))
      = payY3 x0 x2 x3 (ValueIdx.ix2 r jj) := by
  unfold stepY piecesY
  exact View.read_writes_cons_unit_of_mem (s := S10000x64) (size := S400x16.size) _ _ _ _ _ _ (ValueIdx.ix2 r jj) (off4_eq t)
    (Fin.forall_fin_two.mpr ⟨rfl, rfl⟩)

/-- Columns [32, 48): branch 2's payload. -/
theorem stepY_at2 (r : Fin 400) (jj : Fin 16) :
    stepY (grid0.coords t) hY x0 x2 x3 y (ValueIdx.ix2 (rowOf t r) (⟨32 + jj.val, by have := jj.isLt; omega⟩ : Fin 64))
      = payY2 x0 x2 x3 (ValueIdx.ix2 r jj) := by
  unfold stepY piecesY
  rw [View.read_writes_cons_unit_of_not_mem (s := S10000x64) (size := S400x16.size) _ _ _ _ _ _ (off4_eq t) 1
    (Or.inl (by show 32 + jj.val < 48; have := jj.isLt; omega))]
  exact View.read_writes_cons_unit_of_mem (s := S10000x64) (size := S400x16.size) _ _ _ _ _ _ (ValueIdx.ix2 r jj) (off3_eq t)
    (Fin.forall_fin_two.mpr ⟨rfl, rfl⟩)

/-- Columns [16, 32): branch 1's payload. -/
theorem stepY_at1 (r : Fin 400) (jj : Fin 16) :
    stepY (grid0.coords t) hY x0 x2 x3 y (ValueIdx.ix2 (rowOf t r) (⟨16 + jj.val, by have := jj.isLt; omega⟩ : Fin 64))
      = payY1 x0 x2 x3 (ValueIdx.ix2 r jj) := by
  unfold stepY piecesY
  rw [View.read_writes_cons_unit_of_not_mem (s := S10000x64) (size := S400x16.size) _ _ _ _ _ _ (off4_eq t) 1
      (Or.inl (by show 16 + jj.val < 48; have := jj.isLt; omega)),
    View.read_writes_cons_unit_of_not_mem (s := S10000x64) (size := S400x16.size) _ _ _ _ _ _ (off3_eq t) 1
      (Or.inl (by show 16 + jj.val < 32; have := jj.isLt; omega))]
  exact View.read_writes_cons_unit_of_mem (s := S10000x64) (size := S400x16.size) _ _ _ _ _ _ (ValueIdx.ix2 r jj) (off2_eq t)
    (Fin.forall_fin_two.mpr ⟨rfl, rfl⟩)

/-- Columns [0, 16): branch 0's payload. -/
theorem stepY_at0 (r : Fin 400) (jj : Fin 16) :
    stepY (grid0.coords t) hY x0 x2 x3 y (ValueIdx.ix2 (rowOf t r) (⟨jj.val, by have := jj.isLt; omega⟩ : Fin 64))
      = payY0 x0 x2 x3 (ValueIdx.ix2 r jj) := by
  unfold stepY piecesY
  rw [View.read_writes_cons_unit_of_not_mem (s := S10000x64) (size := S400x16.size) _ _ _ _ _ _ (off4_eq t) 1
      (Or.inl (by show jj.val < 48; have := jj.isLt; omega)),
    View.read_writes_cons_unit_of_not_mem (s := S10000x64) (size := S400x16.size) _ _ _ _ _ _ (off3_eq t) 1
      (Or.inl (by show jj.val < 32; have := jj.isLt; omega)),
    View.read_writes_cons_unit_of_not_mem (s := S10000x64) (size := S400x16.size) _ _ _ _ _ _ (off2_eq t) 1
      (Or.inl (by show jj.val < 16; exact jj.isLt))]
  exact View.read_writes_cons_unit_of_mem (s := S10000x64) (size := S400x16.size) _ _ _ _ _ _ (ValueIdx.ix2 r jj) (off1_eq t)
    (Fin.forall_fin_two.mpr ⟨rfl, (Nat.zero_add _).symm⟩)

end Y

section Z

variable (t : Fin cfg0.N) (hZ : condZ (grid0.coords t)) (x1 : Vec F S400x10000 .f32) (y : Vec F S10000x64 .f32) (x4 : Vec F S64x40 .f32)
  (x5 : Vec F S1x40 .f32) (z : Vec F S10000x40 .f32)

/-- Off the point's rows the second scratch keeps what it held. -/
theorem stepZ_keep (j : S10000x40.Idx)
    (h : (j 0).val < 400 * (t.val % 25) ∨ 400 * (t.val % 25) + 400 ≤ (j 0).val) :
    stepZ (grid0.coords t) hZ x1 y x4 x5 z j = z j := by
  unfold stepZ piecesZ
  rw [View.read_writes_cons_unit_of_not_mem (s := S10000x40) (size := S400x40.size) _ _ _ _ _ j (off5_eq t) 0 h, View.writes_nil]
  exact congrFun ((Memref.isWhole_whole cc0_scratch1).read_unread z) j

/-- On the point's rows: the phase-1 payload. -/
theorem stepZ_at (r : Fin 400) (o : Fin 40) :
    stepZ (grid0.coords t) hZ x1 y x4 x5 z (ValueIdx.ix2 (rowOf t r) o) = payZ x1 y x4 x5 (ValueIdx.ix2 r o) := by
  unfold stepZ piecesZ
  exact View.read_writes_cons_unit_of_mem (s := S10000x40) (size := S400x40.size) _ _ _ _ _ _ (ValueIdx.ix2 r o) (off5_eq t)
    (Fin.forall_fin_two.mpr ⟨rfl, (Nat.zero_add _).symm⟩)

end Z

/-- The output block's staging buffer after phase 2's one store through the whole block: the payload, whatever the
    buffer held (every index is its own position in a rectangle at zero offsets). -/
theorem outO_read (v : View sig .tc .vmem S400x40 .f32) (f : v.ty.Contents (Elt F)) (x1 : Vec F S400x10000 .f32) (z : Vec F S10000x40 .f32) :
    v.read (Elt F) (v.writes (Elt F) f (piecesO x1 z)) = payO x1 z := by
  funext y
  unfold piecesO
  exact View.read_writes_cons_unit_of_mem (s := S400x40) (size := S400x40.size) v f inb_S400x40_S400x40_0_0 (payO x1 z) [] y y rfl
    (Fin.forall_fin_two.mpr ⟨(Nat.zero_add _).symm, (Nat.zero_add _).symm⟩)

end Cert.KernelIdeal.Body

end
-- ==== Proof.Track.lean ====
/-
  What the two scratch buffers hold, point by point.
  Phase-0 point s (s < 25) stores, at rows [400·s, 400·s + 400) of the first scratch, column q, branch ⌊q/16⌋'s
  payload of the point's x block, weights and biases (`Yat`); when phase 0 is over every row is stored, and the first
  scratch is ONE function of the argument arrays (`Ytgt`), whatever it held at entry.  Phase-1 point s (25 ≤ s < 50)
  stores at rows [400·(s − 25), …) of the second scratch the phase-1 payload of the hg strip and that function
  (`Zat`); after phase 1 the second scratch is `Ztgt`.  Phase 2 writes the output block from the hg strip and `Ztgt`.
  The invariant before point k: the rows of the points below k hold these values.  Each phase keeps it: a point's
  stores miss every other point's rows.
-/
import proofs.«150119_g28870770163985_cont_9to1_1761_2_alg».proof.Proof.Steps

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (c : Dev nD)

/-- What phase-0 point `s` stores at its row `r`, column `q`. -/
def Yat (s : Fin cfg0.N) (r : Fin 400) (q : Fin 64) : Elt F EltTy.f32 :=
  if h3 : 48 ≤ q.val then payY3 (iblk m c 0 s) (iblk m c 2 s) (iblk m c 3 s) (ValueIdx.ix2 r (⟨q.val - 48, by have := q.isLt; omega⟩ : Fin 16))
  else if h2 : 32 ≤ q.val then payY2 (iblk m c 0 s) (iblk m c 2 s) (iblk m c 3 s) (ValueIdx.ix2 r (⟨q.val - 32, by omega⟩ : Fin 16))
  else if h1 : 16 ≤ q.val then payY1 (iblk m c 0 s) (iblk m c 2 s) (iblk m c 3 s) (ValueIdx.ix2 r (⟨q.val - 16, by omega⟩ : Fin 16))
  else payY0 (iblk m c 0 s) (iblk m c 2 s) (iblk m c 3 s) (ValueIdx.ix2 r (⟨q.val, by omega⟩ : Fin 16))

/-- The phase-0 point that stores row `j 0`. -/
abbrev ptY (j : S10000x64.Idx) : Fin cfg0.N :=
  ⟨(j 0).val / 400, lt_of_lt_of_eq (by have := ValueIdx.idx2_lt0 j; omega : (j 0).val / 400 < 75) N_0.symm⟩
/-- The row within its point's 400. -/
abbrev rowIn {n1 : Nat} (j : (⟨2, ![10000, n1]⟩ : Shape).Idx) : Fin 400 := ⟨(j 0).val % 400, Nat.mod_lt _ (by decide)⟩

/-- The first scratch once phase 0 is over. -/
def Ytgt : Vec F S10000x64 .f32 := fun j => Yat m c (ptY j) (rowIn j) (j 1)

/-- What phase-1 point `s` stores at its row `r`, column `o`. -/
def Zat (s : Fin cfg0.N) (r : Fin 400) (o : Fin 40) : Elt F EltTy.f32 :=
  payZ (iblk m c 1 s) (Ytgt m c) (iblk m c 4 s) (iblk m c 5 s) (ValueIdx.ix2 r o)

/-- The phase-1 point that stores row `j 0`. -/
abbrev ptZ (j : S10000x40.Idx) : Fin cfg0.N :=
  ⟨25 + (j 0).val / 400, lt_of_lt_of_eq (by have := ValueIdx.idx2_lt0 j; omega : 25 + (j 0).val / 400 < 75) N_0.symm⟩

/-- The second scratch once phase 1 is over. -/
def Ztgt : Vec F S10000x40 .f32 := fun j => Zat m c (ptZ j) (rowIn j) (j 1)

/-- The output block phase-2 point `t` stores. -/
def outBlk (t : Fin cfg0.N) : Vec F S400x40 .f32 := payO (iblk m c 1 t) (Ztgt m c)

/-- Before point `k`: the rows of the phase-0 points below `k` hold `Yat`, those of the phase-1 points below `k` hold `Zat`. -/
def Inv (k : ℕ) (Y : Vec F S10000x64 .f32) (Z : Vec F S10000x40 .f32) : Prop :=
  (∀ s : Fin cfg0.N, s.val < k → s.val < 25 → ∀ (r : Fin 400) (q : Fin 64), Y (ValueIdx.ix2 (rowOf s r) q) = Yat m c s r q)
  ∧ (∀ s : Fin cfg0.N, s.val < k → 25 ≤ s.val → s.val < 50 → ∀ (r : Fin 400) (o : Fin 40), Z (ValueIdx.ix2 (rowOf s r) o) = Zat m c s r o)

variable {m c}

theorem inv_zero (Y : Vec F S10000x64 .f32) (Z : Vec F S10000x40 .f32) : Inv m c 0 Y Z :=
  ⟨fun s hs => absurd hs (Nat.not_lt_zero _), fun s hs => absurd hs (Nat.not_lt_zero _)⟩

/-- Once phase 0 is over the first scratch is `Ytgt`: every row is some phase-0 point's. -/
theorem Y_eq {k : ℕ} {Y : Vec F S10000x64 .f32} {Z : Vec F S10000x40 .f32} (h : Inv m c k Y Z) (hk : 25 ≤ k) : Y = Ytgt m c := by
  funext j
  have hlt := ValueIdx.idx2_lt0 j
  have hj : j = ValueIdx.ix2 (rowOf (ptY j) (rowIn j)) (j 1) := funext fun a => by
    match a with
    | ⟨0, _⟩ => exact Fin.ext (by show (j 0).val = 400 * ((j 0).val / 400 % 25) + (j 0).val % 400; omega)
    | ⟨1, _⟩ => rfl
  exact (congrArg Y hj).trans (h.1 (ptY j) (by show (j 0).val / 400 < k; omega) (by show (j 0).val / 400 < 25; omega) (rowIn j) (j 1))

/-- Once phase 1 is over the second scratch is `Ztgt`. -/
theorem Z_eq {k : ℕ} {Y : Vec F S10000x64 .f32} {Z : Vec F S10000x40 .f32} (h : Inv m c k Y Z) (hk : 50 ≤ k) : Z = Ztgt m c := by
  funext j
  have hlt := ValueIdx.idx2_lt0 j
  have hj : j = ValueIdx.ix2 (rowOf (ptZ j) (rowIn j)) (j 1) := funext fun a => by
    match a with
    | ⟨0, _⟩ => exact Fin.ext (by show (j 0).val = 400 * ((25 + (j 0).val / 400) % 25) + (j 0).val % 400; omega)
    | ⟨1, _⟩ => rfl
  exact (congrArg Z hj).trans (h.2 (ptZ j) (by show 25 + (j 0).val / 400 < k; omega) (by show 25 ≤ 25 + (j 0).val / 400; omega)
    (by show 25 + (j 0).val / 400 < 50; omega) (rowIn j) (j 1))

/-- A phase-0 point keeps the invariant. -/
theorem inv_stepY (t : Fin cfg0.N) (ht : t.val < 25) (hY : condY (grid0.coords t)) {Y : Vec F S10000x64 .f32} {Z : Vec F S10000x40 .f32}
    (h : Inv m c t.val Y Z) :
    Inv m c (t.val + 1) (stepY (grid0.coords t) hY (iblk m c 0 t) (iblk m c 2 t) (iblk m c 3 t) Y) Z := by
  refine ⟨fun s hs hs25 r q => ?_, fun s hs h25 _ => by omega⟩
  by_cases hst : s = t
  · subst hst
    unfold Yat
    have hq := q.isLt
    by_cases h3 : 48 ≤ q.val
    · rw [dif_pos h3]
      exact (congrArg _ (show ValueIdx.ix2 (rowOf s r) q = ValueIdx.ix2 (rowOf s r) (⟨48 + (q.val - 48), by omega⟩ : Fin 64) from
        congrArg _ (Fin.ext (by show q.val = 48 + (q.val - 48); omega)))).trans (stepY_at3 s hY _ _ _ Y r ⟨q.val - 48, by omega⟩)
    · rw [dif_neg h3]
      by_cases h2 : 32 ≤ q.val
      · rw [dif_pos h2]
        exact (congrArg _ (show ValueIdx.ix2 (rowOf s r) q = ValueIdx.ix2 (rowOf s r) (⟨32 + (q.val - 32), by omega⟩ : Fin 64) from
          congrArg _ (Fin.ext (by show q.val = 32 + (q.val - 32); omega)))).trans (stepY_at2 s hY _ _ _ Y r ⟨q.val - 32, by omega⟩)
      · rw [dif_neg h2]
        by_cases h1 : 16 ≤ q.val
        · rw [dif_pos h1]
          exact (congrArg _ (show ValueIdx.ix2 (rowOf s r) q = ValueIdx.ix2 (rowOf s r) (⟨16 + (q.val - 16), by omega⟩ : Fin 64) from
            congrArg _ (Fin.ext (by show q.val = 16 + (q.val - 16); omega)))).trans (stepY_at1 s hY _ _ _ Y r ⟨q.val - 16, by omega⟩)
        · rw [dif_neg h1]
          exact stepY_at0 s hY _ _ _ Y r ⟨q.val, by omega⟩
  · have hne : s.val ≠ t.val := fun e => hst (Fin.ext e)
    have hr := r.isLt
    rw [stepY_keep t hY _ _ _ Y _ (by show 400 * (s.val % 25) + r.val < 400 * (t.val % 25) ∨ 400 * (t.val % 25) + 400 ≤ 400 * (s.val % 25) + r.val; omega)]
    exact h.1 s (by omega) hs25 r q

/-- A phase-1 point keeps the invariant; what it stores is computed from `Ytgt`, the first scratch being complete. -/
theorem inv_stepZ (t : Fin cfg0.N) (ht1 : 25 ≤ t.val) (ht2 : t.val < 50) (hZ : condZ (grid0.coords t)) {Y : Vec F S10000x64 .f32}
    {Z : Vec F S10000x40 .f32} (h : Inv m c t.val Y Z) :
    Inv m c (t.val + 1) Y (stepZ (grid0.coords t) hZ (iblk m c 1 t) Y (iblk m c 4 t) (iblk m c 5 t) Z) := by
  refine ⟨fun s hs hs25 r q => h.1 s (by omega) hs25 r q, fun s hs h25 h50 r o => ?_⟩
  by_cases hst : s = t
  · subst hst
    rw [stepZ_at s hZ _ _ _ _ Z r o]
    unfold Zat
    rw [Y_eq h ht1]
  · have hne : s.val ≠ t.val := fun e => hst (Fin.ext e)
    have hr := r.isLt
    rw [stepZ_keep t hZ _ _ _ _ Z _ (by show 400 * (s.val % 25) + r.val < 400 * (t.val % 25) ∨ 400 * (t.val % 25) + 400 ≤ 400 * (s.val % 25) + r.val; omega)]
    exact h.2 s (by omega) h25 h50 r o

/-- A phase-2 point touches neither scratch. -/
theorem inv_stepO (t : Fin cfg0.N) (ht : 50 ≤ t.val) {Y : Vec F S10000x64 .f32} {Z : Vec F S10000x40 .f32} (h : Inv m c t.val Y Z) :
    Inv m c (t.val + 1) Y Z :=
  ⟨fun s _ hs25 r q => h.1 s (by omega) hs25 r q, fun s _ h25 h50 r o => h.2 s (by omega) h25 h50 r o⟩

end Cert.KernelIdeal.Body

end
-- ==== Proof.Body.lean ====
/-
  The frame of the three-phase kernel.
  Proof data: every input window's buffer is left at its block; the output window's at the phase-2 block (before
  phase 2 it is idle and not written back, so its buffer is handed back as found); between points the region keeps
  both scratch buffers at SOME contents satisfying the row invariant, and the generator register.  The body
  obligation is by phase: the phase's run of the body, the invariant advanced by the phase's step.  The class
  invariant yields the invariant before point 0 (no row is claimed) and is given back after the last point (the
  contents forgotten).
-/
import proofs.«150119_g28870770163985_cont_9to1_1761_2_alg».proof.Proof.Track
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before point `n`: both scratch buffers owned at contents satisfying the row invariant. -/
def PhiT (c : Dev nD) (n : ℕ) : sProp 𝕄 :=
  iprop(∃ Y Z, ⌜Inv m c n Y Z⌝ ∗ owns (c : Thread nD τ) scY fullShare Y ∗ owns (c : Thread nD τ) scZ fullShare Z ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := PhiT m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outBlk m c t := by dsimp only [dats]

/-- Each input's current staging buffer holds its block at every point, fetched there or not. -/
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 4800000 in
/-- The body at any point, by phase. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiT m c (t.val + 1) from rfl,
    show (dats m 0 c).Φ t.castSucc = PhiT m c t.val from by dsimp only [dats]; simp only [Fin.coe_castSucc]]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  have hN : t.val < 75 := lt_of_lt_of_eq t.isLt (show cfg0.N = 75 from N_0)
  unfold PhiT
  by_cases hY : t.val < 25
  · have cY : condY (grid0.coords t) := (hcondY t).mpr hY
    have cZ : ¬condZ (grid0.coords t) := fun h => by have := (hcondZ t).mp h; omega
    have cO : ¬condO (grid0.coords t) := fun h => by have := (hcondO t).mp h; omega
    rw [Dat.leavesExact_idle (dats m 0 c) 6 t (idleAt6 t cO) (noFlush6 t cO)]
    iintro ⟨⟨%Y, %Z, %hInv, HY, HZ, Hg⟩, Ho, ⟨%d0, H0⟩, ⟨%d1, H1⟩, ⟨%d2, H2⟩, ⟨%d3, H3⟩, ⟨%d4, H4⟩, ⟨%d5, H5⟩, ⟨%d6, H6⟩⟩
    iapply ((runY c (grid0.coords t) _ _ _ _ _ _ _ _ _ _ _ _ _ _ _ _ _ _ cY cZ cO (iblk m c 0 t) (iblk m c 2 t) (iblk m c 3 t) Y).2 Set.univ _)
    isplitl [H0]; · iexact H0
    isplitl [H2]; · iexact H2
    isplitl [H3]; · iexact H3
    isplitl [HY]; · iexact HY
    iintro ⟨H0, H2, H3, HY⟩
    isplitl [HY HZ Hg]
    · iexists (stepY (grid0.coords t) cY (iblk m c 0 t) (iblk m c 2 t) (iblk m c 3 t) Y), Z
      isplitr; · ipureintro; exact inv_stepY t hY cY hInv
      isplitl [HY]
      · unfold owns; iexists _; isplitr
        swap; · iexact HY
        ipureintro; rw [runY_pieces]; rfl
      isplitl [HZ]; · iexact HZ
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases hZ : t.val < 50
    · have cY : ¬condY (grid0.coords t) := fun h => hY ((hcondY t).mp h)
      have cZ : condZ (grid0.coords t) := (hcondZ t).mpr ⟨by omega, hZ⟩
      have cO : ¬condO (grid0.coords t) := fun h => by have := (hcondO t).mp h; omega
      rw [Dat.leavesExact_idle (dats m 0 c) 6 t (idleAt6 t cO) (noFlush6 t cO)]
      iintro ⟨⟨%Y, %Z, %hInv, HY, HZ, Hg⟩, Ho, ⟨%d0, H0⟩, ⟨%d1, H1⟩, ⟨%d2, H2⟩, ⟨%d3, H3⟩, ⟨%d4, H4⟩, ⟨%d5, H5⟩, ⟨%d6, H6⟩⟩
      iapply ((runZ c (grid0.coords t) _ _ _ _ _ _ _ _ _ _ _ _ _ _ _ _ _ _ cY cZ cO (iblk m c 1 t) (iblk m c 4 t) (iblk m c 5 t) Y Z).2 Set.univ _)
      isplitl [H1]; · iexact H1
      isplitl [H4]; · iexact H4
      isplitl [H5]; · iexact H5
      isplitl [HY]; · iexact HY
      isplitl [HZ]; · iexact HZ
      iintro ⟨H1, H4, H5, HY, HZ⟩
      isplitl [HY HZ Hg]
      · iexists Y, (stepZ (grid0.coords t) cZ (iblk m c 1 t) Y (iblk m c 4 t) (iblk m c 5 t) Z)
        isplitr; · ipureintro; exact inv_stepZ t (by omega) hZ cZ hInv
        isplitl [HY]; · iexact HY
        isplitl [HZ]
        · unfold owns; iexists _; isplitr
          swap; · iexact HZ
          ipureintro; rw [runZ_pieces]; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · have cY : ¬condY (grid0.coords t) := fun h => hY ((hcondY t).mp h)
      have cZ : ¬condZ (grid0.coords t) := fun h => hZ ((hcondZ t).mp h).2
      have cO : condO (grid0.coords t) := (hcondO t).mpr (by omega)
      rw [show (dats m 0 c).leavesExact 6 t = owns (c : Thread nD τ) (ms6 t) fullShare ((dats m 0 c).after 6 t) from by
        unfold Dat.leavesExact; rw [liveAt6 t cO], after6]
      iintro ⟨⟨%Y, %Z, %hInv, HY, HZ, Hg⟩, Ho, ⟨%d0, H0⟩, ⟨%d1, H1⟩, ⟨%d2, H2⟩, ⟨%d3, H3⟩, ⟨%d4, H4⟩, ⟨%d5, H5⟩, ⟨%d6, H6⟩⟩
      iapply ((runO c (grid0.coords t) _ _ _ _ _ _ _ _ _ _ _ _ _ _ _ _ _ _ cY cZ cO (iblk m c 1 t) Z).2 Set.univ _)
      isplitl [H1]; · iexact H1
      isplitl [HZ]; · iexact HZ
      isplitl [H6]; · iexists _; iexact H6
      iintro ⟨H1, HZ, ⟨%f6, H6⟩⟩
      isplitl [HY HZ Hg]
      · iexists Y, Z
        isplitr; · ipureintro; exact inv_stepO t (by omega) hInv
        isplitl [HY]; · iexact HY
        isplitl [HZ]; · iexact HZ
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      rw [runO_pieces, Z_eq hInv (by omega : 50 ≤ t.val)]
      unfold outBlk
      exact outO_read _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no row is claimed yet. -/
theorem hin (c : Dev nD) : Pipeline.ΦA spec0 c ⊢ (dats m 0 c).Φ 0 := by
  rw [show (dats m 0 c).Φ 0 = PhiT m c 0 from rfl, PhiA_eq]; unfold PhiT
  iintro ⟨⟨⟨%y, HY⟩, ⟨%z, HZ⟩⟩, Hg⟩
  iexists y, z
  isplitr; · ipureintro; exact inv_zero y z
  isplitl [HY]; · iexact HY
  isplitl [HZ]; · iexact HZ
  iexact Hg

/-- After the last point the invariant gives the class invariant back: the scratch contents are forgotten. -/
theorem hout (c : Dev nD) : (dats m 0 c).Φ (Fin.last cfg0.N) ⊢ Pipeline.ΦA spec0 c := by
  rw [show (dats m 0 c).Φ (Fin.last cfg0.N) = PhiT m c (Fin.last cfg0.N).val from rfl, PhiA_eq]; unfold PhiT
  iintro ⟨%Y, %Z, -, HY, HZ, Hg⟩
  isplitl [HY HZ]
  · isplitl [HY]
    · iexists _; iexact HY
    iexists _; iexact HZ
  iexact Hg

/-! ## The run and the frame -/

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.PayIdeal.lean ====
/-
  The kernel body's three payloads, read at an index on the extended reals.

  Phase 0 stores, for each branch k, the 400 × 16 block   Σ_cc x[k, r, cc] · W1[k, cc, jj] + b1[k, jj].
  Phase 1 stores the 400 × 40 block                       Σ_q max (Σ_n hg[r, n] · y[n, q]) 0 · W2[q, o] + b2[0, o],
  y being the whole first scratch.  Phase 2 stores        Σ_n hg[r, n] · z[n, o],  z being the whole second scratch.

  Each payload is a few pure vector operations on the blocks the body loads, and the proof reads them one at a time:
  a load through a unit-stride rectangle reads the block at offset + coordinate (the whole-buffer loads read the buffer
  itself); a [1, a, b] slab viewed as [a, b] keeps its last two coordinates; a [1, n] row broadcast down the rows reads
  the row; a matrix product into a zero accumulator is the plain sum over the contracted coordinate; sums and maxima are
  pointwise; a same-shape cast is the identity.  No sum is reordered, and the rectifier's zero is left as the float
  word the body prints, never evaluated.
-/
import proofs.«150119_g28870770163985_cont_9to1_1761_2_alg».proof.Proof.Pieces
import proofs.«150119_g28870770163985_cont_9to1_1761_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayIdeal

open Cert.KernelIdeal Cert.KernelIdeal.Gen Cert.KernelIdeal.Body Idealize.ShloMosaic Idealize.ShloMosaic.ValueIdx

/-! ## The products

Each of the body's four matrix products contracts the left operand's second axis against the right operand's first,
into a zero accumulator: entry (i, j) is the plain sum Σ_c l[i, c] · r[c, j]. -/

/-- The 400 × 128 by 128 × 16 product (a branch's x slab times its weight slab). -/
theorem mmA_apply (l : FVec Ideal S400x128 .f32) (r : FVec Ideal S128x16 .f32) (i : Fin 400) (j : Fin 16) :
    matmul (F := Ideal) dot_S400x128_S128x16_S400x16_1_0_0_1_n_n none l r (constant (F := Ideal) S400x16 .f32 0x00000000#32) (ix2 i j)
      = ∑ c : Fin 128, l (ix2 i c) * r (ix2 c j) :=
  Cert.Lib.PlainDot.matmul_zero_apply dot_S400x128_S128x16_S400x16_1_0_0_1_n_n rfl rfl
    (fun j q => by
      unfold DotDims.lhsIdx
      rw [dif_neg (show ¬(0 : Fin S400x128.rank) ∈ dot_S400x128_S128x16_S400x16_1_0_0_1_n_n.lhsBatch by decide),
        dif_pos (show (0 : Fin S400x128.rank) ∈ dot_S400x128_S128x16_S400x16_1_0_0_1_n_n.lhsNonContracting by decide)]
      rfl)
    (fun j q => dot_S400x128_S128x16_S400x16_1_0_0_1_n_n.lhsIdx_val_of_single rfl j q)
    (fun j q => dot_S400x128_S128x16_S400x16_1_0_0_1_n_n.rhsIdx_val_of_single rfl j q)
    (fun j q => by
      unfold DotDims.rhsIdx
      rw [dif_neg (show ¬(1 : Fin S128x16.rank) ∈ dot_S400x128_S128x16_S400x16_1_0_0_1_n_n.rhsBatch by decide),
        dif_pos (show (1 : Fin S128x16.rank) ∈ dot_S400x128_S128x16_S400x16_1_0_0_1_n_n.rhsNonContracting by decide)]
      rfl)
    none l r (ix2 i j)

/-- The 400 × 10000 by 10000 × 64 product (the hg strip times the first scratch). -/
theorem mmB_apply (l : FVec Ideal S400x10000 .f32) (r : FVec Ideal S10000x64 .f32) (i : Fin 400) (j : Fin 64) :
    matmul (F := Ideal) dot_S400x10000_S10000x64_S400x64_1_0_0_1_n_n none l r (constant (F := Ideal) S400x64 .f32 0x00000000#32) (ix2 i j)
      = ∑ c : Fin 10000, l (ix2 i c) * r (ix2 c j) :=
  Cert.Lib.PlainDot.matmul_zero_apply dot_S400x10000_S10000x64_S400x64_1_0_0_1_n_n rfl rfl
    (fun j q => by
      unfold DotDims.lhsIdx
      rw [dif_neg (show ¬(0 : Fin S400x10000.rank) ∈ dot_S400x10000_S10000x64_S400x64_1_0_0_1_n_n.lhsBatch by decide),
        dif_pos (show (0 : Fin S400x10000.rank) ∈ dot_S400x10000_S10000x64_S400x64_1_0_0_1_n_n.lhsNonContracting by decide)]
      rfl)
    (fun j q => dot_S400x10000_S10000x64_S400x64_1_0_0_1_n_n.lhsIdx_val_of_single rfl j q)
    (fun j q => dot_S400x10000_S10000x64_S400x64_1_0_0_1_n_n.rhsIdx_val_of_single rfl j q)
    (fun j q => by
      unfold DotDims.rhsIdx
      rw [dif_neg (show ¬(1 : Fin S10000x64.rank) ∈ dot_S400x10000_S10000x64_S400x64_1_0_0_1_n_n.rhsBatch by decide),
        dif_pos (show (1 : Fin S10000x64.rank) ∈ dot_S400x10000_S10000x64_S400x64_1_0_0_1_n_n.rhsNonContracting by decide)]
      rfl)
    none l r (ix2 i j)

/-- The 400 × 64 by 64 × 40 product (the rectified hidden rows times the second weights). -/
theorem mmC_apply (l : FVec Ideal S400x64 .f32) (r : FVec Ideal S64x40 .f32) (i : Fin 400) (j : Fin 40) :
    matmul (F := Ideal) dot_S400x64_S64x40_S400x40_1_0_0_1_n_n none l r (constant (F := Ideal) S400x40 .f32 0x00000000#32) (ix2 i j)
      = ∑ c : Fin 64, l (ix2 i c) * r (ix2 c j) :=
  Cert.Lib.PlainDot.matmul_zero_apply dot_S400x64_S64x40_S400x40_1_0_0_1_n_n rfl rfl
    (fun j q => by
      unfold DotDims.lhsIdx
      rw [dif_neg (show ¬(0 : Fin S400x64.rank) ∈ dot_S400x64_S64x40_S400x40_1_0_0_1_n_n.lhsBatch by decide),
        dif_pos (show (0 : Fin S400x64.rank) ∈ dot_S400x64_S64x40_S400x40_1_0_0_1_n_n.lhsNonContracting by decide)]
      rfl)
    (fun j q => dot_S400x64_S64x40_S400x40_1_0_0_1_n_n.lhsIdx_val_of_single rfl j q)
    (fun j q => dot_S400x64_S64x40_S400x40_1_0_0_1_n_n.rhsIdx_val_of_single rfl j q)
    (fun j q => by
      unfold DotDims.rhsIdx
      rw [dif_neg (show ¬(1 : Fin S64x40.rank) ∈ dot_S400x64_S64x40_S400x40_1_0_0_1_n_n.rhsBatch by decide),
        dif_pos (show (1 : Fin S64x40.rank) ∈ dot_S400x64_S64x40_S400x40_1_0_0_1_n_n.rhsNonContracting by decide)]
      rfl)
    none l r (ix2 i j)

/-- The 400 × 10000 by 10000 × 40 product (the hg strip times the second scratch). -/
theorem mmD_apply (l : FVec Ideal S400x10000 .f32) (r : FVec Ideal S10000x40 .f32) (i : Fin 400) (j : Fin 40) :
    matmul (F := Ideal) dot_S400x10000_S10000x40_S400x40_1_0_0_1_n_n none l r (constant (F := Ideal) S400x40 .f32 0x00000000#32) (ix2 i j)
      = ∑ c : Fin 10000, l (ix2 i c) * r (ix2 c j) :=
  Cert.Lib.PlainDot.matmul_zero_apply dot_S400x10000_S10000x40_S400x40_1_0_0_1_n_n rfl rfl
    (fun j q => by
      unfold DotDims.lhsIdx
      rw [dif_neg (show ¬(0 : Fin S400x10000.rank) ∈ dot_S400x10000_S10000x40_S400x40_1_0_0_1_n_n.lhsBatch by decide),
        dif_pos (show (0 : Fin S400x10000.rank) ∈ dot_S400x10000_S10000x40_S400x40_1_0_0_1_n_n.lhsNonContracting by decide)]
      rfl)
    (fun j q => dot_S400x10000_S10000x40_S400x40_1_0_0_1_n_n.lhsIdx_val_of_single rfl j q)
    (fun j q => dot_S400x10000_S10000x40_S400x40_1_0_0_1_n_n.rhsIdx_val_of_single rfl j q)
    (fun j q => by
      unfold DotDims.rhsIdx
      rw [dif_neg (show ¬(1 : Fin S10000x40.rank) ∈ dot_S400x10000_S10000x40_S400x40_1_0_0_1_n_n.rhsBatch by decide),
        dif_pos (show (1 : Fin S10000x40.rank) ∈ dot_S400x10000_S10000x40_S400x40_1_0_0_1_n_n.rhsNonContracting by decide)]
      rfl)
    none l r (ix2 i j)

/-! ## Layout operations at an index -/

/-- A [1, 400, 128] slab viewed as [400, 128]: entry (i, c) is the slab's (0, i, c). -/
theorem slabX_apply (v : Vec Ideal S1x400x128 .f32) (i : Fin 400) (c : Fin 128) :
    shapeCast S400x128 v shapeCasts_S1x400x128_S400x128 (ix2 i c) = v (ix3 (0 : Fin 1) i c) :=
  shapeCast_apply v shapeCasts_S1x400x128_S400x128 (ix2 i c) (ix3 (0 : Fin 1) i c) (by
    rewrite [Shape.rowMajor_val_three, Shape.rowMajor_val_two]
    show (0 * 400 + i.val) * 128 + c.val = i.val * 128 + c.val
    omega)

/-- A [1, 128, 16] slab viewed as [128, 16]: entry (c, j) is the slab's (0, c, j). -/
theorem slabW_apply (v : Vec Ideal S1x128x16 .f32) (c : Fin 128) (j : Fin 16) :
    shapeCast S128x16 v shapeCasts_S1x128x16_S128x16 (ix2 c j) = v (ix3 (0 : Fin 1) c j) :=
  shapeCast_apply v shapeCasts_S1x128x16_S128x16 (ix2 c j) (ix3 (0 : Fin 1) c j) (by
    rewrite [Shape.rowMajor_val_three, Shape.rowMajor_val_two]
    show (0 * 128 + c.val) * 16 + j.val = c.val * 16 + j.val
    omega)

/-- A [1, 16] row broadcast down 400 rows: entry (i, j) is the row's (0, j). -/
theorem row16_apply (v : Vec Ideal S1x16 .f32) (i : Fin 400) (j : Fin 16) :
    broadcastTo S400x16 v broadcasts_S1x16_S400x16 (ix2 i j) = v (ix2 (0 : Fin 1) j) :=
  broadcastTo_apply v broadcasts_S1x16_S400x16 (ix2 i j) (ix2 (0 : Fin 1) j) (fun a => match a with
    | ⟨0, _⟩ => by show (0 : Nat) = if (1 : Nat) = 1 then 0 else i.val; rw [if_pos rfl]
    | ⟨1, _⟩ => by show j.val = if (16 : Nat) = 1 then 0 else j.val; rw [if_neg (by decide)])

/-- A [1, 40] row broadcast down 400 rows: entry (i, o) is the row's (0, o). -/
theorem row40_apply (v : Vec Ideal S1x40 .f32) (i : Fin 400) (o : Fin 40) :
    broadcastTo S400x40 v broadcasts_S1x40_S400x40 (ix2 i o) = v (ix2 (0 : Fin 1) o) :=
  broadcastTo_apply v broadcasts_S1x40_S400x40 (ix2 i o) (ix2 (0 : Fin 1) o) (fun a => match a with
    | ⟨0, _⟩ => by show (0 : Nat) = if (1 : Nat) = 1 then 0 else i.val; rw [if_pos rfl]
    | ⟨1, _⟩ => by show o.val = if (40 : Nat) = 1 then 0 else o.val; rw [if_neg (by decide)])

/-! ## Loads through a unit-stride rectangle: the block's coordinate is the offset plus the coordinate inside -/

/-- Slab k of the x block, loaded as a [1, 400, 128] rectangle at offsets (k, 0, 0): its (0, i, c) is x[k, i, c]. -/
theorem ldX_apply (x0 : Vec Ideal S4x400x128 .f32) (off : Fin 3 → Nat)
    (inb : ∀ a, off a + S1x400x128.size a ≤ S4x400x128.size a) (k : Fin 4) (h0 : off 0 = k.val) (h1 : off 1 = 0) (h2 : off 2 = 0)
    (i : Fin 400) (c : Fin 128) :
    View.ld x0 (Rect.unit (s := S4x400x128) off S1x400x128.size inb) (ix3 (0 : Fin 1) i c) = x0 (ix3 k i c) :=
  congrArg x0 (funext fun a => Fin.ext (by
    match a with
    | ⟨0, _⟩ => show off 0 + 1 * 0 = k.val; omega
    | ⟨1, _⟩ => show off 1 + 1 * i.val = i.val; omega
    | ⟨2, _⟩ => show off 2 + 1 * c.val = c.val; omega))

/-- Slab k of the first weights, loaded as a [1, 128, 16] rectangle at offsets (k, 0, 0): its (0, c, j) is W1[k, c, j]. -/
theorem ldW_apply (x2 : Vec Ideal S4x128x16 .f32) (off : Fin 3 → Nat)
    (inb : ∀ a, off a + S1x128x16.size a ≤ S4x128x16.size a) (k : Fin 4) (h0 : off 0 = k.val) (h1 : off 1 = 0) (h2 : off 2 = 0)
    (c : Fin 128) (j : Fin 16) :
    View.ld x2 (Rect.unit (s := S4x128x16) off S1x128x16.size inb) (ix3 (0 : Fin 1) c j) = x2 (ix3 k c j) :=
  congrArg x2 (funext fun a => Fin.ext (by
    match a with
    | ⟨0, _⟩ => show off 0 + 1 * 0 = k.val; omega
    | ⟨1, _⟩ => show off 1 + 1 * c.val = c.val; omega
    | ⟨2, _⟩ => show off 2 + 1 * j.val = j.val; omega))

/-- Row k of the first bias, loaded as a [1, 16] rectangle at offsets (k, 0): its (0, j) is b1[k, j]. -/
theorem ldB_apply (x3 : Vec Ideal S4x16 .f32) (off : Fin 2 → Nat)
    (inb : ∀ a, off a + S1x16.size a ≤ S4x16.size a) (k : Fin 4) (h0 : off 0 = k.val) (h1 : off 1 = 0) (j : Fin 16) :
    View.ld x3 (Rect.unit (s := S4x16) off S1x16.size inb) (ix2 (0 : Fin 1) j) = x3 (ix2 k j) :=
  congrArg x3 (funext fun a => Fin.ext (by
    match a with
    | ⟨0, _⟩ => show off 0 + 1 * 0 = k.val; omega
    | ⟨1, _⟩ => show off 1 + 1 * j.val = j.val; omega))

/-! ## The branch payloads on the slabs they load

Each of the four is: view the two slabs as matrices, multiply into a zero accumulator, add the bias row broadcast down
the rows (the closing same-shape cast is the identity). At (i, j): Σ_c x-slab[0, i, c] · W-slab[0, c, j] + b-row[0, j]. -/

theorem pay5_apply (vx : Vec Ideal S1x400x128 .f32) (vw : Vec Ideal S1x128x16 .f32) (vb : Vec Ideal S1x16 .f32)
    (i : Fin 400) (j : Fin 16) :
    k0_pay5 (F := Ideal) vx vw vb (ix2 i j)
      = (∑ c : Fin 128, vx (ix3 (0 : Fin 1) i c) * vw (ix3 (0 : Fin 1) c j)) + vb (ix2 (0 : Fin 1) j) := by
  unfold k0_pay5
  rw [shapeCast_self, addf_apply, mmA_apply, row16_apply]
  congr 1
  refine Finset.sum_congr rfl fun c _ => ?_
  rw [slabX_apply, slabW_apply]

theorem pay6_apply (vx : Vec Ideal S1x400x128 .f32) (vw : Vec Ideal S1x128x16 .f32) (vb : Vec Ideal S1x16 .f32)
    (i : Fin 400) (j : Fin 16) :
    k0_pay6 (F := Ideal) vx vw vb (ix2 i j)
      = (∑ c : Fin 128, vx (ix3 (0 : Fin 1) i c) * vw (ix3 (0 : Fin 1) c j)) + vb (ix2 (0 : Fin 1) j) := by
  unfold k0_pay6
  rw [shapeCast_self, addf_apply, mmA_apply, row16_apply]
  congr 1
  refine Finset.sum_congr rfl fun c _ => ?_
  rw [slabX_apply, slabW_apply]

theorem pay2_apply (vx : Vec Ideal S1x400x128 .f32) (vw : Vec Ideal S1x128x16 .f32) (vb : Vec Ideal S1x16 .f32)
    (i : Fin 400) (j : Fin 16) :
    k0_pay2 (F := Ideal) vx vw vb (ix2 i j)
      = (∑ c : Fin 128, vx (ix3 (0 : Fin 1) i c) * vw (ix3 (0 : Fin 1) c j)) + vb (ix2 (0 : Fin 1) j) := by
  unfold k0_pay2
  rw [shapeCast_self, addf_apply, mmA_apply, row16_apply]
  congr 1
  refine Finset.sum_congr rfl fun c _ => ?_
  rw [slabX_apply, slabW_apply]

/-- The third branch's payload takes its two matrices already viewed (by the two one-step payloads). -/
theorem pay1_apply (vx : Vec Ideal S1x400x128 .f32) (vw : Vec Ideal S1x128x16 .f32) (vb : Vec Ideal S1x16 .f32)
    (i : Fin 400) (j : Fin 16) :
    k0_pay1 (F := Ideal) (k0_pay7 vx) (k0_pay8 vw) vb (ix2 i j)
      = (∑ c : Fin 128, vx (ix3 (0 : Fin 1) i c) * vw (ix3 (0 : Fin 1) c j)) + vb (ix2 (0 : Fin 1) j) := by
  unfold k0_pay1 k0_pay7 k0_pay8
  rw [shapeCast_self, addf_apply, mmA_apply, row16_apply]
  congr 1
  refine Finset.sum_congr rfl fun c _ => ?_
  rw [slabX_apply, slabW_apply]

/-! ## Phase 0 on the blocks it loads -/

/-- Phase 0, branch 0: the stored 400 × 16 block at (r, jj) is Σ_cc x[0, r, cc] · W1[0, cc, jj] + b1[0, jj]. -/
theorem payY0_apply (x0 : Vec Ideal S4x400x128 .f32) (x2 : Vec Ideal S4x128x16 .f32) (x3 : Vec Ideal S4x16 .f32) (r : Fin 400) (jj : Fin 16) :
    payY0 (F := Ideal) x0 x2 x3 (ix2 r jj)
      = (∑ cc : Fin 128, x0 (ix3 (0 : Fin 4) r cc) * x2 (ix3 (0 : Fin 4) cc jj)) + x3 (ix2 (0 : Fin 4) jj) := by
  unfold payY0
  rw [pay5_apply]
  congr 1
  · refine Finset.sum_congr rfl fun cc _ => ?_
    rw [ldX_apply x0 _ _ (0 : Fin 4) rfl rfl rfl r cc, ldW_apply x2 _ _ (0 : Fin 4) rfl rfl rfl cc jj]
  · exact ldB_apply x3 _ _ (0 : Fin 4) rfl rfl jj

/-- Phase 0, branch 1: the stored 400 × 16 block at (r, jj) is Σ_cc x[1, r, cc] · W1[1, cc, jj] + b1[1, jj]. -/
theorem payY1_apply (x0 : Vec Ideal S4x400x128 .f32) (x2 : Vec Ideal S4x128x16 .f32) (x3 : Vec Ideal S4x16 .f32) (r : Fin 400) (jj : Fin 16) :
    payY1 (F := Ideal) x0 x2 x3 (ix2 r jj)
      = (∑ cc : Fin 128, x0 (ix3 (1 : Fin 4) r cc) * x2 (ix3 (1 : Fin 4) cc jj)) + x3 (ix2 (1 : Fin 4) jj) := by
  unfold payY1
  rw [pay6_apply]
  congr 1
  · refine Finset.sum_congr rfl fun cc _ => ?_
    rw [ldX_apply x0 _ _ (1 : Fin 4) rfl rfl rfl r cc, ldW_apply x2 _ _ (1 : Fin 4) rfl rfl rfl cc jj]
  · exact ldB_apply x3 _ _ (1 : Fin 4) rfl rfl jj

/-- Phase 0, branch 2: the stored 400 × 16 block at (r, jj) is Σ_cc x[2, r, cc] · W1[2, cc, jj] + b1[2, jj]. -/
theorem payY2_apply (x0 : Vec Ideal S4x400x128 .f32) (x2 : Vec Ideal S4x128x16 .f32) (x3 : Vec Ideal S4x16 .f32) (r : Fin 400) (jj : Fin 16) :
    payY2 (F := Ideal) x0 x2 x3 (ix2 r jj)
      = (∑ cc : Fin 128, x0 (ix3 (2 : Fin 4) r cc) * x2 (ix3 (2 : Fin 4) cc jj)) + x3 (ix2 (2 : Fin 4) jj) := by
  unfold payY2
  rw [pay1_apply]
  congr 1
  · refine Finset.sum_congr rfl fun cc _ => ?_
    rw [ldX_apply x0 _ _ (2 : Fin 4) rfl rfl rfl r cc, ldW_apply x2 _ _ (2 : Fin 4) rfl rfl rfl cc jj]
  · exact ldB_apply x3 _ _ (2 : Fin 4) rfl rfl jj

/-- Phase 0, branch 3: the stored 400 × 16 block at (r, jj) is Σ_cc x[3, r, cc] · W1[3, cc, jj] + b1[3, jj]. -/
theorem payY3_apply (x0 : Vec Ideal S4x400x128 .f32) (x2 : Vec Ideal S4x128x16 .f32) (x3 : Vec Ideal S4x16 .f32) (r : Fin 400) (jj : Fin 16) :
    payY3 (F := Ideal) x0 x2 x3 (ix2 r jj)
      = (∑ cc : Fin 128, x0 (ix3 (3 : Fin 4) r cc) * x2 (ix3 (3 : Fin 4) cc jj)) + x3 (ix2 (3 : Fin 4) jj) := by
  unfold payY3
  rw [pay2_apply]
  congr 1
  · refine Finset.sum_congr rfl fun cc _ => ?_
    rw [ldX_apply x0 _ _ (3 : Fin 4) rfl rfl rfl r cc, ldW_apply x2 _ _ (3 : Fin 4) rfl rfl rfl cc jj]
  · exact ldB_apply x3 _ _ (3 : Fin 4) rfl rfl jj

/-! ## Phases 1 and 2 on the blocks they load -/

theorem pay3_apply (v9 : Vec Ideal S400x10000 .f32) (v10 : Vec Ideal S10000x64 .f32) (v14 : Vec Ideal S64x40 .f32) (v16 : Vec Ideal S1x40 .f32)
    (i : Fin 400) (o : Fin 40) :
    k0_pay3 (F := Ideal) v9 v10 v14 v16 (ix2 i o)
      = (∑ q : Fin 64, max (∑ n : Fin 10000, v9 (ix2 i n) * v10 (ix2 n q)) (Ideal.ofBits .f32 0x00000000#32) * v14 (ix2 q o))
          + v16 (ix2 (0 : Fin 1) o) := by
  unfold k0_pay3
  rw [shapeCast_self, addf_apply, mmC_apply, row40_apply, shapeCast_self]
  congr 1
  refine Finset.sum_congr rfl fun q _ => ?_
  rw [maximumf_apply, mmB_apply, broadcast_apply]
  rfl

theorem pay4_apply (v9 : Vec Ideal S400x10000 .f32) (v10 : Vec Ideal S10000x40 .f32) (i : Fin 400) (o : Fin 40) :
    k0_pay4 (F := Ideal) v9 v10 (ix2 i o) = ∑ n : Fin 10000, v9 (ix2 i n) * v10 (ix2 n o) := by
  unfold k0_pay4
  exact mmD_apply v9 v10 i o

/-- The offsets of a whole-buffer load, however the zeros are spelt. -/
theorem off2_zero : (![0, 0] : Fin 2 → Nat) = fun _ => 0 := funext fun a => match a with
  | ⟨0, _⟩ => rfl
  | ⟨1, _⟩ => rfl

/-- Phase 1: the stored 400 × 40 block at (r, o) is Σ_q max (Σ_n hg[r, n] · y[n, q]) 0 · W2[q, o] + b2[0, o], the
    rectifier's zero being the float word the body prints. -/
theorem payZ_apply (x1 : Vec Ideal S400x10000 .f32) (y : Vec Ideal S10000x64 .f32) (x4 : Vec Ideal S64x40 .f32) (x5 : Vec Ideal S1x40 .f32) (r : Fin 400) (o : Fin 40) :
    payZ (F := Ideal) x1 y x4 x5 (ix2 r o)
      = (∑ q : Fin 64, max (∑ n : Fin 10000, x1 (ix2 r n) * y (ix2 n q)) (Ideal.ofBits .f32 0x00000000#32) * x4 (ix2 q o)) + x5 (ix2 (0 : Fin 1) o) := by
  unfold payZ
  rw [View.ld_unit_zero off2_zero _ x1, View.ld_unit_zero off2_zero _ y, View.ld_unit_zero off2_zero _ x4, View.ld_unit_zero off2_zero _ x5]
  exact pay3_apply x1 y x4 x5 r o

/-- Phase 2: the output block at (r, o) is Σ_n hg[r, n] · z[n, o]. -/
theorem payO_apply (x1 : Vec Ideal S400x10000 .f32) (z : Vec Ideal S10000x40 .f32) (r : Fin 400) (o : Fin 40) :
    payO (F := Ideal) x1 z (ix2 r o) = ∑ n : Fin 10000, x1 (ix2 r n) * z (ix2 n o) := by
  unfold payO
  rw [View.ld_unit_zero off2_zero _ x1, View.ld_unit_zero off2_zero _ z]
  exact pay4_apply x1 z r o

end Cert.KernelIdeal.PayIdeal

end
-- ==== Proof.Spec.lean ====
/-
  The specification: what both programs compute, as ONE function of the six argument arrays, index by index, on
  the extended reals.  With q = 16·k + j running over the 64 hidden columns (branch k, unit j):

    lin n q = Σ_c x[k, n, c] · W1[k, c, j] + b1[k, j]             the branch's linear layer at node n
    hid i q = max (Σ_n hg[i, n] · lin n q) 0                      smoothed over the hypergraph, rectified
    cls i o = Σ_q hid i q · W2[q, o] + b2[o]                      the second linear layer
    res i o = Σ_n hg[i, n] · cls n o                              smoothed again

  The two programs differ only in how they lay these sums out (four 16-wide products joined along the columns
  against one 64-wide product); no sum is regrouped, so no finiteness is used.  The zero of the rectifier is kept as
  the float word both programs print.
-/
import Idealize.ShloMosaic.PureOps.Ideal
import Idealize.ShloMosaic.Lib.ValueIdx

noncomputable section

namespace Cert.TwoPass

open Idealize.ShloMosaic Idealize.ShloMosaic.ValueIdx

/-- The branch of hidden column `q`. -/
abbrev colK (q : Fin 64) : Fin 4 := ⟨q.val / 16, by have := q.isLt; omega⟩
/-- The unit of hidden column `q` within its branch. -/
abbrev colJ (q : Fin 64) : Fin 16 := ⟨q.val % 16, by omega⟩

variable (x : FVec Ideal (⟨3, ![4, 10000, 128]⟩ : Shape) .f32) (hg : FVec Ideal (⟨2, ![10000, 10000]⟩ : Shape) .f32)
  (W1 : FVec Ideal (⟨3, ![4, 128, 16]⟩ : Shape) .f32) (b1 : FVec Ideal (⟨2, ![4, 16]⟩ : Shape) .f32)
  (W2 : FVec Ideal (⟨2, ![64, 40]⟩ : Shape) .f32) (b2 : FVec Ideal (⟨1, ![40]⟩ : Shape) .f32)

/-- The linear layer of branch `colK q` at node `n`, unit `colJ q`. -/
def lin (n : Fin 10000) (q : Fin 64) : Ideal .f32 :=
  (∑ c : Fin 128, x (ix3 (colK q) n c) * W1 (ix3 (colK q) c (colJ q))) + b1 (ix2 (colK q) (colJ q))

/-- The hidden layer: the linear layer smoothed over the hypergraph and rectified. -/
def hid (i : Fin 10000) (q : Fin 64) : Ideal .f32 :=
  max (∑ n : Fin 10000, hg (ix2 i n) * lin x W1 b1 n q) (Ideal.ofBits .f32 0x00000000#32)

/-- The second linear layer at node `i`, class `o`. -/
def cls (i : Fin 10000) (o : Fin 40) : Ideal .f32 :=
  (∑ q : Fin 64, hid x hg W1 b1 i q * W2 (ix2 q o)) + b2 (ix1 o)

/-- The result at node `i`, class `o`: the second layer smoothed over the hypergraph. -/
def res (i : Fin 10000) (o : Fin 40) : Ideal .f32 :=
  ∑ n : Fin 10000, hg (ix2 i n) * cls x hg W1 b1 W2 b2 n o

/-- The result array. -/
def G : FVec Ideal (⟨2, ![10000, 40]⟩ : Shape) .f32 := fun j => res x hg W1 b1 W2 b2 (j 0) (j 1)

/-- The first scratch's contents once phase 0 is over: the linear layer, node by hidden column. -/
def Ylin : FVec Ideal (⟨2, ![10000, 64]⟩ : Shape) .f32 := fun j => lin x W1 b1 (j 0) (j 1)

/-- The second scratch's contents once phase 1 is over: the second linear layer, node by class. -/
def Zcls : FVec Ideal (⟨2, ![10000, 40]⟩ : Shape) .f32 := fun j => cls x hg W1 b1 W2 b2 (j 0) (j 1)

end Cert.TwoPass

end
-- ==== Proof.KValue.lean ====
/-
  The idealized kernel's result is the specification's `G` of the argument arrays.
  Each window's block at a point is read where its index map puts it: the x block of phase-0 point s is rows
  [400·s, 400·s + 400) of every slab; the hg strip of a later point is rows [400·(s mod 25), …); the weights and
  biases are whole; the second bias is the 40-vector cast to a 1 × 40 row by the host.  With the payloads as sums,
  phase 0 leaves the first scratch at `lin`, phase 1 the second at `cls` — the same sums the specification names —
  and phase-2 point t writes back rows [400·(t mod 25), …) of `G`.  These 25 blocks tile the result array.
-/
import proofs.«150119_g28870770163985_cont_9to1_1761_2_alg».proof.Proof.Body
import proofs.«150119_g28870770163985_cont_9to1_1761_2_alg».proof.Proof.PayIdeal
import proofs.«150119_g28870770163985_cont_9to1_1761_2_alg».proof.Proof.Spec
import Idealize.ShloMosaic.Lib.StableHlo.Run

set_option maxRecDepth 16384

noncomputable section

namespace Cert.KernelIdeal.KValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Body Cert.KernelIdeal.PayIdeal Cert.TwoPass

variable (m : (ℓ : Loc nD τ sig) → Buf (Elt Ideal) ℓ) (ρ : Dev nD → PrngReg) (c : Dev nD)

/-! ## The index maps over the grid -/

theorem idx_facts : ∀ t : Fin cfg0.N,
    win0_0.index t (0 : Fin 3) = 0 ∧ win0_0.index t (1 : Fin 3) = (if t.val < 25 then t.val % 25 else 0) ∧ win0_0.index t (2 : Fin 3) = 0
    ∧ win0_1.index t (0 : Fin 2) = (if t.val < 25 then 0 else t.val % 25) ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = (if 50 ≤ t.val then t.val % 25 else 0) ∧ win0_6.index t (1 : Fin 2) = 0 :=
  (by decide +kernel : ∀ t : Fin grid0.N, _)

/-! ## The blocks, read off the argument arrays -/

/-- The x block of a phase-0 point: its 400 rows of every slab. -/
theorem blk0 (s : Fin cfg0.N) (hs : s.val < 25) (k : Fin 4) (r : Fin 400) (cc : Fin 128) :
    iblk m c 0 s (ix3 k r cc) = (m ((c : Thread nD τ).loc main_arg0)) (ix3 k (rowOf s r) cc) := by
  obtain ⟨e0, e1, e2, -⟩ := idx_facts s
  rw [← V_main_arg0 m c]
  show V m c main_arg0 (((cfg0.win 0).blk s).view.emb (ix3 k r cc)) = _
  refine congrArg _ (funext fun a => Fin.ext ?_)
  match a with
  | ⟨0, _⟩ => show win0_0.index s (0 : Fin 3) * 4 + 1 * k.val = k.val; rw [e0]; omega
  | ⟨1, _⟩ => show win0_0.index s (1 : Fin 3) * 400 + 1 * r.val = 400 * (s.val % 25) + r.val; rw [e1, if_pos hs]; omega
  | ⟨2, _⟩ => show win0_0.index s (2 : Fin 3) * 128 + 1 * cc.val = cc.val; rw [e2]; omega

/-- The hg strip of a point of phase 1 or 2: its 400 rows. -/
theorem blk1 (s : Fin cfg0.N) (hs : 25 ≤ s.val) (r : Fin 400) (n : Fin 10000) :
    iblk m c 1 s (ix2 r n) = (m ((c : Thread nD τ).loc main_arg1)) (ix2 (rowOf s r) n) := by
  obtain ⟨-, -, -, e0, e1, -⟩ := idx_facts s
  rw [← V_main_arg1 m c]
  show V m c main_arg1 (((cfg0.win 1).blk s).view.emb (ix2 r n)) = _
  refine congrArg _ (funext fun a => Fin.ext ?_)
  match a with
  | ⟨0, _⟩ => show win0_1.index s (0 : Fin 2) * 400 + 1 * r.val = 400 * (s.val % 25) + r.val; rw [e0, if_neg (by omega)]; omega
  | ⟨1, _⟩ => show win0_1.index s (1 : Fin 2) * 10000 + 1 * n.val = n.val; rw [e1]; omega

/-- The first weights, whole. -/
theorem blk2 (s : Fin cfg0.N) (k : Fin 4) (cc : Fin 128) (jj : Fin 16) :
    iblk m c 2 s (ix3 k cc jj) = (m ((c : Thread nD τ).loc main_arg2)) (ix3 k cc jj) := by
  obtain ⟨-, -, -, -, -, e0, e1, e2, -⟩ := idx_facts s
  rw [← V_main_arg2 m c]
  show V m c main_arg2 (((cfg0.win 2).blk s).view.emb (ix3 k cc jj)) = _
  refine congrArg _ (funext fun a => Fin.ext ?_)
  match a with
  | ⟨0, _⟩ => show win0_2.index s (0 : Fin 3) * 4 + 1 * k.val = k.val; rw [e0]; omega
  | ⟨1, _⟩ => show win0_2.index s (1 : Fin 3) * 128 + 1 * cc.val = cc.val; rw [e1]; omega
  | ⟨2, _⟩ => show win0_2.index s (2 : Fin 3) * 16 + 1 * jj.val = jj.val; rw [e2]; omega

/-- The first biases, whole. -/
theorem blk3 (s : Fin cfg0.N) (k : Fin 4) (jj : Fin 16) :
    iblk m c 3 s (ix2 k jj) = (m ((c : Thread nD τ).loc main_arg3)) (ix2 k jj) := by
  obtain ⟨-, -, -, -, -, -, -, -, e0, e1, -⟩ := idx_facts s
  rw [← V_main_arg3 m c]
  show V m c main_arg3 (((cfg0.win 3).blk s).view.emb (ix2 k jj)) = _
  refine congrArg _ (funext fun a => Fin.ext ?_)
  match a with
  | ⟨0, _⟩ => show win0_3.index s (0 : Fin 2) * 4 + 1 * k.val = k.val; rw [e0]; omega
  | ⟨1, _⟩ => show win0_3.index s (1 : Fin 2) * 16 + 1 * jj.val = jj.val; rw [e1]; omega

/-- The second weights, whole. -/
theorem blk4 (s : Fin cfg0.N) (q : Fin 64) (o : Fin 40) :
    iblk m c 4 s (ix2 q o) = (m ((c : Thread nD τ).loc main_arg4)) (ix2 q o) := by
  obtain ⟨-, -, -, -, -, -, -, -, -, -, e0, e1, -⟩ := idx_facts s
  rw [← V_main_arg4 m c]
  show V m c main_arg4 (((cfg0.win 4).blk s).view.emb (ix2 q o)) = _
  refine congrArg _ (funext fun a => Fin.ext ?_)
  match a with
  | ⟨0, _⟩ => show win0_4.index s (0 : Fin 2) * 64 + 1 * q.val = q.val; rw [e0]; omega
  | ⟨1, _⟩ => show win0_4.index s (1 : Fin 2) * 40 + 1 * o.val = o.val; rw [e1]; omega

/-- The host's cast of the second bias to a 1 × 40 row, read at an index. -/
theorem row_b2 (o : Fin 40) : V m c main_v0 (ix2 (0 : Fin 1) o) = (m ((c : Thread nD τ).loc main_arg5)) (ix1 o) := by
  have e : (V m c main_v0 : S1x40.Idx → Elt Ideal .f32) = shapeCast S1x40 (m ((c : Thread nD τ).loc main_arg5)) shapeCasts_S40_S1x40 := by
    dsimp only [Gen.V, Gen.hostOps0]; after_results; rfl
  rw [e]
  exact shapeCast_apply _ shapeCasts_S40_S1x40 (ix2 (0 : Fin 1) o) (ix1 o) (by
    rw [Shape.rowMajor_val_two, Shape.rowMajor_val_one]; show o.val = 0 * 40 + o.val; omega)

/-- The second bias row, whole. -/
theorem blk5 (s : Fin cfg0.N) (o : Fin 40) :
    iblk m c 5 s (ix2 (0 : Fin 1) o) = (m ((c : Thread nD τ).loc main_arg5)) (ix1 o) := by
  obtain ⟨-, -, -, -, -, -, -, -, -, -, -, -, e0, e1, -⟩ := idx_facts s
  rw [← row_b2 m c o]
  show V m c main_v0 (((cfg0.win 5).blk s).view.emb (ix2 (0 : Fin 1) o)) = _
  refine congrArg _ (funext fun a => Fin.ext ?_)
  match a with
  | ⟨0, _⟩ => show win0_5.index s (0 : Fin 2) * 1 + 1 * 0 = 0; rw [e0]
  | ⟨1, _⟩ => show win0_5.index s (1 : Fin 2) * 40 + 1 * o.val = o.val; rw [e1]; omega

/-! ## The scratch contents are the specification's layers -/

/-- What phase-0 point `s` stores is the linear layer at its rows. -/
theorem Yat_eq (s : Fin cfg0.N) (hs : s.val < 25) (r : Fin 400) (q : Fin 64) :
    Yat (F := Ideal) m c s r q = lin (m ((c : Thread nD τ).loc main_arg0)) (m ((c : Thread nD τ).loc main_arg2)) (m ((c : Thread nD τ).loc main_arg3)) (rowOf s r) q := by
  have hq := q.isLt
  unfold Yat lin
  by_cases h3 : 48 ≤ q.val
  · rw [dif_pos h3, payY3_apply]
    have hk : colK q = (3 : Fin 4) := Fin.ext (by show q.val / 16 = 3; omega)
    have hj : colJ q = (⟨q.val - 48, by omega⟩ : Fin 16) := Fin.ext (by show q.val % 16 = q.val - 48; omega)
    rw [hk, hj]
    simp only [blk0 m c s hs, blk2 m c s, blk3 m c s]
  · rw [dif_neg h3]
    by_cases h2 : 32 ≤ q.val
    · rw [dif_pos h2, payY2_apply]
      have hk : colK q = (2 : Fin 4) := Fin.ext (by show q.val / 16 = 2; omega)
      have hj : colJ q = (⟨q.val - 32, by omega⟩ : Fin 16) := Fin.ext (by show q.val % 16 = q.val - 32; omega)
      rw [hk, hj]
      simp only [blk0 m c s hs, blk2 m c s, blk3 m c s]
    · rw [dif_neg h2]
      by_cases h1 : 16 ≤ q.val
      · rw [dif_pos h1, payY1_apply]
        have hk : colK q = (1 : Fin 4) := Fin.ext (by show q.val / 16 = 1; omega)
        have hj : colJ q = (⟨q.val - 16, by omega⟩ : Fin 16) := Fin.ext (by show q.val % 16 = q.val - 16; omega)
        rw [hk, hj]
        simp only [blk0 m c s hs, blk2 m c s, blk3 m c s]
      · rw [dif_neg h1, payY0_apply]
        have hk : colK q = (0 : Fin 4) := Fin.ext (by show q.val / 16 = 0; omega)
        have hj : colJ q = (⟨q.val, by omega⟩ : Fin 16) := Fin.ext (by show q.val % 16 = q.val; omega)
        rw [hk, hj]
        simp only [blk0 m c s hs, blk2 m c s, blk3 m c s]

/-- After phase 0 the first scratch is the linear layer. -/
theorem Ytgt_eq : Ytgt (F := Ideal) m c = Ylin (m ((c : Thread nD τ).loc main_arg0)) (m ((c : Thread nD τ).loc main_arg2)) (m ((c : Thread nD τ).loc main_arg3)) := by
  funext j
  have hlt := idx2_lt0 j
  show Yat m c (ptY j) (rowIn j) (j 1) = lin _ _ _ (j 0) (j 1)
  refine (Yat_eq m c (ptY j) (by show (j 0).val / 400 < 25; omega) (rowIn j) (j 1)).trans ?_
  exact congrArg (fun n => lin _ _ _ n (j 1)) (Fin.ext (by show 400 * ((j 0).val / 400 % 25) + (j 0).val % 400 = (j 0).val; omega))

/-- What phase-1 point `s` stores is the second linear layer at its rows. -/
theorem Zat_eq (s : Fin cfg0.N) (h25 : 25 ≤ s.val) (r : Fin 400) (o : Fin 40) :
    Zat (F := Ideal) m c s r o = cls (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (rowOf s r) o := by
  unfold Zat
  rw [payZ_apply, Ytgt_eq]
  unfold cls hid
  simp only [blk1 m c s h25, blk4 m c s, blk5 m c s, Ylin]

/-- After phase 1 the second scratch is the second linear layer. -/
theorem Ztgt_eq : Ztgt (F := Ideal) m c = Zcls (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext j
  have hlt := idx2_lt0 j
  show Zat m c (ptZ j) (rowIn j) (j 1) = cls _ _ _ _ _ _ (j 0) (j 1)
  refine (Zat_eq m c (ptZ j) (by show 25 ≤ 25 + (j 0).val / 400; omega) (rowIn j) (j 1)).trans ?_
  exact congrArg (fun n => cls _ _ _ _ _ _ n (j 1)) (Fin.ext (by show 400 * ((25 + (j 0).val / 400) % 25) + (j 0).val % 400 = (j 0).val; omega))

/-- The block phase-2 point `t` stores is its rows of `G`. -/
theorem out_eq (t : Fin cfg0.N) (ht : 50 ≤ t.val) (j : S400x40.Idx) :
    outBlk (F := Ideal) m c t j = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (rowOf t (j 0)) (j 1)) := by
  obtain ⟨r, o, rfl⟩ : ∃ (r : Fin 400) (o : Fin 40), j = ix2 r o := ⟨j 0, j 1, eq_ix2 j⟩
  unfold outBlk
  rw [payO_apply, Ztgt_eq]
  unfold G res
  simp only [blk1 m c t (by omega), Zcls]

/-! ## From blocks to the array -/

/-- Only phase-2 points write the output block back. -/
theorem phase2_of_flush (t : Fin cfg0.N) (hf : (cfg0.win 6).flush t = true) : 50 ≤ t.val := by
  by_contra h
  have := noFlush6 t (fun hc => h ((hcondO t).mp hc))
  rw [this] at hf; exact Bool.false_ne_true hf

/-- What point `t` writes back is block `t` of `G`. -/
theorem flushed_eq (t : Fin cfg0.N) (hf : (cfg0.win 6).flush t = true) :
    (dats m 0 c).flushed 6 t = ((cfg0.win 6).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have ht := phase2_of_flush t hf
  obtain ⟨-, -, -, -, -, -, -, -, -, -, -, -, -, -, e0, e1⟩ := idx_facts t
  show (cfg0.win 6).cut (grid0.coords t) ((dats m 0 c).after 6 t) = _
  rw [after6]
  funext j
  refine (out_eq m c t ht j).trans ?_
  show G _ _ _ _ _ _ _ = G _ _ _ _ _ _ (((cfg0.win 6).blk t).view.emb j)
  refine congrArg _ (funext fun a => Fin.ext ?_)
  match a with
  | ⟨0, _⟩ => show 400 * (t.val % 25) + (j 0).val = win0_6.index t (0 : Fin 2) * 400 + 1 * (j 0).val; rw [e0, if_pos ht]; omega
  | ⟨1, _⟩ => show (j 1).val = win0_6.index t (1 : Fin 2) * 40 + 1 * (j 1).val; rw [e1]; omega

/-- An index of the result array is in point `t`'s block iff each coordinate is in the block's range on its axis. -/
theorem mem_blk (t : Fin cfg0.N) (i : S10000x40.Idx) :
    i ∈ ((cfg0.win 6).blk t).view.set ↔ ∀ a : Fin 2, win0_6.index t a * S400x40.size a ≤ (i a).val ∧ (i a).val < win0_6.index t a * S400x40.size a + S400x40.size a := by
  show i ∈ ((View.whole main_v1).slice (win0_6.rect t)).set ↔ _
  rw [View.set_slice_whole, Rect.mem_set_unit]
  exact Iff.rfl

/-- Row i lies in the block of phase-2 point 50 + ⌊i / 400⌋. -/
theorem cover (i : S10000x40.Idx) : ∃ t : Fin cfg0.N, (cfg0.win 6).flush t = true ∧ i ∈ ((cfg0.win 6).blk t).view.set := by
  have hi0 := idx2_lt0 i
  have hi1 := idx2_lt1 i
  let t : Fin cfg0.N := ⟨50 + (i 0).val / 400, lt_of_lt_of_eq (by omega : 50 + (i 0).val / 400 < 75) N_0.symm⟩
  have ht : 50 ≤ t.val := Nat.le_add_right _ _
  obtain ⟨-, -, -, -, -, -, -, -, -, -, -, -, -, -, e0, e1⟩ := idx_facts t
  refine ⟨t, flush6 t ((hcondO t).mpr ht), ?_⟩
  rw [mem_blk]
  intro a
  match a with
  | ⟨0, _⟩ =>
    show win0_6.index t (0 : Fin 2) * 400 ≤ (i 0).val ∧ (i 0).val < win0_6.index t (0 : Fin 2) * 400 + 400
    rw [e0, if_pos ht]; show (50 + (i 0).val / 400) % 25 * 400 ≤ (i 0).val ∧ (i 0).val < (50 + (i 0).val / 400) % 25 * 400 + 400; omega
  | ⟨1, _⟩ =>
    show win0_6.index t (1 : Fin 2) * 40 ≤ (i 1).val ∧ (i 1).val < win0_6.index t (1 : Fin 2) * 40 + 40
    rw [e1]; omega

/-- The result array after the run. -/
theorem final : (dats m 0 c).arrAt 6 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 _ (fun t hf => flushed_eq m c t hf) (cover)

/-- The idealized kernel's run: the result array at `G` of the arguments, the arguments unchanged. -/
theorem run : θ_run defs (onTc (τ := τ) (main (F := Ideal))) ⟨m, fun _ => 0, ρ⟩ fun r => ∀ c : Dev nD,
      r.2.mem ((c.tc : Thread nD τ).loc main_v1) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.KernelIdeal.KValue

end
-- ==== Proof.RefValue.lean ====
/-
  The reference program's result is the specification's array G.

  The reference computes, for each branch k = 0..3, the block h_k = max (hg · (x[k] · W1[k] + b1[k])) 0 of shape
  [10000, 16], joins the four blocks along the columns into a [10000, 64] array, and returns hg · (joined · W2 + b2).
  The specification indexes the 64 hidden columns by q = 16·k + j (branch k = q / 16, unit j = q % 16). The proof reads
  the reference one operation at a time, from the inputs outward, each stage at explicit coordinates:

    lin_bK   the branch's linear layer at (n, q % 16) is lin n q           for every column q with q / 16 = K
    hid_bK   the branch's rectified block at (i, q % 16) is hid i q         for every column q with q / 16 = K
    cat      the joined array at (i, q) is hid i q                          column q lies in piece q / 16 at q % 16
    cls_eq   the second linear layer at (n, o) is cls n o
    ref_is_G the result at (i, o) is res i o, which is G at (i, o)

  Every step is the reading of one operation at an index (a slice adds its offset, a reshape is row-major arithmetic on
  the coordinates, a broadcast drops coordinates, a matrix product is the sum over the contracted coordinate) followed by
  the identification of the composed index with the specification's coordinates. No sum is reordered or regrouped, so
  nothing about finiteness is used, and the rectifier's zero stays the float word both sides print.
-/
import proofs.«150119_g28870770163985_cont_9to1_1761_2_alg».proof.Proof.Gen.ReferenceIdeal.Read
import proofs.«150119_g28870770163985_cont_9to1_1761_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.TwoPass

section Stages

variable (x0 : (⟨S4x10000x128, .f32⟩ : BufTy).Contents (Elt Ideal)) (x1 : (⟨S10000x10000, .f32⟩ : BufTy).Contents (Elt Ideal))
  (x2 : (⟨S4x128x16, .f32⟩ : BufTy).Contents (Elt Ideal)) (x3 : (⟨S4x16, .f32⟩ : BufTy).Contents (Elt Ideal))
  (x4 : (⟨S64x40, .f32⟩ : BufTy).Contents (Elt Ideal)) (x5 : (⟨S40, .f32⟩ : BufTy).Contents (Elt Ideal))

/-- The first branch's linear layer (branch 0: x[0] · W1[0] + b1[0]) at node n and unit q % 16 is the
    specification's linear layer at the hidden column q, for every column q of that branch (q / 16 = 0). -/
theorem lin_b0 (n : Fin 10000) (q : Fin 64) (hq : q.val / 16 = 0) :
    val_main_v9 (F := Ideal) x0 x2 x3 (ix2 n (colJ q)) = lin x0 x2 x3 n q := by
  have hn := n.isLt
  have hqlt := q.isLt
  rw [val_main_v9_apply, val_main_v6_apply, val_main_v8_apply, val_main_v7_apply, val_main_v5_apply, val_main_v4_apply, Ideal.addf_def]
  unfold lin
  congr 1
  · -- the product x[0] · W1[0]: term by term, the slice and the reshape read x[0, n, c] and W1[0, c, q % 16]
    refine Finset.sum_congr rfl fun c _ => ?_
    have hc := c.isLt
    rw [val_main_v1_apply, val_main_v0_apply, val_main_v3_apply, val_main_v2_apply]
    have e0 : idx_main_v0 (idx_main_v1 (lidx_main_v6 (ix2 n (colJ q)) c)) = ix3 (colK q) n c := funext fun a => Fin.ext (by
      match a with
      | ⟨0, _⟩ => show (0 : Nat) = q.val / 16; omega
      | ⟨1, _⟩ => show (n.val * 128 + c.val) / 128 % 10000 = n.val; omega
      | ⟨2, _⟩ => show (n.val * 128 + c.val) % 128 = c.val; omega)
    have e2 : idx_main_v2 (idx_main_v3 (ridx_main_v6 (ix2 n (colJ q)) c)) = ix3 (colK q) c (colJ q) := funext fun a => Fin.ext (by
      match a with
      | ⟨0, _⟩ => show (0 : Nat) = q.val / 16; omega
      | ⟨1, _⟩ => show (c.val * 16 + q.val % 16) / 16 % 128 = c.val; omega
      | ⟨2, _⟩ => show (c.val * 16 + q.val % 16) % 16 = q.val % 16; omega)
    rw [e0, e2]
  · -- the bias: the two broadcasts, the reshape and the slice read b1[0, q % 16]
    have e3 : idx_main_v4 (idx_main_v5 (idx_main_v7 (idx_main_v8 (ix2 n (colJ q))))) = ix2 (colK q) (colJ q) := funext fun a => Fin.ext (by
      match a with
      | ⟨0, _⟩ => show (0 : Nat) = q.val / 16; omega
      | ⟨1, _⟩ => show (q.val % 16) % 16 = q.val % 16; omega)
    rw [e3]

/-- The first branch's hidden block, max (hg · lin) 0, at node i and unit q % 16 is the specification's hidden
    layer at the hidden column q (q / 16 = 0). The rectifier's zero is the same float word on both sides. -/
theorem hid_b0 (i : Fin 10000) (q : Fin 64) (hq : q.val / 16 = 0) :
    val_main_v11 (F := Ideal) x0 x1 x2 x3 (ix2 i (colJ q)) = hid x0 x1 x2 x3 i q := by
  rw [val_main_v11_apply, val_main_v10_apply, val_main_call0_v0_apply, val_main_call0_cst_apply, Ideal.maximumf_def,
    Ideal.ofBits_def]
  unfold hid
  congr 1
  refine Finset.sum_congr rfl fun n _ => ?_
  have el : lidx_main_v10 (ix2 i (colJ q)) n = ix2 i n := funext fun a => Fin.ext (by
    match a with
    | ⟨0, _⟩ => rfl
    | ⟨1, _⟩ => rfl)
  have er : ridx_main_v10 (ix2 i (colJ q)) n = ix2 n (colJ q) := funext fun a => Fin.ext (by
    match a with
    | ⟨0, _⟩ => rfl
    | ⟨1, _⟩ => rfl)
  rw [el, er, lin_b0 x0 x2 x3 n q hq]

/-- The second branch's linear layer (branch 1: x[1] · W1[1] + b1[1]) at node n and unit q % 16 is the
    specification's linear layer at the hidden column q, for every column q of that branch (q / 16 = 1). -/
theorem lin_b1 (n : Fin 10000) (q : Fin 64) (hq : q.val / 16 = 1) :
    val_main_v21 (F := Ideal) x0 x2 x3 (ix2 n (colJ q)) = lin x0 x2 x3 n q := by
  have hn := n.isLt
  have hqlt := q.isLt
  rw [val_main_v21_apply, val_main_v18_apply, val_main_v20_apply, val_main_v19_apply, val_main_v17_apply, val_main_v16_apply, Ideal.addf_def]
  unfold lin
  congr 1
  · -- the product x[1] · W1[1]: term by term, the slice and the reshape read x[1, n, c] and W1[1, c, q % 16]
    refine Finset.sum_congr rfl fun c _ => ?_
    have hc := c.isLt
    rw [val_main_v13_apply, val_main_v12_apply, val_main_v15_apply, val_main_v14_apply]
    have e0 : idx_main_v12 (idx_main_v13 (lidx_main_v18 (ix2 n (colJ q)) c)) = ix3 (colK q) n c := funext fun a => Fin.ext (by
      match a with
      | ⟨0, _⟩ => show (1 + 0 : Nat) = q.val / 16; omega
      | ⟨1, _⟩ => show (n.val * 128 + c.val) / 128 % 10000 = n.val; omega
      | ⟨2, _⟩ => show (n.val * 128 + c.val) % 128 = c.val; omega)
    have e2 : idx_main_v14 (idx_main_v15 (ridx_main_v18 (ix2 n (colJ q)) c)) = ix3 (colK q) c (colJ q) := funext fun a => Fin.ext (by
      match a with
      | ⟨0, _⟩ => show (1 + 0 : Nat) = q.val / 16; omega
      | ⟨1, _⟩ => show (c.val * 16 + q.val % 16) / 16 % 128 = c.val; omega
      | ⟨2, _⟩ => show (c.val * 16 + q.val % 16) % 16 = q.val % 16; omega)
    rw [e0, e2]
  · -- the bias: the two broadcasts, the reshape and the slice read b1[1, q % 16]
    have e3 : idx_main_v16 (idx_main_v17 (idx_main_v19 (idx_main_v20 (ix2 n (colJ q))))) = ix2 (colK q) (colJ q) := funext fun a => Fin.ext (by
      match a with
      | ⟨0, _⟩ => show (1 + 0 : Nat) = q.val / 16; omega
      | ⟨1, _⟩ => show (q.val % 16) % 16 = q.val % 16; omega)
    rw [e3]

/-- The second branch's hidden block, max (hg · lin) 0, at node i and unit q % 16 is the specification's hidden
    layer at the hidden column q (q / 16 = 1). The rectifier's zero is the same float word on both sides. -/
theorem hid_b1 (i : Fin 10000) (q : Fin 64) (hq : q.val / 16 = 1) :
    val_main_v23 (F := Ideal) x0 x1 x2 x3 (ix2 i (colJ q)) = hid x0 x1 x2 x3 i q := by
  rw [val_main_v23_apply, val_main_v22_apply, val_main_call1_v0_apply, val_main_call1_cst_apply, Ideal.maximumf_def,
    Ideal.ofBits_def]
  unfold hid
  congr 1
  refine Finset.sum_congr rfl fun n _ => ?_
  have el : lidx_main_v22 (ix2 i (colJ q)) n = ix2 i n := funext fun a => Fin.ext (by
    match a with
    | ⟨0, _⟩ => rfl
    | ⟨1, _⟩ => rfl)
  have er : ridx_main_v22 (ix2 i (colJ q)) n = ix2 n (colJ q) := funext fun a => Fin.ext (by
    match a with
    | ⟨0, _⟩ => rfl
    | ⟨1, _⟩ => rfl)
  rw [el, er, lin_b1 x0 x2 x3 n q hq]

/-- The third branch's linear layer (branch 2: x[2] · W1[2] + b1[2]) at node n and unit q % 16 is the
    specification's linear layer at the hidden column q, for every column q of that branch (q / 16 = 2). -/
theorem lin_b2 (n : Fin 10000) (q : Fin 64) (hq : q.val / 16 = 2) :
    val_main_v33 (F := Ideal) x0 x2 x3 (ix2 n (colJ q)) = lin x0 x2 x3 n q := by
  have hn := n.isLt
  have hqlt := q.isLt
  rw [val_main_v33_apply, val_main_v30_apply, val_main_v32_apply, val_main_v31_apply, val_main_v29_apply, val_main_v28_apply, Ideal.addf_def]
  unfold lin
  congr 1
  · -- the product x[2] · W1[2]: term by term, the slice and the reshape read x[2, n, c] and W1[2, c, q % 16]
    refine Finset.sum_congr rfl fun c _ => ?_
    have hc := c.isLt
    rw [val_main_v25_apply, val_main_v24_apply, val_main_v27_apply, val_main_v26_apply]
    have e0 : idx_main_v24 (idx_main_v25 (lidx_main_v30 (ix2 n (colJ q)) c)) = ix3 (colK q) n c := funext fun a => Fin.ext (by
      match a with
      | ⟨0, _⟩ => show (2 + 0 : Nat) = q.val / 16; omega
      | ⟨1, _⟩ => show (n.val * 128 + c.val) / 128 % 10000 = n.val; omega
      | ⟨2, _⟩ => show (n.val * 128 + c.val) % 128 = c.val; omega)
    have e2 : idx_main_v26 (idx_main_v27 (ridx_main_v30 (ix2 n (colJ q)) c)) = ix3 (colK q) c (colJ q) := funext fun a => Fin.ext (by
      match a with
      | ⟨0, _⟩ => show (2 + 0 : Nat) = q.val / 16; omega
      | ⟨1, _⟩ => show (c.val * 16 + q.val % 16) / 16 % 128 = c.val; omega
      | ⟨2, _⟩ => show (c.val * 16 + q.val % 16) % 16 = q.val % 16; omega)
    rw [e0, e2]
  · -- the bias: the two broadcasts, the reshape and the slice read b1[2, q % 16]
    have e3 : idx_main_v28 (idx_main_v29 (idx_main_v31 (idx_main_v32 (ix2 n (colJ q))))) = ix2 (colK q) (colJ q) := funext fun a => Fin.ext (by
      match a with
      | ⟨0, _⟩ => show (2 + 0 : Nat) = q.val / 16; omega
      | ⟨1, _⟩ => show (q.val % 16) % 16 = q.val % 16; omega)
    rw [e3]

/-- The third branch's hidden block, max (hg · lin) 0, at node i and unit q % 16 is the specification's hidden
    layer at the hidden column q (q / 16 = 2). The rectifier's zero is the same float word on both sides. -/
theorem hid_b2 (i : Fin 10000) (q : Fin 64) (hq : q.val / 16 = 2) :
    val_main_v35 (F := Ideal) x0 x1 x2 x3 (ix2 i (colJ q)) = hid x0 x1 x2 x3 i q := by
  rw [val_main_v35_apply, val_main_v34_apply, val_main_call2_v0_apply, val_main_call2_cst_apply, Ideal.maximumf_def,
    Ideal.ofBits_def]
  unfold hid
  congr 1
  refine Finset.sum_congr rfl fun n _ => ?_
  have el : lidx_main_v34 (ix2 i (colJ q)) n = ix2 i n := funext fun a => Fin.ext (by
    match a with
    | ⟨0, _⟩ => rfl
    | ⟨1, _⟩ => rfl)
  have er : ridx_main_v34 (ix2 i (colJ q)) n = ix2 n (colJ q) := funext fun a => Fin.ext (by
    match a with
    | ⟨0, _⟩ => rfl
    | ⟨1, _⟩ => rfl)
  rw [el, er, lin_b2 x0 x2 x3 n q hq]

/-- The fourth branch's linear layer (branch 3: x[3] · W1[3] + b1[3]) at node n and unit q % 16 is the
    specification's linear layer at the hidden column q, for every column q of that branch (q / 16 = 3). -/
theorem lin_b3 (n : Fin 10000) (q : Fin 64) (hq : q.val / 16 = 3) :
    val_main_v45 (F := Ideal) x0 x2 x3 (ix2 n (colJ q)) = lin x0 x2 x3 n q := by
  have hn := n.isLt
  have hqlt := q.isLt
  rw [val_main_v45_apply, val_main_v42_apply, val_main_v44_apply, val_main_v43_apply, val_main_v41_apply, val_main_v40_apply, Ideal.addf_def]
  unfold lin
  congr 1
  · -- the product x[3] · W1[3]: term by term, the slice and the reshape read x[3, n, c] and W1[3, c, q % 16]
    refine Finset.sum_congr rfl fun c _ => ?_
    have hc := c.isLt
    rw [val_main_v37_apply, val_main_v36_apply, val_main_v39_apply, val_main_v38_apply]
    have e0 : idx_main_v36 (idx_main_v37 (lidx_main_v42 (ix2 n (colJ q)) c)) = ix3 (colK q) n c := funext fun a => Fin.ext (by
      match a with
      | ⟨0, _⟩ => show (3 + 0 : Nat) = q.val / 16; omega
      | ⟨1, _⟩ => show (n.val * 128 + c.val) / 128 % 10000 = n.val; omega
      | ⟨2, _⟩ => show (n.val * 128 + c.val) % 128 = c.val; omega)
    have e2 : idx_main_v38 (idx_main_v39 (ridx_main_v42 (ix2 n (colJ q)) c)) = ix3 (colK q) c (colJ q) := funext fun a => Fin.ext (by
      match a with
      | ⟨0, _⟩ => show (3 + 0 : Nat) = q.val / 16; omega
      | ⟨1, _⟩ => show (c.val * 16 + q.val % 16) / 16 % 128 = c.val; omega
      | ⟨2, _⟩ => show (c.val * 16 + q.val % 16) % 16 = q.val % 16; omega)
    rw [e0, e2]
  · -- the bias: the two broadcasts, the reshape and the slice read b1[3, q % 16]
    have e3 : idx_main_v40 (idx_main_v41 (idx_main_v43 (idx_main_v44 (ix2 n (colJ q))))) = ix2 (colK q) (colJ q) := funext fun a => Fin.ext (by
      match a with
      | ⟨0, _⟩ => show (3 + 0 : Nat) = q.val / 16; omega
      | ⟨1, _⟩ => show (q.val % 16) % 16 = q.val % 16; omega)
    rw [e3]

/-- The fourth branch's hidden block, max (hg · lin) 0, at node i and unit q % 16 is the specification's hidden
    layer at the hidden column q (q / 16 = 3). The rectifier's zero is the same float word on both sides. -/
theorem hid_b3 (i : Fin 10000) (q : Fin 64) (hq : q.val / 16 = 3) :
    val_main_v47 (F := Ideal) x0 x1 x2 x3 (ix2 i (colJ q)) = hid x0 x1 x2 x3 i q := by
  rw [val_main_v47_apply, val_main_v46_apply, val_main_call3_v0_apply, val_main_call3_cst_apply, Ideal.maximumf_def,
    Ideal.ofBits_def]
  unfold hid
  congr 1
  refine Finset.sum_congr rfl fun n _ => ?_
  have el : lidx_main_v46 (ix2 i (colJ q)) n = ix2 i n := funext fun a => Fin.ext (by
    match a with
    | ⟨0, _⟩ => rfl
    | ⟨1, _⟩ => rfl)
  have er : ridx_main_v46 (ix2 i (colJ q)) n = ix2 n (colJ q) := funext fun a => Fin.ext (by
    match a with
    | ⟨0, _⟩ => rfl
    | ⟨1, _⟩ => rfl)
  rw [el, er, lin_b3 x0 x2 x3 n q hq]

/-- The concatenation of the four hidden blocks along the columns is the specification's hidden layer: column q
    lies in piece q / 16, at column q % 16 of that piece. -/
theorem cat (i : Fin 10000) (q : Fin 64) :
    val_main_v48 (F := Ideal) x0 x1 x2 x3 (ix2 i q) = hid x0 x1 x2 x3 i q := by
  have hqlt := q.isLt
  have hoff : ∀ b : Fin S10000x16.rank, b.cast (rfl : S10000x16.rank = S10000x64.rank) ≠ (1 : Fin S10000x64.rank) →
      ((ix2 i (colJ q) : S10000x16.Idx) b).val = ((ix2 i q : S10000x64.Idx) (b.cast rfl)).val := fun b hb => by
    match b with
    | ⟨0, _⟩ => rfl
    | ⟨1, _⟩ => exact absurd rfl hb
  have hk : q.val / 16 = 0 ∨ q.val / 16 = 1 ∨ q.val / 16 = 2 ∨ q.val / 16 = 3 := by omega
  unfold val_main_v48
  rcases hk with hk | hk | hk | hk
  · -- columns 0..15: piece 0, at column q - 0 = q % 16
    rw [← hid_b0 x0 x1 x2 x3 i q hk]
    exact concatenate_apply_piece 1 _ _ (ix2 i q) 0 (by show (0 : Nat) < 4; omega) S10000x16 _ rfl rfl 0 rfl
      (ix2 i (colJ q)) hoff (by show 0 + q.val % 16 = q.val; omega)
  · -- columns 16..31: piece 1, at column q - 16 = q % 16
    rw [← hid_b1 x0 x1 x2 x3 i q hk]
    exact concatenate_apply_piece 1 _ _ (ix2 i q) 1 (by show (1 : Nat) < 4; omega) S10000x16 _ rfl rfl 16 rfl
      (ix2 i (colJ q)) hoff (by show 16 + q.val % 16 = q.val; omega)
  · -- columns 32..47: piece 2, at column q - 32 = q % 16
    rw [← hid_b2 x0 x1 x2 x3 i q hk]
    exact concatenate_apply_piece 1 _ _ (ix2 i q) 2 (by show (2 : Nat) < 4; omega) S10000x16 _ rfl rfl 32 rfl
      (ix2 i (colJ q)) hoff (by show 32 + q.val % 16 = q.val; omega)
  · -- columns 48..63: piece 3, at column q - 48 = q % 16
    rw [← hid_b3 x0 x1 x2 x3 i q hk]
    exact concatenate_apply_piece 1 _ _ (ix2 i q) 3 (by show (3 : Nat) < 4; omega) S10000x16 _ rfl rfl 48 rfl
      (ix2 i (colJ q)) hoff (by show 48 + q.val % 16 = q.val; omega)

/-- The second linear layer: (concatenated hidden layer) · W2 + b2 at node n, class o. -/
theorem cls_eq (n : Fin 10000) (o : Fin 40) :
    val_main_v52 (F := Ideal) x0 x1 x2 x3 x4 x5 (ix2 n o) = cls x0 x1 x2 x3 x4 x5 n o := by
  rw [val_main_v52_apply, val_main_v49_apply, val_main_v51_apply, val_main_v50_apply, Ideal.addf_def]
  unfold cls
  congr 1
  · refine Finset.sum_congr rfl fun q _ => ?_
    have el : lidx_main_v49 (ix2 n o) q = ix2 n q := funext fun a => Fin.ext (by
      match a with
      | ⟨0, _⟩ => rfl
      | ⟨1, _⟩ => rfl)
    have er : ridx_main_v49 (ix2 n o) q = ix2 q o := funext fun a => Fin.ext (by
      match a with
      | ⟨0, _⟩ => rfl
      | ⟨1, _⟩ => rfl)
    rw [el, er, cat x0 x1 x2 x3 n q]
  · have e5 : idx_main_v50 (idx_main_v51 (ix2 n o)) = ix1 o := funext fun a => Fin.ext (by
      match a with
      | ⟨0, _⟩ => rfl)
    rw [e5]

end Stages

/-- The reference's result is the specification's: hg · (second linear layer), index by index. -/
theorem ref_is_G (x0 : (⟨S4x10000x128, .f32⟩ : BufTy).Contents (Elt Ideal)) (x1 : (⟨S10000x10000, .f32⟩ : BufTy).Contents (Elt Ideal))
    (x2 : (⟨S4x128x16, .f32⟩ : BufTy).Contents (Elt Ideal)) (x3 : (⟨S4x16, .f32⟩ : BufTy).Contents (Elt Ideal))
    (x4 : (⟨S64x40, .f32⟩ : BufTy).Contents (Elt Ideal)) (x5 : (⟨S40, .f32⟩ : BufTy).Contents (Elt Ideal)) :
    Cert.ReferenceIdeal.Read.val_main_v53 (F := Ideal) x0 x1 x2 x3 x4 x5 = Cert.TwoPass.G x0 x1 x2 x3 x4 x5 := by
  funext i
  obtain ⟨p, o, rfl⟩ : ∃ (p : Fin 10000) (o : Fin 40), i = ix2 p o := ⟨i 0, i 1, eq_ix2 i⟩
  rw [val_main_v53_apply]
  show _ = res x0 x1 x2 x3 x4 x5 p o
  unfold res
  refine Finset.sum_congr rfl fun n _ => ?_
  have el : lidx_main_v53 (ix2 p o) n = ix2 p n := funext fun a => Fin.ext (by
    match a with
    | ⟨0, _⟩ => rfl
    | ⟨1, _⟩ => rfl)
  have er : ridx_main_v53 (ix2 p o) n = ix2 n o := funext fun a => Fin.ext (by
    match a with
    | ⟨0, _⟩ => rfl
    | ⟨1, _⟩ => rfl)
  rw [el, er, cls_eq x0 x1 x2 x3 x4 x5 n o]

end Cert.ReferenceIdeal.RefValue

end
-- ==== Proof.lean ====
/-
  A three-phase kernel against its plain reference, as extended reals.

  Both programs compute, for node i and class o,
      out[i, o] = Σ_n hg[i, n] · ( Σ_q max(Σ_n' hg[n, n'] · (Σ_c x[k, n', c] · W1[k, c, j] + b1[k, j]), 0) · W2[q, o] + b2[o] )
  with q = 16·k + j over the 64 hidden columns.  The reference smooths each 16-wide branch separately and joins the
  four results along the columns; the kernel keeps the 64-wide linear layer in a scratch buffer over a first pass of
  25 row blocks, smooths, rectifies and applies the second layer over a second pass into a second scratch, and
  smooths again over a third pass into the output.  Joining columns commutes with the row-wise smoothing, so no sum
  is regrouped: the two sides are the same sums, and the precondition is not used.

  The frames of the word-level kernel and of its idealization are one proof read at two float instances: the region
  keeps both scratch buffers at contents whose already-written rows are named, each phase's body runs on them, and
  the argument arrays are only read.  The reference's frame is its run.  The idealization rewrote nothing.
-/
import proofs.«150119_g28870770163985_cont_9to1_1761_2_alg».proof.Defs
import proofs.«150119_g28870770163985_cont_9to1_1761_2_alg».proof.Proof.Gen.Kernel
import proofs.«150119_g28870770163985_cont_9to1_1761_2_alg».proof.Proof.Gen.KernelIdeal
import proofs.«150119_g28870770163985_cont_9to1_1761_2_alg».proof.Proof.Gen.ReferenceIdeal
import proofs.«150119_g28870770163985_cont_9to1_1761_2_alg».proof.Proof.Gen.Pre_finite_inputs
import proofs.«150119_g28870770163985_cont_9to1_1761_2_alg».proof.Proof.Gen.ReferenceIdeal.Run
import proofs.«150119_g28870770163985_cont_9to1_1761_2_alg».proof.Proof.Gen.ReferenceIdeal.Read
import proofs.«150119_g28870770163985_cont_9to1_1761_2_alg».proof.Proof.BitsBody
import proofs.«150119_g28870770163985_cont_9to1_1761_2_alg».proof.Proof.Body
import proofs.«150119_g28870770163985_cont_9to1_1761_2_alg».proof.Proof.KValue
import proofs.«150119_g28870770163985_cont_9to1_1761_2_alg».proof.Proof.RefValue

noncomputable section

namespace Cert.Proof

open Idealize.ShloMosaic Idealize.ShloMosaic.TcCoe Idealize.SL.Sem

/-- The word-level kernel runs to the end, faults nowhere and leaves its arguments unchanged. -/
theorem frame_k : Cert.frame_Kernel := fun m ρ _ => Cert.Kernel.Body.frame m ρ

/-- So does its idealization: the same proof at the extended reals. -/
theorem frame_ki : Cert.frame_KernelIdeal := fun m ρ _ => Cert.KernelIdeal.Body.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result array at the specification's function of the arguments. -/
theorem algebraic : Cert.algebraic_KernelIdeal_ReferenceIdeal := by
  intro m ρ m' ρ' _ hagree
  refine ⟨fun c => Cert.TwoPass.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, Cert.ReferenceIdeal.RefValue.ref_is_G,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
